-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649247#32 ((67108864 / 4697621 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S4096x6 : Shape := ⟨2, ![4096, 6]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel
  bcast_S_S4096x6 : S_.BroadcastsInDim S4096x6 (![] : Fin 0 → Fin S4096x6.rank)
  reducesTo_S4096x6_S_d0_1 : S4096x6.ReducesTo [0, 1] S_

variable [Facts]

def fn {F : FTy → Type} [FloatOps F] (main_arg0 : FVec F S4096x2x128 .f32) (main_arg1 : IVec S4096x6 32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  let main_c_0 : IVec S_ 32 := constantI S_ 32 0#32
  let main_v4 : IVec S4096x6 32 := broadcastInDim S4096x6 ![] bcast_S_S4096x6 main_c_0
  let main_v5 : IVec S4096x6 1 := cmpi .eq main_arg1 main_v4
  let main_c_1 : IVec S_ 32 := constantI S_ 32 1#32
  let main_v6 : IVec S4096x6 32 := broadcastInDim S4096x6 ![] bcast_S_S4096x6 main_c_1
  let main_v7 : IVec S4096x6 1 := cmpi .eq main_arg1 main_v6
  let main_v8 : IVec S4096x6 1 := ori main_v5 main_v7
  let main_c_2 : IVec S_ 1 := constantI S_ 1 1#1
  let main_v9 : IVec S_ 1 := (fun x v => Host.reduce IntOp.andi x v reducesTo_S4096x6_S_d0_1 h_S_) main_v8 main_c_2
  let main_v10 : IVec S_ 1 := andi main_v3 main_v9
  main_v10
-- ==== Kernel.lean ====
abbrev S4096x2x128 : Shape := ⟨3, ![4096, 2, 128]⟩
abbrev S4096x6 : Shape := ⟨2, ![4096, 6]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x128 : Shape := ⟨2, ![4096, 128]⟩
abbrev S2x4096x128 : Shape := ⟨3, ![2, 4096, 128]⟩
abbrev S8192x128 : Shape := ⟨2, ![8192, 128]⟩
abbrev S1x8192 : Shape := ⟨2, ![1, 8192]⟩
abbrev S512x128 : Shape := ⟨2, ![512, 128]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S512 : Shape := ⟨1, ![512]⟩

abbrev nBuf : Space → Nat
  | .hbm => 19
  | .vmem => 19
  | .smem => 0
  | _ => 0

abbrev bufTy : (tb : Table) → Fin (tcTables nBuf tb) → BufTy
  | .hbm, ⟨0, _⟩ => ⟨S4096x2x128, .f32⟩
  | .hbm, ⟨1, _⟩ => ⟨S4096x6, .i32⟩
  | .hbm, ⟨2, _⟩ => ⟨S4096x6, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x6, .bf16⟩
  | .hbm, ⟨8, _⟩ => ⟨S_, .i32⟩
  | .hbm, ⟨9, _⟩ => ⟨S_, .bf16⟩
  | .hbm, ⟨10, _⟩ => ⟨S4096x128, .bf16⟩
  | .hbm, ⟨11, _⟩ => ⟨S2x4096x128, .f32⟩
  | .hbm, ⟨12, _⟩ => ⟨S8192x128, .f32⟩
  | .hbm, ⟨13, _⟩ => ⟨S8192x128, .bf16⟩
  | .hbm, ⟨14, _⟩ => ⟨S1x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v88 : BitVec 1 := Scalar.cmpi .eq arg1 c15_i32
  let v89 : BitVec 32 := Scalar.extui v88
  let c0_i32_42 : BitVec 32 := 0#32
  let v90 : BitVec 1 := Scalar.cmpi .ne v89 c0_i32_42
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x6_S4096_d1 : S4096x6.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  pads_S4096x6_S4096x128_000_01220 : S4096x6.Pads (![0, 0] : Fin 2 → Nat) ![0, 122] ![0, 0] S4096x128
  transposes_S4096x2x128_S2x4096x128_1_0_2 : S4096x2x128.Transposes [1, 0, 2] S2x4096x128
  shapeCasts_S2x4096x128_S8192x128 : S2x4096x128.ShapeCasts S8192x128
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S512x512_d0_w32 : S512x512.Iotas .tc 32 [0]
  iota_S512x512_d1_w32 : S512x512.Iotas .tc 32 [1]
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  transposes_S512x1_p1_0_S1x512 : S512x1.Transposes [1, 0] S1x512
  reducesTo_S1x8192_S_d0_1 : S1x8192.ReducesTo [0, 1] S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .bf16 = 32 ∨ (Rect.block (s := S4096x128) S512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v8) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2x128 : Shape := ⟨3, ![4096, 2, 128]⟩
abbrev S4096x6 : Shape := ⟨2, ![4096, 6]⟩
abbrev S4096x1x6 : Shape := ⟨3, ![4096, 1, 6]⟩
abbrev S1x4096x6 : Shape := ⟨3, ![1, 4096, 6]⟩
abbrev S4096x4096x6 : Shape := ⟨3, ![4096, 4096, 6]⟩
abbrev S_ : Shape := ⟨0, ![]⟩
abbrev S4096x4096 : Shape := ⟨2, ![4096, 4096]⟩
abbrev S2x4096x128 : Shape := ⟨3, ![2, 4096, 128]⟩
abbrev S8192x128 : Shape := ⟨2, ![8192, 128]⟩
abbrev S128x8192 : Shape := ⟨2, ![128, 8192]⟩
abbrev S8192x8192 : Shape := ⟨2, ![8192, 8192]⟩
abbrev S8192 : Shape := ⟨1, ![8192]⟩
abbrev S8192x1 : Shape := ⟨2, ![8192, 1]⟩
abbrev S1x4096x1x4096 : Shape := ⟨4, ![1, 4096, 1, 4096]⟩
abbrev S2x4096x2x4096 : Shape := ⟨4, ![2, 4096, 2, 4096]⟩
abbrev S2x4096 : Shape := ⟨2, ![2, 4096]⟩

abbrev nBuf : Space → Nat
  | .hbm => 81
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S4096x6, .i32⟩
  | .hbm, ⟨2, _⟩ => ⟨S4096x6, .f32⟩
  | .hbm, ⟨3, _⟩ => ⟨S4096x1x6, .f32⟩
  | .hbm, ⟨4, _⟩ => ⟨S1x4096x6, .f32⟩
  | .hbm, ⟨5, _⟩ => ⟨S4096x4096x6, .f32⟩
  | .hbm, ⟨6, _⟩ => ⟨S4096x4096x6, .f32⟩
  | .hbm, ⟨7, _⟩ => ⟨S4096x4096x6, .f32⟩
  | .hbm, ⟨8, _⟩ => ⟨S_, .f32⟩
  | .hbm, ⟨9, _⟩ => ⟨S4096x4096, .f32⟩
  | .hbm, ⟨10, _⟩ => ⟨S4096x4096x6, .f32⟩
  | .hbm, ⟨11, _⟩ => ⟨S4096x4096x6, .f32⟩
  | .hbm, ⟨12, _⟩ => ⟨S4096x4096x6, .f32⟩
  | .hbm, ⟨13, _⟩ => ⟨S_, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S4096x4096, .f32⟩
  | .hbm, ⟨23, _⟩ => ⟨S2x4096x128, .f32⟩
  | .hbm, ⟨24, _⟩ => ⟨S8192x128, .f32⟩
  | .hbm, ⟨25, _⟩ => ⟨S128x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S1x4096x1x4096, .f32⟩
  | .hbm, ⟨36, _⟩ => ⟨S2x4096x2x4096, .f32⟩
  | .hbm, ⟨37, _⟩ => ⟨S8192x8192, .f32⟩
  | .hbm, ⟨38, _⟩ => ⟨S1x4096x1x4096, .f32⟩
  | .hbm, ⟨39, _⟩ => ⟨S2x4096x2x4096, .f32⟩
  | .hbm, ⟨40, _⟩ => ⟨S8192x8192, .f32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S2x4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩

abbrev nD : Nat := 1
abbrev τ : Topo := Topo.v7x

variable {F : FTy → Type} [FloatOps F]

class Facts₀ : Prop where
  bcast_S4096x6_S4096x1x6_0_2 : S4096x6.BroadcastsInDim S4096x1x6 (![0, 2] : Fin 2 → Fin S4096x1x6.rank)
  bcast_S4096x6_S1x4096x6_1_2 : S4096x6.BroadcastsInDim S1x4096x6 (![1, 2] : Fin 2 → Fin S1x4096x6.rank)
  bcast_S4096x1x6_S4096x4096x6_0_1_2 : S4096x1x6.BroadcastsInDim S4096x4096x6 (![0, 1, 2] : Fin 3 → Fin S4096x4096x6.rank)
  bcast_S1x4096x6_S4096x4096x6_0_1_2 : S1x4096x6.BroadcastsInDim S4096x4096x6 (![0, 1, 2] : Fin 3 → Fin S4096x4096x6.rank)
  reducesTo_S4096x4096x6_S4096x4096_d2 : S4096x4096x6.ReducesTo [2] S4096x4096
  h_S_ : 0 < S_.numel
  bcast_S_S4096x4096 : S_.BroadcastsInDim S4096x4096 (![] : Fin 0 → Fin S4096x4096.rank)
  transposes_S4096x2x128_S2x4096x128_1_0_2 : S4096x2x128.Transposes [1, 0, 2] S2x4096x128
  shapeCasts_S2x4096x128_S8192x128 : S2x4096x128.ShapeCasts S8192x128
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192x1 : S_.BroadcastsInDim S8192x1 (![] : Fin 0 → Fin S8192x1.rank)
  bcast_S_S8192 : S_.BroadcastsInDim S8192 (![] : Fin 0 → Fin S8192.rank)
  shapeCasts_S8192_S2x4096 : S8192.ShapeCasts S2x4096
  reducesTo_S2x4096_S_d0_1 : S2x4096.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Run.lean ====
import proofs.«141123_j17076789969009_2_alg».proof.Proof.Gen.Kernel.Launch
import proofs.«141123_j17076789969009_2_alg».proof.Proof.Gen.Kernel.Skeleton
import proofs.«141123_j17076789969009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main through its one kernel region, over abstract proof data

@main is three stretches of host operations, one kernel region (a 16×16 grid pipeline of seven windows), and a last
stretch. The buffer contents at the five boundaries are a fold from the launch memory: a stretch's operations applied
in order, the region replacing the output array by what its write-backs leave.

Two pairs of the region's windows read ONE array each (windows 0 and 1 the anchor/contrast rows, windows 2 and 3 the
label rows). On entry the full share of such an array is split into its two halves, one per window; on exit the
halves — both still at the entry contents, an input array never being written — are joined back. The other arrays are
held whole.

Everything here is generic in the float type and takes the pipeline's proof data with its properties as hypotheses.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- How the two halves of a shared array are dealt: windows 0 and 2 read through the left half of their array's
    share, windows 1 and 3 through the right half; the other windows hold their arrays whole. -/
abbrev qSplit : Fin 7 → PosShare TreeShare := fun w => match w with
  | ⟨0, _⟩ => fullShare.left | ⟨1, _⟩ => fullShare.right | ⟨2, _⟩ => fullShare.left | ⟨3, _⟩ => fullShare.right
  | ⟨4, _⟩ => fullShare | ⟨5, _⟩ => fullShare | ⟨6, _⟩ => fullShare

variable (dat0 : (V : (c : Dev nD) → (b : Ref sig .tc) → Buf (Elt F) ((c : Thread nD τ).loc b)) → (c : Dev nD) → Dat τ (Elt F) Unit ℕ (UR sig nD τ) ℕ cfg0 c)
  (hA : ∀ V c w, (dat0 V c).A w = V c (Pipeline.arrRef spec0 w))
  (hq : ∀ V c, (dat0 V c).q = fun w => match w with | ⟨0,_⟩ => fullShare.left | ⟨1,_⟩ => fullShare.right | ⟨2,_⟩ => fullShare.left | ⟨3,_⟩ => fullShare.right | ⟨4,_⟩ => fullShare | ⟨5,_⟩ => fullShare | ⟨6,_⟩ => fullShare)
  (howed : ∀ V c t, (dat0 V c).owed t = 0) (hrec : ∀ V c t, (dat0 V c).recorded t = Set.univ)
  (hbody : ∀ V c, BodyObligation (dat0 V c) (defs₀ (F := F)) Variants.none () Set.univ)
  (hin : ∀ V c, Pipeline.ΦA spec0 c ⊢ (dat0 V c).Φ 0) (hout : ∀ V c, (dat0 V c).Φ (Fin.last cfg0.N) ⊢ Pipeline.ΦA spec0 c)

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
/-- After the called function's two operations. -/
abbrev W2 : Dev nD → Valuation τ sig (Elt F) := fun c => StableHlo.after hostOps0_1 (W1 m ρ c)
/-- After the third stretch: the contents the region is entered from. -/
abbrev W3 : Dev nD → Valuation τ sig (Elt F) := fun c => StableHlo.after hostOps0_2 (W2 m ρ c)
/-- The same read at the TensorCore's references (what the proof data take). -/
abbrev V3 : (c : Dev nD) → (b : Ref sig .tc) → Buf (Elt F) ((c : Thread nD τ).loc b) := fun c b => W3 m ρ c b
/-- At the region's exit: the output array at what the write-backs leave, every other buffer as entered
    (an input array is never written). -/
def W4 (c : Dev nD) : Valuation τ sig (Elt F) :=
  Function.update (W3 m ρ c) (Proc.devRef .tc main_v9) ((dat0 (V3 m ρ) c).arrAt 6 cfg0.N)
theorem W4_main_v9 (c : Dev nD) :
    W4 dat0 m ρ c (Proc.devRef .tc main_v9) = (dat0 (V3 m ρ) c).arrAt 6 cfg0.N := by
  unfold W4; exact Function.update_self ..
theorem W4_of_ne (c : Dev nD) (b : Ref sig .tc) (hb : b ≠ main_v9) :
    W4 dat0 m ρ c (Proc.devRef .tc b) = W3 m ρ c (Proc.devRef .tc b) := by
  unfold W4; exact Function.update_of_ne (StableHlo.devRef_ne_of_ne hb) ..
/-- The same read at the TensorCore's references (the region's exit contents). -/
abbrev V4 : (c : Dev nD) → (b : Ref sig .tc) → Buf (Elt F) ((c : Thread nD τ).loc b) := fun c b => W4 dat0 m ρ c b
/-- After the last stretch: the contents at the return. -/
abbrev W5 : Dev nD → Valuation τ sig (Elt F) := fun c => StableHlo.after hostOps1 (W4 dat0 m ρ c)

/-- A buffer that none of a stretch's operations writes keeps its contents through the stretch. -/
local macro "not_written" : tactic => `(tactic| (
  refine StableHlo.after_of_forall_not_mem _ _ (List.forall_iff_forall_mem.mp ?_)
  simp only [hostOps0, hostOps0_1, hostOps0_2, hostOps1, List.Forall, StableHlo.nullary_writes, StableHlo.unary_writes,
    StableHlo.binary_writes, StableHlo.reshape_writes, Finset.mem_singleton]
  repeat' apply And.intro
  all_goals exact StableHlo.devRef_ne_of_ne (by decide)))

/-! ### The arguments end as launched: no host operation writes one, and the region's arrays are others -/

theorem W5_main_arg0 (c : Dev nD) : W5 dat0 m ρ c (Proc.devRef .tc main_arg0) = m ((c : Thread nD τ).loc main_arg0) :=
  calc W5 dat0 m ρ c (Proc.devRef .tc main_arg0)
    _ = W4 dat0 m ρ c (Proc.devRef .tc main_arg0) := by not_written
    _ = W3 m ρ c (Proc.devRef .tc main_arg0) := W4_of_ne dat0 m ρ c main_arg0 (by decide)
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl
theorem W5_main_arg1 (c : Dev nD) : W5 dat0 m ρ c (Proc.devRef .tc main_arg1) = m ((c : Thread nD τ).loc main_arg1) :=
  calc W5 dat0 m ρ c (Proc.devRef .tc main_arg1)
    _ = W4 dat0 m ρ c (Proc.devRef .tc main_arg1) := by not_written
    _ = W3 m ρ c (Proc.devRef .tc main_arg1) := W4_of_ne dat0 m ρ c main_arg1 (by decide)
    _ = W2 m ρ c (Proc.devRef .tc main_arg1) := by not_written
    _ = W1 m ρ c (Proc.devRef .tc main_arg1) := by not_written
    _ = W0 m ρ c (Proc.devRef .tc main_arg1) := by not_written
    _ = m ((c : Thread nD τ).loc main_arg1) := rfl

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tₙ (c : Dev nD) : sProp 𝕄 := iprop(StableHlo.held (c : Thread nD τ) (Pipeline.ucRefs τ sig) (W5 dat0 m ρ c) ∗ ∃ r, prngReg c r)

/-- The core's `owes` as a pipeline point's, for proof data that owe nothing and record every pair; and back. -/
theorem owesAt_intro {c : Dev nD} (dat : Dat τ (Elt F) Unit ℕ (UR sig nD τ) ℕ cfg0 c) (t : Fin (cfg0.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {c : Dev nD} (dat : Dat τ (Elt F) Unit ℕ (UR sig nD τ) ℕ cfg0 c) (t : Fin (cfg0.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-! ## The shared arrays: the five buffers behind the seven windows, and how their shares are dealt -/

/-- A core's unscoped buffers are the buffers behind the windows' arrays and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ cfgs 0 winFacts₀0.arr_unscoped c V

/-- The five distinct buffers behind the seven windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v8) ↦{fullShare} V main_v8) ∗ (((c : Thread nD τ).loc main_v5) ↦{fullShare} V main_v5)
          ∗ (((c : Thread nD τ).loc main_v2) ↦{fullShare} V main_v2) ∗ (((c : Thread nD τ).loc main_v3) ↦{fullShare} V main_v3)
          ∗ (((c : Thread nD τ).loc main_v9) ↦{fullShare} V main_v9)) := by
  unfold Pipeline.arrBufs
  exact bigSep_eq_bigSepL_of_eq [main_v8, main_v5, main_v2, main_v3, main_v9] (by decide) (by decide) _

/-- The seven windows' arrays one by one, each at its share: the two windows on one array hold its two halves. -/
theorem arrays0_eq {c : Dev nD} (dat : Dat τ (Elt F) Unit ℕ (UR sig nD τ) ℕ cfg0 c) (hq : dat.q = qSplit)
    (Fa : (w : Fin cfg0.W) → Buf (Elt F) ((cfg0.win w).arr.view.loc (c : Thread nD τ))) :
    (dat.arrays Fa : sProp 𝕄) = iprop(
      (((c : Thread nD τ).loc main_v8) ↦{fullShare.left} Fa 0) ∗ (((c : Thread nD τ).loc main_v8) ↦{fullShare.right} Fa 1)
      ∗ (((c : Thread nD τ).loc main_v5) ↦{fullShare.left} Fa 2) ∗ (((c : Thread nD τ).loc main_v5) ↦{fullShare.right} Fa 3)
      ∗ (((c : Thread nD τ).loc main_v2) ↦{fullShare} Fa 4) ∗ (((c : Thread nD τ).loc main_v3) ↦{fullShare} Fa 5)
      ∗ (((c : Thread nD τ).loc main_v9) ↦{fullShare} Fa 6)) := by
  have hs : ∀ w : Fin 7, dat.share w = qSplit w := fun w => by
    unfold Dat.share; rw [hq]; fin_cases w <;> rfl
  have h : ∀ w : Fin 7, ((cfg0.win w).arr.view.loc (c : Thread nD τ) ↦[(cfg0.win w).arr.view.set]{dat.share w} Fa w : sProp 𝕄)
      = (((c : Thread nD τ).loc (Pipeline.arrRef spec0 w)) ↦{qSplit w} Fa w) := fun w => by
    rw [(arr_whole0 w).set_eq_univ, hs w]
  unfold Dat.arrays
  rw [bigSep_W0, h 0, h 1, h 2, h 3, h 4, h 5, h 6]

/-- The two halves of a buffer's share, at contents both equal to `g`, join to the full share at `g`. -/
theorem pt_join {ℓ : Loc nD τ sig} (f f' g : Buf (Elt F) ℓ) (h : f = g) (h' : f' = g) :
    iprop((ℓ ↦{fullShare.left} f) ∗ (ℓ ↦{fullShare.right} f')) ⊢ (ℓ ↦{fullShare} g : sProp 𝕄) := by
  subst h; subst h'
  exact (pointsTo_share (PosShare.mem_left_op_right fullShare)).2
/-- A points-to read at equal contents. -/
theorem pt_eq {ℓ : Loc nD τ sig} {q : PosShare TreeShare} (f g : Buf (Elt F) ℓ) (h : f = g) :
    (ℓ ↦{q} f : sProp 𝕄) ⊢ (ℓ ↦{q} g : sProp 𝕄) := by
  subst h; exact .rfl

include hA hq in
/-- ENTRY, the arrays' part: the unscoped buffers at the entry contents are the windows' arrays at the proof data's
    entry contents — the full share of each array read by two windows split into its two halves — and the rest. -/
theorem arrays_of_held (c : Dev nD) :
    (StableHlo.held (c : Thread nD τ) (Pipeline.ucRefs τ sig) (W3 m ρ c) : sProp 𝕄)
      ⊢ iprop((dat0 (V3 m ρ) c).arrays ((dat0 (V3 m ρ) c).arrAt · 0)
          ∗ Pipeline.unscopedRest (Ix := Unit) (Name := ℕ) (U := UR sig nD τ) (Lvl := ℕ) spec0 c (V3 m ρ c)) := by
  have e : ((dat0 (V3 m ρ) c).arrAt · 0) = fun w => V3 m ρ c (Pipeline.arrRef spec0 w) := funext fun w => hA _ c w
  rw [← Pipeline.unscopedBufs_held c (W3 m ρ c), unscopedBufs0_split, arrBufs0_eq, e, arrays0_eq _ (hq _ c)]
  iintro ⟨⟨H8, H5, H2, H3, H9⟩, Hrest⟩
  ihave H8 := (pointsTo_share (PosShare.mem_left_op_right fullShare)).1 $$ H8
  icases H8 with ⟨H8l, H8r⟩
  ihave H5 := (pointsTo_share (PosShare.mem_left_op_right fullShare)).1 $$ H5
  icases H5 with ⟨H5l, H5r⟩
  isplitr [Hrest]
  · isplitl [H8l]; · iexact H8l
    isplitl [H8r]; · iexact H8r
    isplitl [H5l]; · iexact H5l
    isplitl [H5r]; · iexact H5r
    isplitl [H2]; · iexact H2
    isplitl [H3]; · iexact H3
    iexact H9
  iexact Hrest

include hA in
/-- An input window's array ends at its entry contents, which the exit contents keep. -/
theorem arrAt_in_V4 (c : Dev nD) (w : Fin cfg0.W) (hw : (cfg0.win w).isOut = false) (hne : Pipeline.arrRef spec0 w ≠ main_v9) :
    (dat0 (V3 m ρ) c).arrAt w cfg0.N = V4 dat0 m ρ c (Pipeline.arrRef spec0 w) :=
  ((dat0 (V3 m ρ) c).arrAt_in w hw _).trans ((hA _ c w).trans (W4_of_ne dat0 m ρ c _ hne).symm)

include hA hq in
/-- EXIT, the arrays' part: the windows' arrays at their final contents — the two halves of each shared array joined
    back, both at the entry contents — and the rest are the unscoped buffers at the exit contents. -/
theorem held_of_arrays (c : Dev nD) :
    iprop((dat0 (V3 m ρ) c).arrays ((dat0 (V3 m ρ) c).arrAt · cfg0.N)
        ∗ Pipeline.unscopedRest (Ix := Unit) (Name := ℕ) (U := UR sig nD τ) (Lvl := ℕ) spec0 c (V3 m ρ c))
      ⊢ (StableHlo.held (c : Thread nD τ) (Pipeline.ucRefs τ sig) (W4 dat0 m ρ c) : sProp 𝕄) := by
  have hrest : (Pipeline.unscopedRest (Ix := Unit) (Name := ℕ) (U := UR sig nD τ) (Lvl := ℕ) spec0 c (V4 dat0 m ρ c) : sProp 𝕄)
      = Pipeline.unscopedRest spec0 c (V3 m ρ c) := by
    unfold Pipeline.unscopedRest
    refine bigSep_congr fun b hb => ?_
    have hne : b ≠ main_v9 := fun e => (Finset.mem_sdiff.mp hb).2 (Finset.mem_image.mpr ⟨6, Finset.mem_univ _, e ▸ rfl⟩)
    rw [show V4 dat0 m ρ c b = V3 m ρ c b from W4_of_ne dat0 m ρ c b hne]
  rw [← Pipeline.unscopedBufs_held c (W4 dat0 m ρ c), unscopedBufs0_split, arrBufs0_eq, hrest, arrays0_eq _ (hq _ c)]
  iintro ⟨⟨H8l, H8r, H5l, H5r, H2, H3, H9⟩, Hrest⟩
  isplitr [Hrest]
  · isplitl [H8l H8r]
    · iapply (pt_join _ _ _ (arrAt_in_V4 dat0 hA m ρ c 0 rfl (by decide)) (arrAt_in_V4 dat0 hA m ρ c 1 rfl (by decide)))
      isplitl [H8l] <;> iassumption
    isplitl [H5l H5r]
    · iapply (pt_join _ _ _ (arrAt_in_V4 dat0 hA m ρ c 2 rfl (by decide)) (arrAt_in_V4 dat0 hA m ρ c 3 rfl (by decide)))
      isplitl [H5l] <;> iassumption
    isplitl [H2]; · iapply (pt_eq _ _ (arrAt_in_V4 dat0 hA m ρ c 4 rfl (by decide))); iexact H2
    isplitl [H3]; · iapply (pt_eq _ _ (arrAt_in_V4 dat0 hA m ρ c 5 rfl (by decide))); iexact H3
    iapply (pt_eq _ _ (W4_main_v9 dat0 m ρ c).symm); iexact H9
  iexact Hrest

/-! ## The region as a segment -/

set_option backward.isDefEq.respectTransparency.types false in
/-- THE REGION over the thread state: entered from every unscoped buffer at `W3`, left at `W4`. Its arrays split
    out of the unscoped buffers with the shared arrays' shares halved (`arrays_of_held`) and put back at the exit
    contents (`held_of_arrays`); the generator register into the region invariant and out; nothing owed; no
    semaphore of the kernel's own. -/
def reg0 : Pipeline.RegionSeg (pcfgs (F := F)) adm (pdats dat0 m ρ) () defs₀ 𝒱₀ L lv 0 where
  win := winFacts₀0
  block_pos := block_pos0
  stage_whole := stage_whole0
  K := PEmpty
  osem k := k.elim
  ho := Pipeline.OwnSemFacts.none _
  hbody c := (hbody (V3 m ρ) c).loose
  hwaits := Pipeline.hwaits_of_owed_zero _ _ _ _ L lv 0 fun c t => howed (V3 m ρ) c t
  pre c := iprop(StableHlo.held (c : Thread nD τ) (Pipeline.ucRefs τ sig) (W3 m ρ c) ∗ R c)
  post c := iprop(StableHlo.held (c : Thread nD τ) (Pipeline.ucRefs τ sig) (W4 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := arrays_of_held dat0 hA hq m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (dat0 (V3 m ρ) c) 0 (howed _ c 0) (hrec _ c 0)); iexact HO
    isplitl [Hp]; · iexact Hp
    iexact Hrest
  hin c := by
    refine BIBase.Entails.trans ?_ (hin (V3 m ρ) c)
    unfold Pipeline.ΦA
    iintro ⟨Hp, -, Hr⟩
    isplitl [Hr]; · iexact Hr
    iexact Hp
  hout c := by
    rw [Pipeline.ownSems0_none]
    refine BIBase.Entails.trans (hout (V3 m ρ) c) ?_
    unfold Pipeline.ΦA
    iintro ⟨Hr, Hp⟩
    isplitl [Hp]; · iexact Hp
    isplitr; · iempintro
    iexact Hr
  hexit c := by
    have hjoin := held_of_arrays dat0 hA hq m ρ c
    iintro ⟨Ha, HO, HY, Hrest⟩
    imodintro
    isplitl [Ha Hrest]
    · iapply hjoin
      isplitl [Ha]; · iexact Ha
      iexact Hrest
    isplitl [HY]; · iexact HY
    iapply (owesAt_elim (dat0 (V3 m ρ) c) _ (howed _ c _)); iexact HO

/-! ## @main as segments, and the launch -/

/-- @main's five segments in order: three host stretches, the region, the last host stretch. -/
abbrev segs : List (Pipeline.Seg (pcfgs (F := F)) adm (pdats dat0 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 dat0 hA hq howed hrec hbody hin hout m ρ),
    .host (hseg hostOps1 hostOps1_sub hostOps1_fresh (W4 dat0 m ρ)) ]

/-- @main is the run of the segments: the chain of its items is the chain of the segments' fragments. -/
theorem main_run (c : Dev nD) : main (F := F) c = Pipeline.Seg.run (segs dat0 hA hq howed hrec hbody hin hout m ρ) := by
  rw [main_chain c, Pipeline.Seg.run_eq_chain]; rfl

include hA hq howed hrec hbody hin hout in
set_option backward.isDefEq.respectTransparency.types false in
/-- THE RUN of @main: from any memory with zero counters every weakly fair execution terminates, nothing
    faulting, and the final state holds the result buffer at the fold's last contents and the arguments as
    launched. -/
theorem run_main : θ_run defs (onTc (τ := τ) (main (F := F))) ⟨m, fun _ => 0, ρ⟩ (fun r => ∀ c : Dev nD,
      r.2.mem ((c.tc : Thread nD τ).loc main_v11) = W5 dat0 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats dat0 m ρ) () cellOf_inj emb₁ defs₀ 𝒱₀ L lv m ρ main
    (segs dat0 hA hq howed hrec hbody hin hout m ρ)
    (fun c Q => by rw [main_run dat0 hA hq howed hrec hbody hin hout m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 m ρ)
    (hch := ⟨fun _ => .rfl, fun _ => .rfl, fun _ => .rfl, fun _ => .rfl, fun _ => .rfl, fun c => show iprop(StableHlo.held (c : Thread nD τ) (Pipeline.ucRefs τ sig) (W5 dat0 m ρ c) ∗ R c)
        ⊢ iprop(Tₙ dat0 m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 m ρ c) s')
      isplitl [Hh] <;> iassumption)
    (hQ := fun s h c =>
      ⟨h c _ (mem_uc main_v11 (by decide)),
       (h c _ (mem_uc main_arg0 (by decide))).trans (W5_main_arg0 dat0 m ρ c),
       (h c _ (mem_uc main_arg1 (by decide))).trans (W5_main_arg1 dat0 m ρ c)⟩)

end Cert.Kernel.Hand

end
-- ==== Proof.K.Runs.lean ====
/- What the three runs of the loss kernel's body share, stated at the buffer contents `V` the TensorCore holds when
   the region is entered: each window's block at a point, the input windows' staging contents, the two branch
   conditions of the body in closed form over the grid, where the output window is idle, and the staging and
   scratch memrefs the body is called with. -/
import proofs.«141123_j17076789969009_2_alg».proof.Proof.Gen.Kernel.Launch
import proofs.«141123_j17076789969009_2_alg».proof.Proof.Gen.Kernel.Skeleton
import proofs.«141123_j17076789969009_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch conditions -/

/-- The condition of the body's first `scf.if` (the contrast tile is the first of its row: the accumulators are
    initialised), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16) — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second `scf.if` (the contrast tile is the last of its row: the output block is
    written), from the grid coordinates. -/
abbrev cond0_1 (i : grid0.Coords) : Prop := k0_cond2 i = 1#1
/-- It holds at the points ≡ 15 (mod 16) — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- At the first tile of a row the body stores nothing into the output window: it is idle there, -/
theorem idleAt0_6_A : ∀ t : Fin cfg0.N, cond0_0 (grid0.coords t) → ¬cond0_1 (grid0.coords t) → cfg0.idle 6 (grid0.coords t) = true := by decide +kernel
/-- and the pipeline does not write its block back. -/
theorem noFlush0_6_A : ∀ t : Fin cfg0.N, cond0_0 (grid0.coords t) → ¬cond0_1 (grid0.coords t) → (cfg0.win 6).flush t = false := by decide +kernel
/-- At an inner tile of a row the body stores nothing into the output window: it is idle there, -/
theorem idleAt0_6_B : ∀ t : Fin cfg0.N, ¬cond0_0 (grid0.coords t) → ¬cond0_1 (grid0.coords t) → cfg0.idle 6 (grid0.coords t) = true := by decide +kernel
/-- and the pipeline does not write its block back. -/
theorem noFlush0_6_B : ∀ t : Fin cfg0.N, ¬cond0_0 (grid0.coords t) → ¬cond0_1 (grid0.coords t) → (cfg0.win 6).flush t = false := by decide +kernel
/-- At the last tile of a row the body stores the output block: the window is live. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated. -/
abbrev VO0_6 : View sig .tc .vmem S1x512 .f32 := (Memref.whole cc0_stg6_0 : Memref sig .tc .vmem S1x512 .f32).view
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
/-- The five scratch operands (running maximum, running sum, and the three weighted accumulators): whole scoped
    buffers of the kernel's own, carried from one point to the next. -/
abbrev scM0_0 : Memref sig .tc .vmem S512x1 .f32 := Memref.whole cc0_scratch0
abbrev VS0_0 : View sig .tc .vmem S512x1 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view
abbrev scM0_3 : Memref sig .tc .vmem S512x1 .f32 := Memref.whole cc0_scratch3
abbrev VS0_3 : View sig .tc .vmem S512x1 .f32 := scM0_3.view
abbrev scM0_4 : Memref sig .tc .vmem S512x1 .f32 := Memref.whole cc0_scratch4
abbrev VS0_4 : View sig .tc .vmem S512x1 .f32 := scM0_4.view

/-- The region's invariant with the scratch operands as memrefs owned at some contents: what the body obligation hands
    the run at a row's first tile and what the region gives back at its end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.K.RunA.lean ====
/- The loss kernel's body run at the FIRST tile of a row (the accumulators are initialised, the output block is not written): its triple over whole memrefs, with the pieces
   each written buffer ends with found by the run itself. -/
import proofs.«141123_j17076789969009_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at the FIRST tile of a row (the accumulators are initialised, the output block is not written),
    with the proof that on whole memrefs — the six inputs' at their contents `x·`, the output's, into which nothing is stored, at contents `xi6` handed back untouched,
    the five accumulators' at anything (the initialising stores cover them) — the body runs to the continuation holding the inputs' as they
    were and each accumulator's with its pieces `LS·` written. -/
noncomputable def kernelRun0_A (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) :
    Σ' (L6 : List (View.Piece (Elt F) S1x512 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, fun xi6 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.RunB.lean ====
/- The loss kernel's body run at an INNER tile of a row (the accumulators are neither initialised nor read out): its triple over whole memrefs, with the pieces
   each written buffer ends with found by the run itself. -/
import proofs.«141123_j17076789969009_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at an INNER tile of a row (the accumulators are neither initialised nor read out),
    with the proof that on whole memrefs — the six inputs' at their contents `x·`, the output's, into which nothing is stored, at contents `xi6` handed back untouched,
    the five accumulators' at the contents `xs·` the tile before left — the body runs to the continuation holding the inputs' as they
    were and each accumulator's with its pieces `LS·` written. -/
noncomputable def kernelRun0_B (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    Σ' (L6 : List (View.Piece (Elt F) S1x512 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, fun xi6 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.RunC.lean ====
/- The loss kernel's body run at the LAST tile of a row (the accumulators are not initialised; the output block is written): its triple over whole memrefs, with the pieces
   each written buffer ends with found by the run itself. -/
import proofs.«141123_j17076789969009_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at the LAST tile of a row (the accumulators are not initialised; the output block is written),
    with the proof that on whole memrefs — the six inputs' at their contents `x·`, the output's at anything,
    the five accumulators' at the contents `xs·` the tile before left — the body runs to the continuation holding the inputs' as they
    were, the output's with its pieces `L6` written and each accumulator's with its pieces `LS·` written. -/
noncomputable def kernelRun0_C (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    Σ' (L6 : List (View.Piece (Elt F) S1x512 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.Data.lean ====
/- What the loss kernel's body leaves in the output window and in the five accumulators it carries from tile to tile —
   per case and point by point —, the pipeline's proof data at the buffer contents `V` the TensorCore holds when the
   region is entered, and the body obligation. -/
import proofs.«141123_j17076789969009_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first tile of a row the body stores nothing into the output window (it is idle there and not written back): no
    pieces — a placeholder nothing consults. -/
def out0_A_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S1x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1)

/-- At the first tile of a row the body's stores into accumulator 0 cover it. -/
theorem scover0_A_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 S512x1.size (by sl_kernel_rfl) y

/-- What the body leaves in accumulator 0 at the first tile of a row: its pieces read back. -/
def sout0_A_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)

/-- At the first tile of a row the body's stores into accumulator 1 cover it. -/
theorem scover0_A_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 S512x1.size (by sl_kernel_rfl) y

/-- What the body leaves in accumulator 1 at the first tile of a row: its pieces read back. -/
def sout0_A_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)

/-- At the first tile of a row the body's stores into accumulator 2 cover it. -/
theorem scover0_A_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 S512x1.size (by sl_kernel_rfl) y

/-- What the body leaves in accumulator 2 at the first tile of a row: its pieces read back. -/
def sout0_A_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- At the first tile of a row the body's stores into accumulator 3 cover it. -/
theorem scover0_A_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S512x1.size (by sl_kernel_rfl) y

/-- What the body leaves in accumulator 3 at the first tile of a row: its pieces read back. -/
def sout0_A_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-- At the first tile of a row the body's stores into accumulator 4 cover it. -/
theorem scover0_A_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 S512x1.size (by sl_kernel_rfl) y

/-- What the body leaves in accumulator 4 at the first tile of a row: its pieces read back. -/
def sout0_A_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1)

/-- At an inner tile of a row the body stores nothing into the output window (it is idle there and not written back): no
    pieces — a placeholder nothing consults. -/
def out0_B_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S1x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)

/-- At an inner tile of a row the body's stores into accumulator 0 cover it. -/
theorem scover0_B_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 S512x1.size (by sl_kernel_rfl) y

/-- What the body leaves in accumulator 0 at an inner tile of a row: its pieces read back. -/
def sout0_B_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)

/-- At an inner tile of a row the body's stores into accumulator 1 cover it. -/
theorem scover0_B_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 S512x1.size (by sl_kernel_rfl) y

/-- What the body leaves in accumulator 1 at an inner tile of a row: its pieces read back. -/
def sout0_B_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)

/-- At an inner tile of a row the body's stores into accumulator 2 cover it. -/
theorem scover0_B_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1 S512x1.size (by sl_kernel_rfl) y

/-- What the body leaves in accumulator 2 at an inner tile of a row: its pieces read back. -/
def sout0_B_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1)

/-- At an inner tile of a row the body's stores into accumulator 3 cover it. -/
theorem scover0_B_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1 S512x1.size (by sl_kernel_rfl) y

/-- What the body leaves in accumulator 3 at an inner tile of a row: its pieces read back. -/
def sout0_B_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1)

/-- At an inner tile of a row the body's stores into accumulator 4 cover it. -/
theorem scover0_B_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1 S512x1.size (by sl_kernel_rfl) y

/-- What the body leaves in accumulator 4 at an inner tile of a row: its pieces read back. -/
def sout0_B_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1)

/-- At the last tile of a row the body's one store into the output window covers its block. -/
theorem cover0_C_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1 S1x512.size (by sl_kernel_rfl) y

/-- What the body leaves in the output window's staging buffer at the last tile of a row: its pieces read back. -/
def out0_C_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S1x512 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)

/-- At the last tile of a row the body's stores into accumulator 0 cover it. -/
theorem scover0_C_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 S512x1.size (by sl_kernel_rfl) y

/-- What the body leaves in accumulator 0 at the last tile of a row: its pieces read back. -/
def sout0_C_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)

/-- At the last tile of a row the body's stores into accumulator 1 cover it. -/
theorem scover0_C_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 S512x1.size (by sl_kernel_rfl) y

/-- What the body leaves in accumulator 1 at the last tile of a row: its pieces read back. -/
def sout0_C_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)

/-- At the last tile of a row the body's stores into accumulator 2 cover it. -/
theorem scover0_C_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1 S512x1.size (by sl_kernel_rfl) y

/-- What the body leaves in accumulator 2 at the last tile of a row: its pieces read back. -/
def sout0_C_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1)

/-- At the last tile of a row the body's stores into accumulator 3 cover it. -/
theorem scover0_C_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1 S512x1.size (by sl_kernel_rfl) y

/-- What the body leaves in accumulator 3 at the last tile of a row: its pieces read back. -/
def sout0_C_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1)

/-- At the last tile of a row the body's stores into accumulator 4 cover it. -/
theorem scover0_C_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1 S512x1.size (by sl_kernel_rfl) y

/-- What the body leaves in accumulator 4 at the last tile of a row: its pieces read back. -/
def sout0_C_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1)

section Regions
variable (V : (c : Dev nD) → (b : Ref sig .tc) → Buf (Elt F) ((c : Thread nD τ).loc b))

/-! ## What the output window and the accumulators hold after each point -/

/-- THE ACCUMULATION. What the output window's staging buffer (first component) and the five accumulators (then, in
    operand order: running maximum, running sum, and the three weighted sums) hold after the body at position `n`: the
    case the closed forms select at `n` (first, inner or last tile of its row), run at the point's memrefs and input
    blocks, the accumulators entering an inner or last tile at what the tile before left. -/
def outsAt0 (c : Dev nD) : (n : ℕ) → n < cfg0.N → Vec F S1x512 .f32 × Vec F S512x1 .f32 × Vec F S512x1 .f32 × Vec F S512x1 .f32 × Vec F S512x1 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at the first tile of a row: that case's contents. -/
theorem outsAt0_A (c : Dev nD) (t : Fin cfg0.N) (h0 : t.val % 16 = 0) (h1 : ¬t.val % 16 = 15) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at an inner tile of a row: that case's contents, over what the tile before left. -/
theorem outsAt0_B (c : Dev nD) (t : Fin cfg0.N) (h0 : ¬t.val % 16 = 0) (h1 : ¬t.val % 16 = 15) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last tile of a row: that case's contents, over what the tile before left. -/
theorem outsAt0_C (c : Dev nD) (t : Fin cfg0.N) (h0 : ¬t.val % 16 = 0) (h1 : t.val % 16 = 15) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every accumulator at anything);
    afterwards the five accumulators at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2.1) ∗ owns (c : Thread nD τ) scM0_4 fullShare ((outsAt0 V c n hn).2.2.2.2.2)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2.1) ∗ owns (c : Thread nD τ) scM0_4 fullShare ((outsAt0 V c n hn).2.2.2.2.2)) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2.1) ∗ owns (c : Thread nD τ) scM0_4 fullShare ((outsAt0 V c (n - 1) (by omega)).2.2.2.2.2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt0`'s first component; the invariant `PhiS`;
    nothing owed; the anchor and contrast windows, which read one array, each hold half of it, and so do the two label
    windows; the other arrays are held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in; the
    invariant hands the body the accumulators at what the point before left (at anything at the region's first point)
    and takes them back at this point's contents; the output window is handed back untouched at a first or inner tile
    and holds the written block at a last tile; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1 sout0_A_2 sout0_A_3 sout0_A_4; (try dsimp only)
      by_cases hz : t.val = 0
      · rw [PhiS_castSucc V c t, PhiS_zero V c _ _ hz, PhiA0_eq]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        isplitl [HS4]; · iexists _; iexact HS4
        iintro ⟨H0, H1, H2, H3, H4, H5, H6, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1 sout0_C_2 sout0_C_3 sout0_C_4; (try dsimp only)
      by_cases hz : t.val = 0
      · exfalso; omega
      · rw [PhiS_castSucc V c t, PhiS_pos V c _ _ hz]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HS4]; · iexact HS4
        iintro ⟨H0, H1, H2, H3, H4, H5, ⟨%e6, H6⟩, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1 sout0_B_2 sout0_B_3 sout0_B_4; (try dsimp only)
      by_cases hz : t.val = 0
      · exfalso; omega
      · rw [PhiS_castSucc V c t, PhiS_pos V c _ _ hz]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Regions

end Cert.Kernel.Hand

end
-- ==== Proof.KI.Runs.lean ====
/- What the three runs of the loss kernel's body share, stated at the buffer contents `V` the TensorCore holds when
   the region is entered: each window's block at a point, the input windows' staging contents, the two branch
   conditions of the body in closed form over the grid, where the output window is idle, and the staging and
   scratch memrefs the body is called with. -/
import proofs.«141123_j17076789969009_2_alg».proof.Proof.Gen.KernelIdeal.Launch
import proofs.«141123_j17076789969009_2_alg».proof.Proof.Gen.KernelIdeal.Skeleton
import proofs.«141123_j17076789969009_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch conditions -/

/-- The condition of the body's first `scf.if` (the contrast tile is the first of its row: the accumulators are
    initialised), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16) — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second `scf.if` (the contrast tile is the last of its row: the output block is
    written), from the grid coordinates. -/
abbrev cond0_1 (i : grid0.Coords) : Prop := k0_cond2 i = 1#1
/-- It holds at the points ≡ 15 (mod 16) — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- At the first tile of a row the body stores nothing into the output window: it is idle there, -/
theorem idleAt0_6_A : ∀ t : Fin cfg0.N, cond0_0 (grid0.coords t) → ¬cond0_1 (grid0.coords t) → cfg0.idle 6 (grid0.coords t) = true := by decide +kernel
/-- and the pipeline does not write its block back. -/
theorem noFlush0_6_A : ∀ t : Fin cfg0.N, cond0_0 (grid0.coords t) → ¬cond0_1 (grid0.coords t) → (cfg0.win 6).flush t = false := by decide +kernel
/-- At an inner tile of a row the body stores nothing into the output window: it is idle there, -/
theorem idleAt0_6_B : ∀ t : Fin cfg0.N, ¬cond0_0 (grid0.coords t) → ¬cond0_1 (grid0.coords t) → cfg0.idle 6 (grid0.coords t) = true := by decide +kernel
/-- and the pipeline does not write its block back. -/
theorem noFlush0_6_B : ∀ t : Fin cfg0.N, ¬cond0_0 (grid0.coords t) → ¬cond0_1 (grid0.coords t) → (cfg0.win 6).flush t = false := by decide +kernel
/-- At the last tile of a row the body stores the output block: the window is live. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated. -/
abbrev VO0_6 : View sig .tc .vmem S1x512 .f32 := (Memref.whole cc0_stg6_0 : Memref sig .tc .vmem S1x512 .f32).view
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
/-- The five scratch operands (running maximum, running sum, and the three weighted accumulators): whole scoped
    buffers of the kernel's own, carried from one point to the next. -/
abbrev scM0_0 : Memref sig .tc .vmem S512x1 .f32 := Memref.whole cc0_scratch0
abbrev VS0_0 : View sig .tc .vmem S512x1 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view
abbrev scM0_3 : Memref sig .tc .vmem S512x1 .f32 := Memref.whole cc0_scratch3
abbrev VS0_3 : View sig .tc .vmem S512x1 .f32 := scM0_3.view
abbrev scM0_4 : Memref sig .tc .vmem S512x1 .f32 := Memref.whole cc0_scratch4
abbrev VS0_4 : View sig .tc .vmem S512x1 .f32 := scM0_4.view

/-- The region's invariant with the scratch operands as memrefs owned at some contents: what the body obligation hands
    the run at a row's first tile and what the region gives back at its end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KI.RunA.lean ====
/- The loss kernel's body run at the FIRST tile of a row (the accumulators are initialised, the output block is not written): its triple over whole memrefs, with the pieces
   each written buffer ends with found by the run itself. -/
import proofs.«141123_j17076789969009_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), at the FIRST tile of a row (the accumulators are initialised, the output block is not written),
    with the proof that on whole memrefs — the six inputs' at their contents `x·`, the output's, into which nothing is stored, at contents `xi6` handed back untouched,
    the five accumulators' at anything (the initialising stores cover them) — the body runs to the continuation holding the inputs' as they
    were and each accumulator's with its pieces `LS·` written. -/
noncomputable def kernelRun0_A (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) :
    Σ' (L6 : List (View.Piece (Elt F) S1x512 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, fun xi6 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.RunB.lean ====
/- The loss kernel's body run at an INNER tile of a row (the accumulators are neither initialised nor read out): its triple over whole memrefs, with the pieces
   each written buffer ends with found by the run itself. -/
import proofs.«141123_j17076789969009_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), at an INNER tile of a row (the accumulators are neither initialised nor read out),
    with the proof that on whole memrefs — the six inputs' at their contents `x·`, the output's, into which nothing is stored, at contents `xi6` handed back untouched,
    the five accumulators' at the contents `xs·` the tile before left — the body runs to the continuation holding the inputs' as they
    were and each accumulator's with its pieces `LS·` written. -/
noncomputable def kernelRun0_B (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    Σ' (L6 : List (View.Piece (Elt F) S1x512 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, fun xi6 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.RunC.lean ====
/- The loss kernel's body run at the LAST tile of a row (the accumulators are not initialised; the output block is written): its triple over whole memrefs, with the pieces
   each written buffer ends with found by the run itself. -/
import proofs.«141123_j17076789969009_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), at the LAST tile of a row (the accumulators are not initialised; the output block is written),
    with the proof that on whole memrefs — the six inputs' at their contents `x·`, the output's at anything,
    the five accumulators' at the contents `xs·` the tile before left — the body runs to the continuation holding the inputs' as they
    were, the output's with its pieces `L6` written and each accumulator's with its pieces `LS·` written. -/
noncomputable def kernelRun0_C (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    Σ' (L6 : List (View.Piece (Elt F) S1x512 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.Data.lean ====
/- What the loss kernel's body leaves in the output window and in the five accumulators it carries from tile to tile —
   per case and point by point —, the pipeline's proof data at the buffer contents `V` the TensorCore holds when the
   region is entered, and the body obligation. -/
import proofs.«141123_j17076789969009_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- At the first tile of a row the body stores nothing into the output window (it is idle there and not written back): no
    pieces — a placeholder nothing consults. -/
def out0_A_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S1x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1)

/-- At the first tile of a row the body's stores into accumulator 0 cover it. -/
theorem scover0_A_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 S512x1.size (by sl_kernel_rfl) y

/-- What the body leaves in accumulator 0 at the first tile of a row: its pieces read back. -/
def sout0_A_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)

/-- At the first tile of a row the body's stores into accumulator 1 cover it. -/
theorem scover0_A_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 S512x1.size (by sl_kernel_rfl) y

/-- What the body leaves in accumulator 1 at the first tile of a row: its pieces read back. -/
def sout0_A_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)

/-- At the first tile of a row the body's stores into accumulator 2 cover it. -/
theorem scover0_A_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 S512x1.size (by sl_kernel_rfl) y

/-- What the body leaves in accumulator 2 at the first tile of a row: its pieces read back. -/
def sout0_A_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- At the first tile of a row the body's stores into accumulator 3 cover it. -/
theorem scover0_A_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S512x1.size (by sl_kernel_rfl) y

/-- What the body leaves in accumulator 3 at the first tile of a row: its pieces read back. -/
def sout0_A_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-- At the first tile of a row the body's stores into accumulator 4 cover it. -/
theorem scover0_A_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 S512x1.size (by sl_kernel_rfl) y

/-- What the body leaves in accumulator 4 at the first tile of a row: its pieces read back. -/
def sout0_A_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) : Vec F S512x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1)

/-- At an inner tile of a row the body stores nothing into the output window (it is idle there and not written back): no
    pieces — a placeholder nothing consults. -/
def out0_B_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S1x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)

/-- At an inner tile of a row the body's stores into accumulator 0 cover it. -/
theorem scover0_B_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 S512x1.size (by sl_kernel_rfl) y

/-- What the body leaves in accumulator 0 at an inner tile of a row: its pieces read back. -/
def sout0_B_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)

/-- At an inner tile of a row the body's stores into accumulator 1 cover it. -/
theorem scover0_B_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 S512x1.size (by sl_kernel_rfl) y

/-- What the body leaves in accumulator 1 at an inner tile of a row: its pieces read back. -/
def sout0_B_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)

/-- At an inner tile of a row the body's stores into accumulator 2 cover it. -/
theorem scover0_B_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1 S512x1.size (by sl_kernel_rfl) y

/-- What the body leaves in accumulator 2 at an inner tile of a row: its pieces read back. -/
def sout0_B_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1)

/-- At an inner tile of a row the body's stores into accumulator 3 cover it. -/
theorem scover0_B_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1 S512x1.size (by sl_kernel_rfl) y

/-- What the body leaves in accumulator 3 at an inner tile of a row: its pieces read back. -/
def sout0_B_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1)

/-- At an inner tile of a row the body's stores into accumulator 4 cover it. -/
theorem scover0_B_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1 S512x1.size (by sl_kernel_rfl) y

/-- What the body leaves in accumulator 4 at an inner tile of a row: its pieces read back. -/
def sout0_B_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1)

/-- At the last tile of a row the body's one store into the output window covers its block. -/
theorem cover0_C_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1 S1x512.size (by sl_kernel_rfl) y

/-- What the body leaves in the output window's staging buffer at the last tile of a row: its pieces read back. -/
def out0_C_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S1x512 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)

/-- At the last tile of a row the body's stores into accumulator 0 cover it. -/
theorem scover0_C_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 S512x1.size (by sl_kernel_rfl) y

/-- What the body leaves in accumulator 0 at the last tile of a row: its pieces read back. -/
def sout0_C_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)

/-- At the last tile of a row the body's stores into accumulator 1 cover it. -/
theorem scover0_C_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 S512x1.size (by sl_kernel_rfl) y

/-- What the body leaves in accumulator 1 at the last tile of a row: its pieces read back. -/
def sout0_C_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)

/-- At the last tile of a row the body's stores into accumulator 2 cover it. -/
theorem scover0_C_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1 S512x1.size (by sl_kernel_rfl) y

/-- What the body leaves in accumulator 2 at the last tile of a row: its pieces read back. -/
def sout0_C_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1)

/-- At the last tile of a row the body's stores into accumulator 3 cover it. -/
theorem scover0_C_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1 S512x1.size (by sl_kernel_rfl) y

/-- What the body leaves in accumulator 3 at the last tile of a row: its pieces read back. -/
def sout0_C_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.1)

/-- At the last tile of a row the body's stores into accumulator 4 cover it. -/
theorem scover0_C_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1 S512x1.size (by sl_kernel_rfl) y

/-- What the body leaves in accumulator 4 at the last tile of a row: its pieces read back. -/
def sout0_C_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) : Vec F S512x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.2.2.1)

section Regions
variable (V : (c : Dev nD) → (b : Ref sig .tc) → Buf (Elt F) ((c : Thread nD τ).loc b))

/-! ## What the output window and the accumulators hold after each point -/

/-- THE ACCUMULATION. What the output window's staging buffer (first component) and the five accumulators (then, in
    operand order: running maximum, running sum, and the three weighted sums) hold after the body at position `n`: the
    case the closed forms select at `n` (first, inner or last tile of its row), run at the point's memrefs and input
    blocks, the accumulators entering an inner or last tile at what the tile before left. -/
def outsAt0 (c : Dev nD) : (n : ℕ) → n < cfg0.N → Vec F S1x512 .f32 × Vec F S512x1 .f32 × Vec F S512x1 .f32 × Vec F S512x1 .f32 × Vec F S512x1 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
         sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2,
         sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at the first tile of a row: that case's contents. -/
theorem outsAt0_A (c : Dev nD) (t : Fin cfg0.N) (h0 : t.val % 16 = 0) (h1 : ¬t.val % 16 = 15) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
         sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at an inner tile of a row: that case's contents, over what the tile before left. -/
theorem outsAt0_B (c : Dev nD) (t : Fin cfg0.N) (h0 : ¬t.val % 16 = 0) (h1 : ¬t.val % 16 = 15) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last tile of a row: that case's contents, over what the tile before left. -/
theorem outsAt0_C (c : Dev nD) (t : Fin cfg0.N) (h0 : ¬t.val % 16 = 0) (h1 : t.val % 16 = 15) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
         sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every accumulator at anything);
    afterwards the five accumulators at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2.1) ∗ owns (c : Thread nD τ) scM0_4 fullShare ((outsAt0 V c n hn).2.2.2.2.2)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2.1) ∗ owns (c : Thread nD τ) scM0_4 fullShare ((outsAt0 V c n hn).2.2.2.2.2)) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2.1) ∗ owns (c : Thread nD τ) scM0_4 fullShare ((outsAt0 V c (n - 1) (by omega)).2.2.2.2.2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt0`'s first component; the invariant `PhiS`;
    nothing owed; the anchor and contrast windows, which read one array, each hold half of it, and so do the two label
    windows; the other arrays are held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in; the
    invariant hands the body the accumulators at what the point before left (at anything at the region's first point)
    and takes them back at this point's contents; the output window is handed back untouched at a first or inner tile
    and holds the written block at a last tile; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1 sout0_A_2 sout0_A_3 sout0_A_4; (try dsimp only)
      by_cases hz : t.val = 0
      · rw [PhiS_castSucc V c t, PhiS_zero V c _ _ hz, PhiA0_eq]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        isplitl [HS4]; · iexists _; iexact HS4
        iintro ⟨H0, H1, H2, H3, H4, H5, H6, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1 sout0_C_2 sout0_C_3 sout0_C_4; (try dsimp only)
      by_cases hz : t.val = 0
      · exfalso; omega
      · rw [PhiS_castSucc V c t, PhiS_pos V c _ _ hz]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HS4]; · iexact HS4
        iintro ⟨H0, H1, H2, H3, H4, H5, ⟨%e6, H6⟩, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1 sout0_B_2 sout0_B_3 sout0_B_4; (try dsimp only)
      by_cases hz : t.val = 0
      · exfalso; omega
      · rw [PhiS_castSucc V c t, PhiS_pos V c _ _ hz]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Regions

end Cert.KernelIdeal.Hand

end
-- ==== Proof.KI.Pieces.lean ====
/- What each case of the loss kernel's body leaves in the five accumulators and in the output block, as the
   body's payloads of the input blocks and of the accumulators' previous contents. -/
import proofs.«141123_j17076789969009_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Every access of the body starts at the origin of its buffer. -/
theorem pieces_hz : (![0, 0] : Fin 2 → Nat) = fun _ => 0 := funext fun a => by fin_cases a <;> rfl

/-- At a row's first tile, the running maximum ends at the body's update of its initial value (the loads read back what the initialising stores wrote). -/
theorem sout_A_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay24 (k0_pay11 x0 x1) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) pieces_hz]
  simp only [View.readCov_unit_zero (S := S512x1) _ pieces_hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's first tile, the running sum ends at the body's update of its initial value (the loads read back what the initialising stores wrote). -/
theorem sout_A_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay1 (k0_pay20 (k0_pay11 x0 x1) (k0_pay12 i) (k0_pay6 (F := F)) (k0_pay7 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) pieces_hz]
  simp only [View.readCov_unit_zero (S := S512x1) _ pieces_hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's first tile, the first weighted sum ends at the body's update of its initial value (the loads read back what the initialising stores wrote). -/
theorem sout_A_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay2 (k0_pay21 (k0_pay11 x0 x1) (k0_pay12 i) (k0_pay13 x2 x3) (k0_pay14 x2 x3 x4 x5) k0_pay15 (k0_pay8 (F := F))) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) pieces_hz]
  simp only [View.readCov_unit_zero (S := S512x1) _ pieces_hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's first tile, the second weighted sum ends at the body's update of its initial value (the loads read back what the initialising stores wrote). -/
theorem sout_A_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay3 (k0_pay22 (k0_pay12 i) (k0_pay13 x2 x3) (k0_pay14 x2 x3 x4 x5) k0_pay15 (k0_pay9 (F := F))) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) pieces_hz]
  simp only [View.readCov_unit_zero (S := S512x1) _ pieces_hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's first tile, the third weighted sum ends at the body's update of its initial value (the loads read back what the initialising stores wrote). -/
theorem sout_A_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay4 (k0_pay23 (k0_pay12 i) (k0_pay13 x2 x3) (k0_pay14 x2 x3 x4 x5) k0_pay15 (k0_pay10 (F := F))) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) pieces_hz]
  simp only [View.readCov_unit_zero (S := S512x1) _ pieces_hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At an inner tile of a row, the running maximum ends at the body's update of what the tile before left. -/
theorem sout_B_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay24 (k0_pay11 x0 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At an inner tile of a row, the running sum ends at the body's update of what the tile before left. -/
theorem sout_B_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay1 (k0_pay20 (k0_pay11 x0 x1) (k0_pay12 i) xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At an inner tile of a row, the first weighted sum ends at the body's update of what the tile before left. -/
theorem sout_B_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay2 (k0_pay21 (k0_pay11 x0 x1) (k0_pay12 i) (k0_pay13 x2 x3) (k0_pay14 x2 x3 x4 x5) k0_pay15 xs2) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At an inner tile of a row, the second weighted sum ends at the body's update of what the tile before left. -/
theorem sout_B_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay3 (k0_pay22 (k0_pay12 i) (k0_pay13 x2 x3) (k0_pay14 x2 x3 x4 x5) k0_pay15 xs3) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At an inner tile of a row, the third weighted sum ends at the body's update of what the tile before left. -/
theorem sout_B_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay4 (k0_pay23 (k0_pay12 i) (k0_pay13 x2 x3) (k0_pay14 x2 x3 x4 x5) k0_pay15 xs4) := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's last tile, the running maximum ends at the body's update of what the tile before left. -/
theorem sout_C_0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay24 (k0_pay11 x0 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's last tile, the running sum ends at the body's update of what the tile before left. -/
theorem sout_C_1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay1 (k0_pay20 (k0_pay11 x0 x1) (k0_pay12 i) xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's last tile, the first weighted sum ends at the body's update of what the tile before left. -/
theorem sout_C_2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay2 (k0_pay21 (k0_pay11 x0 x1) (k0_pay12 i) (k0_pay13 x2 x3) (k0_pay14 x2 x3 x4 x5) k0_pay15 xs2) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's last tile, the second weighted sum ends at the body's update of what the tile before left. -/
theorem sout_C_3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay3 (k0_pay22 (k0_pay12 i) (k0_pay13 x2 x3) (k0_pay14 x2 x3 x4 x5) k0_pay15 xs3) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's last tile, the third weighted sum ends at the body's update of what the tile before left. -/
theorem sout_C_4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    sout0_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay4 (k0_pay23 (k0_pay12 i) (k0_pay13 x2 x3) (k0_pay14 x2 x3 x4 x5) k0_pay15 xs4) := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S512x1) pieces_hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

/-- At a row's last tile the output block is the loss of the row's anchors, from the accumulators' NEW values (each read
    back after its update was stored): the running sum, the first and second weighted sums, the running maximum and the
    third weighted sum, in that order. -/
theorem out_C_6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x128 .bf16) (x1 : Vec F S512x128 .bf16) (x2 : Vec F S512x128 .bf16) (x3 : Vec F S512x128 .bf16) (x4 : Vec F S512x1 .f32) (x5 : Vec F S1x512 .f32) (xs0 : Vec F S512x1 .f32) (xs1 : Vec F S512x1 .f32) (xs2 : Vec F S512x1 .f32) (xs3 : Vec F S512x1 .f32) (xs4 : Vec F S512x1 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay5 (k0_pay1 (k0_pay20 (k0_pay11 x0 x1) (k0_pay12 i) xs0 xs1)) (k0_pay2 (k0_pay21 (k0_pay11 x0 x1) (k0_pay12 i) (k0_pay13 x2 x3) (k0_pay14 x2 x3 x4 x5) k0_pay15 xs2)) (k0_pay3 (k0_pay22 (k0_pay12 i) (k0_pay13 x2 x3) (k0_pay14 x2 x3 x4 x5) k0_pay15 xs3)) (k0_pay24 (k0_pay11 x0 x1) xs0) (k0_pay4 (k0_pay23 (k0_pay12 i) (k0_pay13 x2 x3) (k0_pay14 x2 x3 x4 x5) k0_pay15 xs4)) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero (S := S1x512) pieces_hz]
  simp only [View.readCov_unit_zero (S := S512x1) _ pieces_hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x128) pieces_hz, View.ld_unit_zero (S := S512x1) pieces_hz, View.ld_unit_zero (S := S1x512) pieces_hz]
  rfl

end Cert.KernelIdeal.Hand

end
-- ==== Proof.Spec.lean ====
import Idealize.ShloMosaic.PureOps.Ideal.Laws

/-!
# The multi-label contrastive loss, as real-valued formulas

Everything here is plain real arithmetic; no program is mentioned.  A row of the loss looks at a
family of columns: for each column a scaled inner product `L` (the logit), a self-exclusion weight
`w ∈ {0,1}`, a Jaccard ratio `r` of the two label sets and the indicator `g` that the ratio reaches
the threshold.  With `q = g * w`, `M = max L`, `S = ∑ exp (L - M) * w` the row's loss is
`-((∑ q r (L - M - log (S + ε))) / (∑ q + ε))`.  The same number is reached by running through the
columns tile by tile with a running maximum and rescaled partial sums (`onM … onC` below).
-/

noncomputable section

namespace Cert.Spec

open scoped BigOperators

/-- The reciprocal of the temperature `4697621 / 2^26`. -/
def cK : ℝ := 67108864 / 4697621

/-- Scaled inner product of row `r` of `A` with row `c` of `B`. -/
def lg {α β : Type} (A : α → Fin 128 → ℝ) (B : β → Fin 128 → ℝ) (r : α) (c : β) : ℝ :=
  (∑ k : Fin 128, A r k * B c k) * cK

/-- Self-exclusion weight: `0` on the diagonal, `1` off it. -/
def msk (n n' : ℕ) : ℝ := if n ≠ n' then 1 else 0

/-- Jaccard ratio from the size `u` of the intersection and the sizes `sa`, `sb` of the two sets. -/
def jac (eps u sa sb : ℝ) : ℝ := u / ((sa + sb - u) + eps)

/-- Indicator that `x` reaches the threshold. -/
def ind (thr x : ℝ) : ℝ := if thr ≤ x then 1 else 0

/-- Size of the intersection of two label sets given as `0/1` vectors over `ι`. -/
def inter {ι : Type} [Fintype ι] (a b : ι → ℝ) : ℝ := ∑ l, a l * b l

/-- Size of a label set given as a `0/1` vector. -/
def card {ι : Type} [Fintype ι] (a : ι → ℝ) : ℝ := ∑ l, a l

section Row

variable {γ : Type} [Fintype γ] [Nonempty γ]

/-- The largest logit of the row. -/
def rowMax (L : γ → ℝ) : ℝ := Finset.univ.sup' Finset.univ_nonempty L

/-- The softmax denominator without its `ε`, shifted by the row maximum. -/
def rowS (L w : γ → ℝ) : ℝ := ∑ c, Real.exp (L c - rowMax L) * w c

/-- `∑ q r L`. -/
def rowA (q r L : γ → ℝ) : ℝ := ∑ c, (q c * r c) * L c

/-- `∑ q r`. -/
def rowB (q r : γ → ℝ) : ℝ := ∑ c, q c * r c

/-- `∑ q`. -/
def rowC (q : γ → ℝ) : ℝ := ∑ c, q c

/-- The numerator in the textbook order: `∑ (q * (L - M - log (S + ε))) * r`. -/
def rowNum (eps : ℝ) (q r L w : γ → ℝ) : ℝ :=
  ∑ c, (q c * ((L c - rowMax L) - Real.log (rowS L w + eps))) * r c

end Row

/-- The loss of a row from the five accumulated numbers. -/
def lossOf (eps m l a b c : ℝ) : ℝ := -1 * ((a - b * (m + Real.log (l + eps))) / (c + eps))

/-- The loss of a row in the textbook order. -/
def lossRef {γ : Type} [Fintype γ] [Nonempty γ] (eps : ℝ) (q r L w : γ → ℝ) : ℝ :=
  -1 * (rowNum eps q r L w / (rowC q + eps))

section Online

/-- The largest entry of one tile of 512 columns. -/
def tmax (f : Fin 512 → ℝ) : ℝ := Finset.univ.sup' Finset.univ_nonempty f

variable (L w q r : ℕ → Fin 512 → ℝ)

/-- Running maximum after tiles `0 … J`. -/
def onM : ℕ → ℝ
  | 0 => tmax (L 0)
  | J + 1 => max (onM J) (tmax (L (J + 1)))

/-- Running rescaled sum of exponentials after tiles `0 … J`. -/
def onL : ℕ → ℝ
  | 0 => ∑ c, Real.exp (L 0 c - onM L 0) * w 0 c
  | J + 1 => onL J * Real.exp (onM L J - onM L (J + 1))
      + ∑ c, Real.exp (L (J + 1) c - onM L (J + 1)) * w (J + 1) c

/-- Running `∑ q r L`. -/
def onA : ℕ → ℝ
  | 0 => ∑ c, (q 0 c * r 0 c) * L 0 c
  | J + 1 => onA J + ∑ c, (q (J + 1) c * r (J + 1) c) * L (J + 1) c

/-- Running `∑ q r`. -/
def onB : ℕ → ℝ
  | 0 => ∑ c, q 0 c * r 0 c
  | J + 1 => onB J + ∑ c, q (J + 1) c * r (J + 1) c

/-- Running `∑ q`. -/
def onC : ℕ → ℝ
  | 0 => ∑ c, q 0 c
  | J + 1 => onC J + ∑ c, q (J + 1) c

end Online

end Cert.Spec

end
-- ==== Proof.SpecRows.lean ====
import proofs.«141123_j17076789969009_2_alg».proof.Proof.Spec

/-!
# The loss over the whole batch

The `8192` rows are the two views of `4096` samples stacked (row `n` is a view of sample `n % 4096`);
row `n` meets every row `n'` as a column: its logit is the scaled inner product of the two feature
rows, the weight excludes `n' = n`, and the Jaccard ratio compares the label sets of the two samples.
The result is the mean of the rows' losses.
-/

noncomputable section

namespace Cert.Spec

open scoped BigOperators

/-- The value of the single-precision pattern of `1e-8`. -/
def epsR : ℝ := 11258999 / 2 ^ 50

/-- The value of the single-precision pattern of `0.3`. -/
def thrR : ℝ := 10066330 / 2 ^ 25

theorem epsR_pos : 0 < epsR := by unfold epsR; positivity

/-- The sample a row is a view of. -/
def brow (n : Fin 8192) : Fin 4096 := ⟨n.val % 4096, Nat.mod_lt _ (by norm_num)⟩

theorem brow_val (n : Fin 8192) : (brow n).val = n.val % 4096 := rfl

variable (X : Fin 8192 → Fin 128 → ℝ) (lb : Fin 4096 → Fin 6 → ℝ)

/-- Logit of row `n` against column `n'`. -/
def gL (n n' : Fin 8192) : ℝ := lg X X n n'

/-- Self-exclusion weight of row `n` at column `n'`. -/
def gW (n n' : Fin 8192) : ℝ := msk n.val n'.val

/-- Jaccard ratio of the label sets of the samples behind row `n` and column `n'`. -/
def gR (n n' : Fin 8192) : ℝ :=
  jac epsR (inter (lb (brow n)) (lb (brow n'))) (card (lb (brow n))) (card (lb (brow n')))

/-- Positive-pair weight: the ratio reaches the threshold, and the column is not the row itself. -/
def gQ (n n' : Fin 8192) : ℝ := ind thrR (gR lb n n') * gW n n'

/-- The loss of row `n`. -/
def lossRow (n : Fin 8192) : ℝ := lossRef epsR (gQ lb n) (gR lb n) (gL X n) (gW n)

/-- The mean of the rows' losses. -/
def total : ℝ := (∑ n : Fin 8192, lossRow X lb n) / 8192

end Cert.Spec

end
-- ==== Proof.Consts.lean ====
import proofs.«141123_j17076789969009_2_alg».proof.Proof.SpecRows
import Idealize.ShloMosaic.PureOps.Ideal
import Idealize.ShloMosaic.PureOps.IdealRules

/-!
# The programs' float literals as extended reals

Each single-precision pattern the two programs spell, read at the exact instance: a dyadic rational,
or an infinity.  The one named literal, the folded reciprocal of the temperature, denotes the exact
reciprocal `2^26 / 4697621` of the temperature's pattern.
-/

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `-1.0` denotes `-1`. -/
theorem ofBits_neg_one : Ideal.ofBits .f32 0xBF800000#32 = ((-1 : ℝ) : EReal) := by
  simp [Ideal.ofBits, Ideal.ieee, -EReal.coe_mul]; norm_num

/-- `8192.0` denotes `8192`. -/
theorem ofBits_8192 : Ideal.ofBits .f32 0x46000000#32 = ((8192 : ℝ) : EReal) := by
  simp [Ideal.ofBits, Ideal.ieee, -EReal.coe_mul]; norm_num

/-- The pattern of `1e-8` denotes `11258999 / 2^50`. -/
theorem ofBits_eps : Ideal.ofBits .f32 0x322BCC77#32 = ((Cert.Spec.epsR : ℝ) : EReal) := by
  simp [Ideal.ofBits, Ideal.ieee, -EReal.coe_mul, Cert.Spec.epsR]; norm_num

/-- The pattern of `0.3` denotes `10066330 / 2^25`. -/
theorem ofBits_thr : Ideal.ofBits .f32 0x3E99999A#32 = ((Cert.Spec.thrR : ℝ) : EReal) := by
  simp [Ideal.ofBits, Ideal.ieee, -EReal.coe_mul, Cert.Spec.thrR]; norm_num

/-- The temperature's pattern denotes `4697621 / 2^26`. -/
theorem ofBits_temp : Ideal.ofBits .f32 0x3D8F5C2A#32 = (((4697621 / 67108864 : ℝ)) : EReal) := by
  simp [Ideal.ofBits, Ideal.ieee, -EReal.coe_mul]; norm_num

/-- The pattern of `-∞` denotes the bottom element. -/
theorem ofBits_neg_inf : Ideal.ofBits .f32 0xFF800000#32 = (⊥ : EReal) := by
  simp [Ideal.ofBits, Ideal.ieee]

/-- The pattern of `+∞` denotes the top element. -/
theorem ofBits_inf : Ideal.ofBits .f32 0x7F800000#32 = (⊤ : EReal) := by
  simp [Ideal.ofBits, Ideal.ieee]

end Cert.Consts

end
-- ==== Proof.SpecLaws.lean ====
import proofs.«141123_j17076789969009_2_alg».proof.Proof.Spec
import Mathlib.Analysis.SpecialFunctions.Log.Basic
import Mathlib.Algebra.BigOperators.Fin
import Mathlib.Algebra.Order.BigOperators.Group.Finset

/-!
# Laws of the multi-label contrastive loss

Plain real arithmetic about the formulas of the specification:

* the textbook numerator of a row equals the form built from the five accumulated numbers
  (the maximum, the shifted sum of exponentials, the sums of q r L, q r and q);
* the 8192 columns of a row are the 16 tiles of 512 columns, so sums and maxima over a row
  are sums and maxima over tiles of sums and maxima within a tile;
* for 0/1 label vectors the sums of pointwise minima and maxima are the sizes of the
  intersection and of the union, and padding the vectors with zeros changes neither;
* the denominators and the argument of the logarithm are positive.
-/

noncomputable section

namespace Cert.Spec

open scoped BigOperators

/-! ## The numerator in accumulated form -/

section Row

variable {γ : Type} [Fintype γ] [Nonempty γ]

/-- The textbook numerator, a sum of q r (L - M - log (S + ε)), splits as the sum of q r L
minus the sum of q r times the constant M + log (S + ε). -/
theorem rowNum_eq (eps : ℝ) (q r L w : γ → ℝ) :
    rowNum eps q r L w
      = rowA q r L - rowB q r * (rowMax L + Real.log (rowS L w + eps)) := by
  unfold rowNum rowA rowB
  rw [Finset.sum_mul, ← Finset.sum_sub_distrib]
  refine Finset.sum_congr rfl fun c _ => ?_
  ring

/-- The loss of a row in the textbook order is the loss computed from the five accumulated
numbers of the row. -/
theorem lossRef_eq (eps : ℝ) (q r L w : γ → ℝ) :
    lossRef eps q r L w
      = lossOf eps (rowMax L) (rowS L w) (rowA q r L) (rowB q r) (rowC q) := by
  unfold lossRef lossOf
  rw [rowNum_eq]

/-- Every logit of the row is at most the row maximum. -/
theorem le_rowMax (L : γ → ℝ) (c : γ) : L c ≤ rowMax L :=
  Finset.le_sup' L (Finset.mem_univ c)

/-- The row maximum is one of the logits. -/
theorem exists_eq_rowMax (L : γ → ℝ) : ∃ c, L c = rowMax L := by
  obtain ⟨c, _, hc⟩ := Finset.exists_mem_eq_sup' (Finset.univ_nonempty (α := γ)) L
  exact ⟨c, hc.symm⟩

/-- A number that bounds every logit and is one of them is the row maximum. -/
theorem rowMax_eq_of (L : γ → ℝ) (m : ℝ) (hle : ∀ c, L c ≤ m) (hex : ∃ c, L c = m) :
    rowMax L = m := by
  apply le_antisymm
  · exact Finset.sup'_le _ _ fun c _ => hle c
  · obtain ⟨c, hc⟩ := hex
    exact hc ▸ le_rowMax L c

end Row

/-! ## Columns as tiles -/

/-- Column c of tile j is column j * 512 + c of the row. -/
def col (j : Fin 16) (c : Fin 512) : Fin 8192 :=
  ⟨j.val * 512 + c.val, by have := j.isLt; have := c.isLt; omega⟩

theorem col_val (j : Fin 16) (c : Fin 512) : (col j c).val = j.val * 512 + c.val := rfl

/-- The 8192 columns are exactly the pairs (tile, column within the tile). -/
def colEquiv : Fin 16 × Fin 512 ≃ Fin 8192 where
  toFun p := col p.1 p.2
  invFun n := (⟨n.val / 512, by have := n.isLt; omega⟩, ⟨n.val % 512, by omega⟩)
  left_inv := by
    rintro ⟨j, c⟩
    have hj := j.isLt
    have hc := c.isLt
    ext
    · simp only [col_val]; omega
    · simp only [col_val]; omega
  right_inv := by
    intro n
    ext
    simp only [col_val]
    omega

@[simp] theorem colEquiv_apply (j : Fin 16) (c : Fin 512) : colEquiv (j, c) = col j c := rfl

theorem colEquiv_symm_fst_val (n : Fin 8192) : (colEquiv.symm n).1.val = n.val / 512 := rfl

theorem colEquiv_symm_snd_val (n : Fin 8192) : (colEquiv.symm n).2.val = n.val % 512 := rfl

/-- Every column lies in some tile. -/
theorem exists_col (n : Fin 8192) : ∃ j c, col j c = n :=
  ⟨(colEquiv.symm n).1, (colEquiv.symm n).2, colEquiv.apply_symm_apply n⟩

/-- A sum over the row is the sum over the tiles of the sums within each tile. -/
theorem sum_col {M : Type} [AddCommMonoid M] (f : Fin 8192 → M) :
    ∑ n : Fin 8192, f n = ∑ j : Fin 16, ∑ c : Fin 512, f (col j c) := by
  rw [← colEquiv.sum_comp f, Fintype.sum_prod_type]
  rfl

/-- The maximum over the row is the maximum over the tiles of the maxima within each tile. -/
theorem rowMax_col (f : Fin 8192 → ℝ) :
    rowMax f = rowMax fun j : Fin 16 => tmax fun c : Fin 512 => f (col j c) := by
  apply rowMax_eq_of
  · intro n
    obtain ⟨j, c, rfl⟩ := exists_col n
    exact le_trans (Finset.le_sup' (fun c : Fin 512 => f (col j c)) (Finset.mem_univ c))
      (le_rowMax (fun j : Fin 16 => tmax fun c : Fin 512 => f (col j c)) j)
  · obtain ⟨j, hj⟩ := exists_eq_rowMax fun j : Fin 16 => tmax fun c : Fin 512 => f (col j c)
    obtain ⟨c, _, hc⟩ := Finset.exists_mem_eq_sup' (Finset.univ_nonempty (α := Fin 512))
      fun c : Fin 512 => f (col j c)
    exact ⟨col j c, by rw [← hj]; exact hc.symm⟩

/-- The tiling of a row function: tile j holds the columns j * 512 … j * 512 + 511 for
j < 16, and is zero for every other j. -/
def tile (f : Fin 8192 → ℝ) (j : ℕ) (c : Fin 512) : ℝ :=
  if h : j < 16 then f (col ⟨j, h⟩ c) else 0

theorem tile_of_lt (f : Fin 8192 → ℝ) {j : ℕ} (h : j < 16) (c : Fin 512) :
    tile f j c = f (col ⟨j, h⟩ c) := dif_pos h

@[simp] theorem tile_fin (f : Fin 8192 → ℝ) (j : Fin 16) (c : Fin 512) :
    tile f j.val c = f (col j c) := dif_pos j.isLt

theorem tile_of_not_lt (f : Fin 8192 → ℝ) {j : ℕ} (h : ¬ j < 16) (c : Fin 512) :
    tile f j c = 0 := dif_neg h

/-! ## Jaccard facts for 0/1 vectors -/

section Jaccard

variable {ι : Type} [Fintype ι]

/-- For 0/1 vectors the sum of pointwise minima is the size of the intersection. -/
theorem sum_min_eq_inter (a b : ι → ℝ) (ha : ∀ l, a l = 0 ∨ a l = 1)
    (hb : ∀ l, b l = 0 ∨ b l = 1) : ∑ l, min (a l) (b l) = inter a b := by
  unfold inter
  refine Finset.sum_congr rfl fun l _ => ?_
  rcases ha l with h | h <;> rcases hb l with h' | h' <;> simp [h, h']

/-- For 0/1 vectors the sum of pointwise maxima is the size of the union. -/
theorem sum_max_eq_union (a b : ι → ℝ) (ha : ∀ l, a l = 0 ∨ a l = 1)
    (hb : ∀ l, b l = 0 ∨ b l = 1) :
    ∑ l, max (a l) (b l) = card a + card b - inter a b := by
  unfold inter card
  rw [← Finset.sum_add_distrib, ← Finset.sum_sub_distrib]
  refine Finset.sum_congr rfl fun l _ => ?_
  rcases ha l with h | h <;> rcases hb l with h' | h' <;> simp [h, h']

/-- The size of the union of two 0/1 vectors is not negative. -/
theorem union_nonneg (a b : ι → ℝ) (ha : ∀ l, a l = 0 ∨ a l = 1)
    (hb : ∀ l, b l = 0 ∨ b l = 1) : 0 ≤ card a + card b - inter a b := by
  rw [← sum_max_eq_union a b ha hb]
  refine Finset.sum_nonneg fun l _ => ?_
  rcases ha l with h | h <;> simp [h]

/-- The denominator of the Jaccard ratio of two 0/1 vectors is positive. -/
theorem union_add_eps_pos {eps : ℝ} (heps : 0 < eps) (a b : ι → ℝ)
    (ha : ∀ l, a l = 0 ∨ a l = 1) (hb : ∀ l, b l = 0 ∨ b l = 1) :
    0 < (card a + card b - inter a b) + eps :=
  add_pos_of_nonneg_of_pos (union_nonneg a b ha hb) heps

/-- The denominator of the Jaccard ratio of two 0/1 vectors is not zero. -/
theorem union_add_eps_ne_zero {eps : ℝ} (heps : 0 < eps) (a b : ι → ℝ)
    (ha : ∀ l, a l = 0 ∨ a l = 1) (hb : ∀ l, b l = 0 ∨ b l = 1) :
    (card a + card b - inter a b) + eps ≠ 0 :=
  (union_add_eps_pos heps a b ha hb).ne'

end Jaccard

/-- A vector of 6 entries extended by zeros to 128 entries. -/
def pad (a : Fin 6 → ℝ) : Fin 128 → ℝ :=
  fun k => if h : k.val < 6 then a ⟨k.val, h⟩ else 0

theorem pad_of_lt (a : Fin 6 → ℝ) (k : Fin 128) (h : k.val < 6) : pad a k = a ⟨k.val, h⟩ :=
  dif_pos h

theorem pad_of_not_lt (a : Fin 6 → ℝ) (k : Fin 128) (h : ¬ k.val < 6) : pad a k = 0 :=
  dif_neg h

/-- Padding a 0/1 vector with zeros gives a 0/1 vector. -/
theorem pad_zero_or_one (a : Fin 6 → ℝ) (ha : ∀ l, a l = 0 ∨ a l = 1) (k : Fin 128) :
    pad a k = 0 ∨ pad a k = 1 := by
  unfold pad
  split_ifs with h
  · exact ha _
  · exact Or.inl rfl

/-- The padding entries are zero, so the sum of a padded vector is the sum of the vector. -/
theorem sum_pad (a : Fin 6 → ℝ) : ∑ k : Fin 128, pad a k = ∑ l : Fin 6, a l := by
  have h1 : ∑ k : Fin 128, pad a k
      = ∑ k ∈ Finset.range 128, (if h : k < 6 then a ⟨k, h⟩ else 0) :=
    Fin.sum_univ_eq_sum_range (fun k => if h : k < 6 then a ⟨k, h⟩ else 0) 128
  have h2 : ∑ l : Fin 6, a l
      = ∑ k ∈ Finset.range 6, (if h : k < 6 then a ⟨k, h⟩ else 0) := by
    rw [← Fin.sum_univ_eq_sum_range (fun k => if h : k < 6 then a ⟨k, h⟩ else 0) 6]
    refine Finset.sum_congr rfl fun l _ => ?_
    rw [dif_pos l.isLt]
  rw [h1, h2]
  symm
  refine Finset.sum_subset (fun x hx => by rw [Finset.mem_range] at hx ⊢; omega) fun k _ hk => ?_
  rw [Finset.mem_range] at hk
  exact dif_neg hk

/-- Padding with zeros does not change the size of the intersection. -/
theorem inter_pad (a b : Fin 6 → ℝ) : inter (pad a) (pad b) = inter a b := by
  unfold inter
  rw [← sum_pad fun l => a l * b l]
  refine Finset.sum_congr rfl fun k _ => ?_
  unfold pad
  split_ifs <;> simp

/-- Padding with zeros does not change the size of a label set. -/
theorem card_pad (a : Fin 6 → ℝ) : card (pad a) = card a := sum_pad a

/-! ## Positivity -/

section RowPos

variable {γ : Type} [Fintype γ] [Nonempty γ]

/-- With weights that are not negative the shifted sum of exponentials is not negative. -/
theorem rowS_nonneg (L w : γ → ℝ) (hw : ∀ c, 0 ≤ w c) : 0 ≤ rowS L w :=
  Finset.sum_nonneg fun c _ => mul_nonneg (Real.exp_pos _).le (hw c)

/-- The argument of the logarithm is positive. -/
theorem rowS_add_eps_pos {eps : ℝ} (heps : 0 < eps) (L w : γ → ℝ) (hw : ∀ c, 0 ≤ w c) :
    0 < rowS L w + eps :=
  add_pos_of_nonneg_of_pos (rowS_nonneg L w hw) heps

omit [Nonempty γ] in
/-- A sum of numbers that are not negative is not negative. -/
theorem rowC_nonneg (q : γ → ℝ) (hq : ∀ c, 0 ≤ q c) : 0 ≤ rowC q :=
  Finset.sum_nonneg fun c _ => hq c

omit [Nonempty γ] in
/-- The denominator of the row's loss is positive. -/
theorem rowC_add_eps_pos {eps : ℝ} (heps : 0 < eps) (q : γ → ℝ) (hq : ∀ c, 0 ≤ q c) :
    0 < rowC q + eps :=
  add_pos_of_nonneg_of_pos (rowC_nonneg q hq) heps

omit [Nonempty γ] in
/-- The denominator of the row's loss is not zero. -/
theorem rowC_add_eps_ne_zero {eps : ℝ} (heps : 0 < eps) (q : γ → ℝ) (hq : ∀ c, 0 ≤ q c) :
    rowC q + eps ≠ 0 :=
  (rowC_add_eps_pos heps q hq).ne'

end RowPos

/-! ## Reindexing the scaled inner product; the temperature -/

/-- The scaled inner product of reindexed families of rows is the scaled inner product at the
reindexed positions. -/
theorem lg_comp {α β α' β' : Type} (A : α' → Fin 128 → ℝ) (B : β' → Fin 128 → ℝ)
    (f : α → α') (g : β → β') (r : α) (c : β) :
    lg (fun r => A (f r)) (fun c => B (g c)) r c = lg A B (f r) (g c) := rfl

/-- The same with one family of rows on both sides. -/
theorem lg_reindex {α β δ : Type} (X : δ → Fin 128 → ℝ) (f : α → δ) (g : β → δ)
    (r : α) (c : β) :
    lg (fun r => X (f r)) (fun c => X (g c)) r c = lg X X (f r) (g c) := rfl

/-- Dividing by the temperature is multiplying by its reciprocal. -/
theorem div_temp_eq_mul_cK (x : ℝ) : x / (4697621 / 67108864 : ℝ) = x * cK := by
  unfold cK
  rw [div_div_eq_mul_div, mul_div_assoc]

end Cert.Spec

end
-- ==== Proof.KI.Payloads1.lean ====
import proofs.«141123_j17076789969009_2_alg».proof.Proof.Gen.KernelIdeal.Skeleton
import proofs.«141123_j17076789969009_2_alg».proof.Proof.Consts
import proofs.«141123_j17076789969009_2_alg».proof.Proof.SpecLaws
import Idealize.ShloMosaic.Lib.ValueIdx
import Idealize.ShloMosaic.Lib.ValueLayout
import Idealize.ShloMosaic.PureOps.Ideal.Laws

/-!
# The loss kernel's arithmetic, entry by entry

Each value the kernel's body computes on a 512 × 512 tile, read at one entry and at the exact instance, is a
real number given by the specification's formulas: the scaled inner product of two feature rows, the
self-exclusion weight, the sizes of the intersection and of the union of two label sets, the Jaccard ratio, the
indicator of the threshold, and the largest logit of a row of the tile.  A matrix product into the zero
accumulator is a finite sum of products of reals; a sum over the lanes is a finite sum; a maximum over the lanes
starting from minus infinity is the largest entry, known by its universal property (it bounds every entry and
is one of them).
-/

noncomputable section

namespace Cert.KernelIdeal.Arith

open Cert.KernelIdeal Cert.KernelIdeal.Gen Cert.Spec
open Idealize.ShloMosaic Idealize.ShloMosaic.ValueIdx
open scoped BigOperators

/-! ## Small facts about extended reals -/

/-- The inclusion of the reals carries a finite sum to the sum of the inclusions. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The inclusion of the reals carries a maximum to the maximum. -/
theorem coe_max (a b : ℝ) : ((max a b : ℝ) : EReal) = max (a : EReal) (b : EReal) :=
  EReal.coe_strictMono.monotone.map_max

/-! ## Words -/

theorem cmpi_apply {s : Shape} {w : Nat} (p : CmpIPredicate) (a b : IVec s w) (i : s.Idx) :
    cmpi p a b i = IntOp.cmpi p (a i) (b i) := rfl
theorem addi_apply {s : Shape} {w : Nat} (a b : IVec s w) (i : s.Idx) :
    addi a b i = IntOp.addi (a i) (b i) := rfl

/-- A tile's base plus an offset inside the tile, in 32-bit words, when nothing wraps. -/
theorem word_base_add (t x : ℕ) :
    IntOp.addi (BitVec.ofNat 32 x) (Scalar.muli (BitVec.ofNat 32 t) 512#32) = BitVec.ofNat 32 (t * 512 + x) := by
  unfold IntOp.addi Scalar.muli IntOp.muli
  apply BitVec.eq_of_toNat_eq
  simp only [BitVec.toNat_add, BitVec.toNat_mul, BitVec.toNat_ofNat]
  omega

/-- The comparison "not equal" of two small naturals as 32-bit words, widened and converted: the self-exclusion weight. -/
theorem ne_word (m n : ℕ) (hm : m < 2 ^ 32) (hn : n < 2 ^ 32) :
    FloatOps.sitofp (F := Ideal) .f32 ((IntOp.cmpi .ne (BitVec.ofNat 32 m) (BitVec.ofNat 32 n)).setWidth 32)
      = ((msk m n : ℝ) : EReal) := by
  show (((((IntOp.cmpi .ne (BitVec.ofNat 32 m) (BitVec.ofNat 32 n)).setWidth 32).toInt : ℤ) : ℝ) : EReal) = _
  unfold msk IntOp.cmpi
  by_cases h : m = n
  · subst h
    simp
  · have hne : BitVec.ofNat 32 m ≠ BitVec.ofNat 32 n := by
      intro he
      have := congrArg BitVec.toNat he
      simp only [BitVec.toNat_ofNat] at this
      rw [Nat.mod_eq_of_lt hm, Nat.mod_eq_of_lt hn] at this
      exact h this
    have hb : (BitVec.ofNat 32 m != BitVec.ofNat 32 n) = true := bne_iff_ne.mpr hne
    simp [h, hb]

/-! ## The ε of the denominators -/

/-- The splat of the small constant added to the denominators. -/
theorem pay15_apply (r c : Fin 512) : k0_pay15 (F := Ideal) (ix2 r c) = ((epsR : ℝ) : EReal) := by
  unfold k0_pay15
  exact Cert.Consts.ofBits_eps

/-! ## The self-exclusion weight -/

/-- The payload of the self-exclusion mask at entry (r, c) of tile (i 0, i 1): the weight of row
(i 0) * 512 + r against column (i 1) * 512 + c. -/
theorem pay12_apply (i : grid0.Coords) (r c : Fin 512) :
    k0_pay12 (F := Ideal) i (ix2 r c)
      = ((msk ((i 0).val * 512 + r.val) ((i 1).val * 512 + c.val) : ℝ) : EReal) := by
  have h0 : (i 0).val < 16 := (i 0).isLt
  have h1 : (i 1).val < 16 := (i 1).isLt
  have hr := r.isLt
  have hc := c.isLt
  unfold k0_pay12
  simp only [sitofp_apply, extui_apply, cmpi_apply, addi_apply, broadcast_apply]
  rw [iota_single_apply, iota_single_apply, word_base_add, word_base_add]
  exact ne_word ((i 0).val * 512 + r.val) ((i 1).val * 512 + c.val) (by omega) (by omega)

/-! ## The two matrix products -/

/-- The first factor's row is the result's row. -/
theorem dot_lhs_0 (j : S512x512.Idx) (q : dot_S512x128_S128x512_S512x512_1_0_0_1_n_n.contr.Idx) :
    (dot_S512x128_S128x512_S512x512_1_0_0_1_n_n.lhsIdx j q 0).val = (j 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
/-- The first factor's column is the contraction's one coordinate. -/
theorem dot_lhs_1 (j : S512x512.Idx) (q : dot_S512x128_S128x512_S512x512_1_0_0_1_n_n.contr.Idx) :
    (dot_S512x128_S128x512_S512x512_1_0_0_1_n_n.lhsIdx j q 1).val = (q ⟨0, by decide⟩).val :=
  dot_S512x128_S128x512_S512x512_1_0_0_1_n_n.lhsIdx_val_of_single rfl j q
/-- The second factor's row is the contraction's one coordinate. -/
theorem dot_rhs_0 (j : S512x512.Idx) (q : dot_S512x128_S128x512_S512x512_1_0_0_1_n_n.contr.Idx) :
    (dot_S512x128_S128x512_S512x512_1_0_0_1_n_n.rhsIdx j q 0).val = (q ⟨0, by decide⟩).val :=
  dot_S512x128_S128x512_S512x512_1_0_0_1_n_n.rhsIdx_val_of_single rfl j q
/-- The second factor's column is the result's column. -/
theorem dot_rhs_1 (j : S512x512.Idx) (q : dot_S512x128_S128x512_S512x512_1_0_0_1_n_n.contr.Idx) :
    (dot_S512x128_S128x512_S512x512_1_0_0_1_n_n.rhsIdx j q 1).val = (j 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- A matrix product with the second factor transposed, into the zero accumulator, read at an entry: the inner
product of a row of the first factor with a row of the second. -/
theorem matmul_nt_apply (x y : FVec Ideal S512x128 .bf16) (h1 h2 : S512x128.ShapeCasts S512x128)
    (ht : S512x128.Transposes [1, 0] S128x512) (r c : Fin 512) :
    matmul dot_S512x128_S128x512_S512x512_1_0_0_1_n_n none (shapeCast S512x128 x h1)
        (transpose S128x512 [1, 0] (shapeCast S512x128 y h2) ht) (constant S512x512 .f32 0x00000000#32) (ix2 r c)
      = ∑ k : Fin 128, x (ix2 r k) * y (ix2 c k) := by
  rw [shapeCast_self, shapeCast_self]
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 r c) ((contrEquiv1 dot_S512x128_S128x512_S512x512_1_0_0_1_n_n 128 rfl rfl).symm k) = ix2 r k :=
    funext fun a => Fin.ext (by
      match a with
      | ⟨0, _⟩ => exact dot_lhs_0 _ _
      | ⟨1, _⟩ => exact (dot_lhs_1 _ _).trans hk)
  have er : dot_S512x128_S128x512_S512x512_1_0_0_1_n_n.rhsIdx (ix2 r c) ((contrEquiv1 dot_S512x128_S128x512_S512x512_1_0_0_1_n_n 128 rfl rfl).symm k) = ix2 k c :=
    funext fun a => Fin.ext (by
      match a with
      | ⟨0, _⟩ => exact (dot_rhs_0 _ _).trans hk
      | ⟨1, _⟩ => exact dot_rhs_1 _ _)
  rw [el, er, transpose_ix2_apply]

section Tile

variable (x0 x1 x2 x3 : Vec Ideal S512x128 .bf16) (x4 : Vec Ideal S512x1 .f32) (x5 : Vec Ideal S1x512 .f32)
variable (A B La Lb : Fin 512 → Fin 128 → ℝ) (sa sb : Fin 512 → ℝ)

/-- The size of the intersection of the label sets of row r and column c of the tile. -/
theorem pay13_apply (hx2 : ∀ r k, x2 (ix2 r k) = ((La r k : ℝ) : EReal))
    (hx3 : ∀ c k, x3 (ix2 c k) = ((Lb c k : ℝ) : EReal)) (r c : Fin 512) :
    k0_pay13 x2 x3 (ix2 r c) = ((inter (La r) (Lb c) : ℝ) : EReal) := by
  unfold k0_pay13
  refine (matmul_nt_apply x2 x3 _ _ _ r c).trans ?_
  unfold inter
  rw [coe_sum]
  refine Finset.sum_congr rfl fun k _ => ?_
  rw [hx2, hx3, EReal.coe_mul]

/-- The logit of row r against column c of the tile. -/
theorem pay11_apply (hx0 : ∀ r k, x0 (ix2 r k) = ((A r k : ℝ) : EReal))
    (hx1 : ∀ c k, x1 (ix2 c k) = ((B c k : ℝ) : EReal)) (r c : Fin 512) :
    k0_pay11 x0 x1 (ix2 r c) = ((lg A B r c : ℝ) : EReal) := by
  unfold k0_pay11
  rw [mulf_apply, broadcast_apply]
  refine (congrArg (· * _) (matmul_nt_apply x0 x1 _ _ _ r c)).trans ?_
  have hK : (Named.named κ "inv_temp" (0x41649247#32 : BitVec 32) : Ideal .f32) = ((cK : ℝ) : EReal) :=
    IdealRules.named_const.ideal_named_scalar _ _ _ _ rfl
  rw [hK]
  unfold lg
  rw [EReal.coe_mul, coe_sum]
  refine congrArg (· * _) (Finset.sum_congr rfl fun k _ => ?_)
  rw [hx0, hx1, EReal.coe_mul]

end Tile

/-! ## Layout operations of a column vector, and the two lane reductions -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index a lane reduction reads at lane `c` of row `r`. -/
theorem lift_ix1 (h : S512x512.Reduces [1] S512) (r c : Fin 512) : h.lift (ix1 r) c = ix2 r c :=
  funext fun a => Fin.ext (by match a with | ⟨0, _⟩ => rfl | ⟨1, _⟩ => rfl)

/-- A sum over the lanes, kept as a column, read at row `r`: the plain sum of the row. -/
theorem lane_sum_apply (src : FVec Ideal S512x512 .f32) (h : S512x512.Reduces [1] S512) (hφ : FKind.Formats .f32)
    (hacc : (0x00000000#32 : BitVec 32) = 0x00000000#32) (hc : S512.ShapeCasts S512x1) (r : Fin 512) (u : Fin 1) :
    shapeCast S512x1 (multiReduction .add [1] S512 src 0x00000000#32 h hφ hacc) hc (ix2 r u)
      = ∑ c : Fin 512, src (ix2 r c) := by
  refine (shapeCast_a_a1_apply _ hc r u).trans ?_
  refine (Ideal.multiReduction_add_single src 0x00000000#32 h hφ hacc (ix1 r)).trans ?_
  exact Finset.sum_congr rfl fun c _ => congrArg src (lift_ix1 h r c)

/-- A maximum over the lanes from minus infinity, kept as a column, read at a row whose entries are real: the
largest entry of the row. -/
theorem lane_max_apply (src : FVec Ideal S512x512 .f32) (h : S512x512.Reduces [1] S512) (hφ : FKind.Formats .f32)
    (hacc : (0xFF800000#32 : BitVec 32) = 0xFF800000#32) (hc : S512.ShapeCasts S512x1) (r : Fin 512) (u : Fin 1)
    (Lr : Fin 512 → ℝ) (hL : ∀ c, src (ix2 r c) = ((Lr c : ℝ) : EReal)) :
    shapeCast S512x1 (multiReduction .maximumf [1] S512 src 0xFF800000#32 h hφ hacc) hc (ix2 r u)
      = ((tmax Lr : ℝ) : EReal) := by
  refine (shapeCast_a_a1_apply _ hc r u).trans ?_
  refine (Ideal.multiReduction_maximumf_single src 0xFF800000#32 h hφ hacc (ix1 r)).trans ?_
  have hl : ∀ k : Fin 512, (src ∘ h.lift (ix1 r)) k = ((Lr k : ℝ) : EReal) := fun k => by
    show src (h.lift (ix1 r) k) = _
    rw [lift_ix1, hL]
  unfold tmax
  apply le_antisymm
  · rw [Finset.fold_max_le]
    refine ⟨?_, fun k _ => ?_⟩
    · show Ideal.ofBits .f32 0xFF800000#32 ≤ _
      rw [Cert.Consts.ofBits_neg_inf]; exact bot_le
    · rw [hl k]; exact EReal.coe_le_coe_iff.mpr (Finset.le_sup' Lr (Finset.mem_univ k))
  · rw [Finset.le_fold_max]
    obtain ⟨c, _, hc'⟩ := Finset.exists_mem_eq_sup' (Finset.univ_nonempty (α := Fin 512)) Lr
    exact Or.inr ⟨c, Finset.mem_univ c, by rw [hl c, hc']⟩

/-! ## More operations read at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem scalar_ofBits {φ : FTy} (b : BitVec φ.bits) : Scalar.ofBits (F := Ideal) φ b = Ideal.ofBits φ b := rfl

/-- The comparison "at least" of two reals, widened and converted: the indicator of the threshold. -/
theorem ge_word (x t : ℝ) :
    FloatOps.sitofp (F := Ideal) .f32
        ((FloatOps.cmpf (F := Ideal) (φ := .f32) .oge (x : EReal) (t : EReal)).setWidth 32)
      = ((ind t x : ℝ) : EReal) := by
  show ((((Ideal.cmp .oge (x : EReal) (t : EReal)).setWidth 32).toInt : ℝ) : EReal) = _
  unfold ind Ideal.cmp
  by_cases h : t ≤ x
  · have h' : ((t : EReal) ≤ (x : EReal)) := EReal.coe_le_coe_iff.mpr h
    simp [h, h']
  · have h' : ¬ ((t : EReal) ≤ (x : EReal)) := fun h' => h (EReal.coe_le_coe_iff.mp h')
    simp [h, h']

section Tile

variable (x2 x3 : Vec Ideal S512x128 .bf16) (x4 : Vec Ideal S512x1 .f32) (x5 : Vec Ideal S1x512 .f32)
variable (La Lb : Fin 512 → Fin 128 → ℝ) (sa sb : Fin 512 → ℝ)

/-- The size of the union of the label sets of row r and column c of the tile. -/
theorem pay14_apply (hx2 : ∀ r k, x2 (ix2 r k) = ((La r k : ℝ) : EReal))
    (hx3 : ∀ c k, x3 (ix2 c k) = ((Lb c k : ℝ) : EReal))
    (hx4 : ∀ r, x4 (ix2 r 0) = ((sa r : ℝ) : EReal)) (hx5 : ∀ c, x5 (ix2 0 c) = ((sb c : ℝ) : EReal))
    (r c : Fin 512) :
    k0_pay14 x2 x3 x4 x5 (ix2 r c) = ((sa r + sb c - inter (La r) (Lb c) : ℝ) : EReal) := by
  unfold k0_pay14
  rw [subf_apply, addf_apply, pay13_apply x2 x3 La Lb hx2 hx3 r c, shapeCast_self, shapeCast_self,
    broadcastTo_a1_ab_apply, broadcastTo_1b_ab_apply, hx4, hx5, ← EReal.coe_add, ← EReal.coe_sub]

end Tile

/-! ## One row of a tile, over abstract tile values -/

section Row

variable (v10 v21 v27 v35 v36 : FVec Ideal S512x512 .f32) (r : Fin 512) (Lr wr ur dr : Fin 512 → ℝ)

/-- The Jaccard ratio. -/
theorem pay16_apply (h27 : ∀ c, v27 (ix2 r c) = ((ur c : ℝ) : EReal)) (h35 : ∀ c, v35 (ix2 r c) = ((dr c : ℝ) : EReal))
    (h36 : ∀ c, v36 (ix2 r c) = ((epsR : ℝ) : EReal)) (hne : ∀ c, dr c + epsR ≠ 0) (c : Fin 512) :
    k0_pay16 v27 v35 v36 (ix2 r c) = ((ur c / (dr c + epsR) : ℝ) : EReal) := by
  unfold k0_pay16
  rw [divf_apply, addf_apply, h27, h35, h36, ← EReal.coe_add, Ideal.div_coe (hne c), ← EReal.coe_mul, mul_one_div]

/-- The positive-pair weight. -/
theorem pay17_apply (h21 : ∀ c, v21 (ix2 r c) = ((wr c : ℝ) : EReal)) (h27 : ∀ c, v27 (ix2 r c) = ((ur c : ℝ) : EReal))
    (h35 : ∀ c, v35 (ix2 r c) = ((dr c : ℝ) : EReal)) (h36 : ∀ c, v36 (ix2 r c) = ((epsR : ℝ) : EReal))
    (hne : ∀ c, dr c + epsR ≠ 0) (c : Fin 512) :
    k0_pay17 v21 v27 v35 v36 (ix2 r c) = ((ind thrR (ur c / (dr c + epsR)) * wr c : ℝ) : EReal) := by
  unfold k0_pay17
  rw [mulf_apply, sitofp_apply, extui_apply, cmpf_apply, broadcast_apply,
    pay16_apply v27 v35 v36 r ur dr h27 h35 h36 hne c, h21, scalar_ofBits, Cert.Consts.ofBits_thr, ge_word,
    ← EReal.coe_mul]

/-- The positive-pair weight times the ratio. -/
theorem pay18_apply (h21 : ∀ c, v21 (ix2 r c) = ((wr c : ℝ) : EReal)) (h27 : ∀ c, v27 (ix2 r c) = ((ur c : ℝ) : EReal))
    (h35 : ∀ c, v35 (ix2 r c) = ((dr c : ℝ) : EReal)) (h36 : ∀ c, v36 (ix2 r c) = ((epsR : ℝ) : EReal))
    (hne : ∀ c, dr c + epsR ≠ 0) (c : Fin 512) :
    k0_pay18 v21 v27 v35 v36 (ix2 r c)
      = (((ind thrR (ur c / (dr c + epsR)) * wr c) * (ur c / (dr c + epsR)) : ℝ) : EReal) := by
  unfold k0_pay18
  rw [mulf_apply, pay17_apply v21 v27 v35 v36 r wr ur dr h21 h27 h35 h36 hne c,
    pay16_apply v27 v35 v36 r ur dr h27 h35 h36 hne c, ← EReal.coe_mul]

/-- The running maximum after this tile. -/
theorem pay19_apply (h10 : ∀ c, v10 (ix2 r c) = ((Lr c : ℝ) : EReal)) (v47 : Vec Ideal S512x1 .f32) :
    k0_pay19 v10 v47 (ix2 r 0) = max (v47 (ix2 r 0)) ((tmax Lr : ℝ) : EReal) := by
  unfold k0_pay19
  rw [maximumf_apply, lane_max_apply v10 _ _ _ _ r 0 Lr h10]

/-- The stored running maximum is the same number. -/
theorem pay24_apply (h10 : ∀ c, v10 (ix2 r c) = ((Lr c : ℝ) : EReal)) (v47 : Vec Ideal S512x1 .f32) :
    k0_pay24 v10 v47 (ix2 r 0) = max (v47 (ix2 r 0)) ((tmax Lr : ℝ) : EReal) := by
  unfold k0_pay24
  rw [shapeCast_self]
  exact pay19_apply v10 r Lr h10 v47

end Row

end Cert.KernelIdeal.Arith

end
-- ==== Proof.KI.Payloads2.lean ====
import proofs.«141123_j17076789969009_2_alg».proof.Proof.KI.Payloads1

/-!
# The loss kernel's accumulators after one tile, and the loss of a row

The five numbers the body carries along a row of tiles — the running maximum, the rescaled sum of exponentials
and the three sums weighted by the positive-pair weight — after one more tile, as real numbers: exactly the
steps of the specification's tile-by-tile recursion.  At the first tile the accumulators start from minus
infinity and zero, and the step reduces to the recursion's first term (a product with zero vanishes whatever
the other factor).  The loss of a row from the five finished numbers is the specification's closed form.
-/

noncomputable section

namespace Cert.KernelIdeal.Arith

open Cert.KernelIdeal Cert.KernelIdeal.Gen Cert.Spec
open Idealize.ShloMosaic Idealize.ShloMosaic.ValueIdx
open scoped BigOperators

/-! ## The initial values -/

theorem pay6_apply (r : Fin 512) : k0_pay6 (F := Ideal) (ix2 r 0) = (⊥ : EReal) := by
  unfold k0_pay6
  rw [shapeCast_self, broadcast_apply, scalar_ofBits, Cert.Consts.ofBits_neg_inf]
theorem pay7_apply (r : Fin 512) : k0_pay7 (F := Ideal) (ix2 r 0) = (0 : EReal) := by
  unfold k0_pay7
  rw [shapeCast_self, broadcast_apply, scalar_ofBits, Cert.Consts.ofBits_zero]
theorem pay8_apply (r : Fin 512) : k0_pay8 (F := Ideal) (ix2 r 0) = (0 : EReal) := by
  unfold k0_pay8
  rw [shapeCast_self, broadcast_apply, scalar_ofBits, Cert.Consts.ofBits_zero]
theorem pay9_apply (r : Fin 512) : k0_pay9 (F := Ideal) (ix2 r 0) = (0 : EReal) := by
  unfold k0_pay9
  rw [shapeCast_self, broadcast_apply, scalar_ofBits, Cert.Consts.ofBits_zero]
theorem pay10_apply (r : Fin 512) : k0_pay10 (F := Ideal) (ix2 r 0) = (0 : EReal) := by
  unfold k0_pay10
  rw [shapeCast_self, broadcast_apply, scalar_ofBits, Cert.Consts.ofBits_zero]

/-! ## One row of a tile, over abstract tile values: the four sums -/

section Row

variable (v10 v21 v27 v35 v36 : FVec Ideal S512x512 .f32) (r : Fin 512) (Lr wr ur dr : Fin 512 → ℝ)

/-- The rescaled sum of exponentials after this tile, given the new running maximum `M`. -/
theorem pay20_apply (h10 : ∀ c, v10 (ix2 r c) = ((Lr c : ℝ) : EReal)) (h21 : ∀ c, v21 (ix2 r c) = ((wr c : ℝ) : EReal))
    (v47 v55 : Vec Ideal S512x1 .f32) (M : ℝ) (hM : k0_pay19 v10 v47 (ix2 r 0) = ((M : ℝ) : EReal)) :
    k0_pay1 (k0_pay20 v10 v21 v47 v55) (ix2 r 0)
      = v55 (ix2 r 0) * Ideal.exp (v47 (ix2 r 0) - ((M : ℝ) : EReal))
        + ((∑ c, Real.exp (Lr c - M) * wr c : ℝ) : EReal) := by
  unfold k0_pay1 k0_pay20
  rw [shapeCast_self, addf_apply, mulf_apply, exp_apply, subf_apply, hM, lane_sum_apply, coe_sum]
  refine congrArg (_ + ·) (Finset.sum_congr rfl fun c _ => ?_)
  rw [mulf_apply, exp_apply, subf_apply, broadcastTo_a1_ab_apply, hM, h10, h21, ← EReal.coe_sub, Ideal.exp_coe,
    ← EReal.coe_mul]

/-- The sum of q r L after this tile. -/
theorem pay21_apply (h10 : ∀ c, v10 (ix2 r c) = ((Lr c : ℝ) : EReal)) (h21 : ∀ c, v21 (ix2 r c) = ((wr c : ℝ) : EReal))
    (h27 : ∀ c, v27 (ix2 r c) = ((ur c : ℝ) : EReal)) (h35 : ∀ c, v35 (ix2 r c) = ((dr c : ℝ) : EReal))
    (h36 : ∀ c, v36 (ix2 r c) = ((epsR : ℝ) : EReal)) (hne : ∀ c, dr c + epsR ≠ 0) (v60 : Vec Ideal S512x1 .f32) :
    k0_pay2 (k0_pay21 v10 v21 v27 v35 v36 v60) (ix2 r 0)
      = v60 (ix2 r 0)
        + ((∑ c, ((ind thrR (ur c / (dr c + epsR)) * wr c) * (ur c / (dr c + epsR))) * Lr c : ℝ) : EReal) := by
  unfold k0_pay2 k0_pay21
  rw [shapeCast_self, addf_apply, lane_sum_apply, coe_sum]
  refine congrArg (_ + ·) (Finset.sum_congr rfl fun c _ => ?_)
  rw [mulf_apply, pay18_apply v21 v27 v35 v36 r wr ur dr h21 h27 h35 h36 hne c, h10, ← EReal.coe_mul]

/-- The sum of q r after this tile. -/
theorem pay22_apply (h21 : ∀ c, v21 (ix2 r c) = ((wr c : ℝ) : EReal))
    (h27 : ∀ c, v27 (ix2 r c) = ((ur c : ℝ) : EReal)) (h35 : ∀ c, v35 (ix2 r c) = ((dr c : ℝ) : EReal))
    (h36 : ∀ c, v36 (ix2 r c) = ((epsR : ℝ) : EReal)) (hne : ∀ c, dr c + epsR ≠ 0) (v65 : Vec Ideal S512x1 .f32) :
    k0_pay3 (k0_pay22 v21 v27 v35 v36 v65) (ix2 r 0)
      = v65 (ix2 r 0)
        + ((∑ c, (ind thrR (ur c / (dr c + epsR)) * wr c) * (ur c / (dr c + epsR)) : ℝ) : EReal) := by
  unfold k0_pay3 k0_pay22
  rw [shapeCast_self, addf_apply, lane_sum_apply, coe_sum]
  refine congrArg (_ + ·) (Finset.sum_congr rfl fun c _ => ?_)
  rw [pay18_apply v21 v27 v35 v36 r wr ur dr h21 h27 h35 h36 hne c]

/-- The sum of q after this tile. -/
theorem pay23_apply (h21 : ∀ c, v21 (ix2 r c) = ((wr c : ℝ) : EReal))
    (h27 : ∀ c, v27 (ix2 r c) = ((ur c : ℝ) : EReal)) (h35 : ∀ c, v35 (ix2 r c) = ((dr c : ℝ) : EReal))
    (h36 : ∀ c, v36 (ix2 r c) = ((epsR : ℝ) : EReal)) (hne : ∀ c, dr c + epsR ≠ 0) (v69 : Vec Ideal S512x1 .f32) :
    k0_pay4 (k0_pay23 v21 v27 v35 v36 v69) (ix2 r 0)
      = v69 (ix2 r 0) + ((∑ c, ind thrR (ur c / (dr c + epsR)) * wr c : ℝ) : EReal) := by
  unfold k0_pay4 k0_pay23
  rw [shapeCast_self, addf_apply, lane_sum_apply, coe_sum]
  refine congrArg (_ + ·) (Finset.sum_congr rfl fun c _ => ?_)
  rw [pay17_apply v21 v27 v35 v36 r wr ur dr h21 h27 h35 h36 hne c]

end Row

/-! ## The loss of a row from the five finished numbers -/

theorem pay5_apply (v91 v95 v96 v97 v101 : Vec Ideal S512x1 .f32) (r : Fin 512) (l a b m cc : ℝ)
    (hl : v91 (ix2 r 0) = ((l : ℝ) : EReal)) (ha : v95 (ix2 r 0) = ((a : ℝ) : EReal))
    (hb : v96 (ix2 r 0) = ((b : ℝ) : EReal)) (hm : v97 (ix2 r 0) = ((m : ℝ) : EReal))
    (hc : v101 (ix2 r 0) = ((cc : ℝ) : EReal)) (hl0 : 0 ≤ l) (hc0 : cc + epsR ≠ 0) :
    k0_pay5 v91 v95 v96 v97 v101 (ix2 0 r) = ((lossOf epsR m l a b cc : ℝ) : EReal) := by
  have hpos : ¬ (l + epsR ≤ 0) := not_le.mpr (add_pos_of_nonneg_of_pos hl0 epsR_pos)
  unfold k0_pay5
  rw [transpose_ix2_apply]
  simp only [mulf_apply, divf_apply, subf_apply, addf_apply, log_apply, broadcast_apply, scalar_ofBits]
  rw [hl, ha, hb, hm, hc, Cert.Consts.ofBits_eps, Cert.Consts.ofBits_neg_one, ← EReal.coe_add, Ideal.log_coe,
    if_neg hpos, ← EReal.coe_add, ← EReal.coe_mul, ← EReal.coe_sub, ← EReal.coe_add, Ideal.div_coe hc0,
    ← EReal.coe_mul, ← EReal.coe_mul, mul_one_div]
  rfl

/-! ## The tile's real data, and the recursion's steps -/

/-- The logits of row `r` of the tile. -/
def tL (A B : Fin 512 → Fin 128 → ℝ) (r : Fin 512) : Fin 512 → ℝ := fun c => lg A B r c
/-- The self-exclusion weights of row `r` of tile `i`. -/
def tW (i : grid0.Coords) (r : Fin 512) : Fin 512 → ℝ :=
  fun c => msk ((i 0).val * 512 + r.val) ((i 1).val * 512 + c.val)
/-- The Jaccard ratios of row `r` of the tile. -/
def tR (La Lb : Fin 512 → Fin 128 → ℝ) (sa sb : Fin 512 → ℝ) (r : Fin 512) : Fin 512 → ℝ :=
  fun c => jac epsR (inter (La r) (Lb c)) (sa r) (sb c)
/-- The positive-pair weights of row `r` of tile `i`. -/
def tQ (i : grid0.Coords) (La Lb : Fin 512 → Fin 128 → ℝ) (sa sb : Fin 512 → ℝ) (r : Fin 512) : Fin 512 → ℝ :=
  fun c => ind thrR (tR La Lb sa sb r c) * tW i r c

/-- The running maximum after a later tile. -/
theorem stepM (x0 x1 : Vec Ideal S512x128 .bf16) (A B : Fin 512 → Fin 128 → ℝ)
    (hx0 : ∀ r k, x0 (ix2 r k) = ((A r k : ℝ) : EReal)) (hx1 : ∀ c k, x1 (ix2 c k) = ((B c k : ℝ) : EReal))
    (r : Fin 512) (xs0 : Vec Ideal S512x1 .f32) (mo : ℝ) (h0 : xs0 (ix2 r 0) = ((mo : ℝ) : EReal)) :
    k0_pay24 (k0_pay11 x0 x1) xs0 (ix2 r 0) = ((max mo (tmax (tL A B r)) : ℝ) : EReal) := by
  rw [pay24_apply (k0_pay11 x0 x1) r (tL A B r) (fun c => pay11_apply x0 x1 A B hx0 hx1 r c) xs0, h0, ← coe_max]

/-- The running maximum after the first tile. -/
theorem stepM0 (x0 x1 : Vec Ideal S512x128 .bf16) (A B : Fin 512 → Fin 128 → ℝ)
    (hx0 : ∀ r k, x0 (ix2 r k) = ((A r k : ℝ) : EReal)) (hx1 : ∀ c k, x1 (ix2 c k) = ((B c k : ℝ) : EReal))
    (r : Fin 512) :
    k0_pay24 (k0_pay11 x0 x1) (k0_pay6 (F := Ideal)) (ix2 r 0) = ((tmax (tL A B r) : ℝ) : EReal) := by
  rw [pay24_apply (k0_pay11 x0 x1) r (tL A B r) (fun c => pay11_apply x0 x1 A B hx0 hx1 r c) (k0_pay6 (F := Ideal)), pay6_apply]
  exact max_eq_right bot_le

/-- The rescaled sum of exponentials after a later tile. -/
theorem stepL (i : grid0.Coords) (x0 x1 : Vec Ideal S512x128 .bf16) (A B : Fin 512 → Fin 128 → ℝ)
    (hx0 : ∀ r k, x0 (ix2 r k) = ((A r k : ℝ) : EReal)) (hx1 : ∀ c k, x1 (ix2 c k) = ((B c k : ℝ) : EReal))
    (r : Fin 512) (xs0 xs1 : Vec Ideal S512x1 .f32) (mo lo : ℝ) (h0 : xs0 (ix2 r 0) = ((mo : ℝ) : EReal))
    (h1 : xs1 (ix2 r 0) = ((lo : ℝ) : EReal)) :
    k0_pay1 (k0_pay20 (k0_pay11 x0 x1) (k0_pay12 i) xs0 xs1) (ix2 r 0)
      = ((lo * Real.exp (mo - max mo (tmax (tL A B r)))
          + ∑ c, Real.exp (tL A B r c - max mo (tmax (tL A B r))) * tW i r c : ℝ) : EReal) := by
  have hM : k0_pay19 (k0_pay11 x0 x1) xs0 (ix2 r 0) = ((max mo (tmax (tL A B r)) : ℝ) : EReal) := by
    rw [pay19_apply (k0_pay11 x0 x1) r (tL A B r) (fun c => pay11_apply x0 x1 A B hx0 hx1 r c) xs0, h0, ← coe_max]
  rw [pay20_apply (k0_pay11 x0 x1) (k0_pay12 i) r (tL A B r) (tW i r)
      (fun c => pay11_apply x0 x1 A B hx0 hx1 r c) (fun c => pay12_apply i r c) xs0 xs1 _ hM,
    h0, h1, ← EReal.coe_sub, Ideal.exp_coe, ← EReal.coe_mul, ← EReal.coe_add]

/-- The rescaled sum of exponentials after the first tile. -/
theorem stepL0 (i : grid0.Coords) (x0 x1 : Vec Ideal S512x128 .bf16) (A B : Fin 512 → Fin 128 → ℝ)
    (hx0 : ∀ r k, x0 (ix2 r k) = ((A r k : ℝ) : EReal)) (hx1 : ∀ c k, x1 (ix2 c k) = ((B c k : ℝ) : EReal))
    (r : Fin 512) :
    k0_pay1 (k0_pay20 (k0_pay11 x0 x1) (k0_pay12 i) (k0_pay6 (F := Ideal)) (k0_pay7 (F := Ideal))) (ix2 r 0)
      = ((∑ c, Real.exp (tL A B r c - tmax (tL A B r)) * tW i r c : ℝ) : EReal) := by
  have hM : k0_pay19 (k0_pay11 x0 x1) (k0_pay6 (F := Ideal)) (ix2 r 0) = ((tmax (tL A B r) : ℝ) : EReal) := by
    rw [pay19_apply (k0_pay11 x0 x1) r (tL A B r) (fun c => pay11_apply x0 x1 A B hx0 hx1 r c) (k0_pay6 (F := Ideal)), pay6_apply]
    exact max_eq_right bot_le
  rw [pay20_apply (k0_pay11 x0 x1) (k0_pay12 i) r (tL A B r) (tW i r)
      (fun c => pay11_apply x0 x1 A B hx0 hx1 r c) (fun c => pay12_apply i r c) (k0_pay6 (F := Ideal)) (k0_pay7 (F := Ideal)) _ hM,
    pay7_apply, zero_mul, zero_add]

section Steps

variable (i : grid0.Coords) (x0 x1 x2 x3 : Vec Ideal S512x128 .bf16) (x4 : Vec Ideal S512x1 .f32)
  (x5 : Vec Ideal S1x512 .f32) (A B La Lb : Fin 512 → Fin 128 → ℝ) (sa sb : Fin 512 → ℝ)

/-- The sum of q r L after a later tile. -/
theorem stepA (hx0 : ∀ r k, x0 (ix2 r k) = ((A r k : ℝ) : EReal)) (hx1 : ∀ c k, x1 (ix2 c k) = ((B c k : ℝ) : EReal))
    (hx2 : ∀ r k, x2 (ix2 r k) = ((La r k : ℝ) : EReal)) (hx3 : ∀ c k, x3 (ix2 c k) = ((Lb c k : ℝ) : EReal))
    (hx4 : ∀ r, x4 (ix2 r 0) = ((sa r : ℝ) : EReal)) (hx5 : ∀ c, x5 (ix2 0 c) = ((sb c : ℝ) : EReal))
    (r : Fin 512) (hden : ∀ c, (sa r + sb c - inter (La r) (Lb c)) + epsR ≠ 0)
    (xs2 : Vec Ideal S512x1 .f32) (ao : ℝ) (h2 : xs2 (ix2 r 0) = ((ao : ℝ) : EReal)) :
    k0_pay2 (k0_pay21 (k0_pay11 x0 x1) (k0_pay12 i) (k0_pay13 x2 x3) (k0_pay14 x2 x3 x4 x5) (k0_pay15 (F := Ideal)) xs2)
        (ix2 r 0)
      = ((ao + ∑ c, (tQ i La Lb sa sb r c * tR La Lb sa sb r c) * tL A B r c : ℝ) : EReal) := by
  rw [pay21_apply (k0_pay11 x0 x1) (k0_pay12 i) (k0_pay13 x2 x3) (k0_pay14 x2 x3 x4 x5) (k0_pay15 (F := Ideal)) r
      (tL A B r) (tW i r) (fun c => inter (La r) (Lb c)) (fun c => sa r + sb c - inter (La r) (Lb c))
      (fun c => pay11_apply x0 x1 A B hx0 hx1 r c) (fun c => pay12_apply i r c)
      (fun c => pay13_apply x2 x3 La Lb hx2 hx3 r c) (fun c => pay14_apply x2 x3 x4 x5 La Lb sa sb hx2 hx3 hx4 hx5 r c)
      (fun c => pay15_apply r c) hden xs2, h2, ← EReal.coe_add]
  rfl

/-- The sum of q r L after the first tile. -/
theorem stepA0 (hx0 : ∀ r k, x0 (ix2 r k) = ((A r k : ℝ) : EReal)) (hx1 : ∀ c k, x1 (ix2 c k) = ((B c k : ℝ) : EReal))
    (hx2 : ∀ r k, x2 (ix2 r k) = ((La r k : ℝ) : EReal)) (hx3 : ∀ c k, x3 (ix2 c k) = ((Lb c k : ℝ) : EReal))
    (hx4 : ∀ r, x4 (ix2 r 0) = ((sa r : ℝ) : EReal)) (hx5 : ∀ c, x5 (ix2 0 c) = ((sb c : ℝ) : EReal))
    (r : Fin 512) (hden : ∀ c, (sa r + sb c - inter (La r) (Lb c)) + epsR ≠ 0) :
    k0_pay2 (k0_pay21 (k0_pay11 x0 x1) (k0_pay12 i) (k0_pay13 x2 x3) (k0_pay14 x2 x3 x4 x5) (k0_pay15 (F := Ideal))
        (k0_pay8 (F := Ideal))) (ix2 r 0)
      = ((∑ c, (tQ i La Lb sa sb r c * tR La Lb sa sb r c) * tL A B r c : ℝ) : EReal) := by
  rw [pay21_apply (k0_pay11 x0 x1) (k0_pay12 i) (k0_pay13 x2 x3) (k0_pay14 x2 x3 x4 x5) (k0_pay15 (F := Ideal)) r
      (tL A B r) (tW i r) (fun c => inter (La r) (Lb c)) (fun c => sa r + sb c - inter (La r) (Lb c))
      (fun c => pay11_apply x0 x1 A B hx0 hx1 r c) (fun c => pay12_apply i r c)
      (fun c => pay13_apply x2 x3 La Lb hx2 hx3 r c) (fun c => pay14_apply x2 x3 x4 x5 La Lb sa sb hx2 hx3 hx4 hx5 r c)
      (fun c => pay15_apply r c) hden (k0_pay8 (F := Ideal)), pay8_apply, zero_add]
  rfl

/-- The sum of q r after a later tile. -/
theorem stepB (hx2 : ∀ r k, x2 (ix2 r k) = ((La r k : ℝ) : EReal)) (hx3 : ∀ c k, x3 (ix2 c k) = ((Lb c k : ℝ) : EReal))
    (hx4 : ∀ r, x4 (ix2 r 0) = ((sa r : ℝ) : EReal)) (hx5 : ∀ c, x5 (ix2 0 c) = ((sb c : ℝ) : EReal))
    (r : Fin 512) (hden : ∀ c, (sa r + sb c - inter (La r) (Lb c)) + epsR ≠ 0)
    (xs3 : Vec Ideal S512x1 .f32) (bo : ℝ) (h3 : xs3 (ix2 r 0) = ((bo : ℝ) : EReal)) :
    k0_pay3 (k0_pay22 (k0_pay12 i) (k0_pay13 x2 x3) (k0_pay14 x2 x3 x4 x5) (k0_pay15 (F := Ideal)) xs3) (ix2 r 0)
      = ((bo + ∑ c, tQ i La Lb sa sb r c * tR La Lb sa sb r c : ℝ) : EReal) := by
  rw [pay22_apply (k0_pay12 i) (k0_pay13 x2 x3) (k0_pay14 x2 x3 x4 x5) (k0_pay15 (F := Ideal)) r
      (tW i r) (fun c => inter (La r) (Lb c)) (fun c => sa r + sb c - inter (La r) (Lb c))
      (fun c => pay12_apply i r c)
      (fun c => pay13_apply x2 x3 La Lb hx2 hx3 r c) (fun c => pay14_apply x2 x3 x4 x5 La Lb sa sb hx2 hx3 hx4 hx5 r c)
      (fun c => pay15_apply r c) hden xs3, h3, ← EReal.coe_add]
  rfl

/-- The sum of q r after the first tile. -/
theorem stepB0 (hx2 : ∀ r k, x2 (ix2 r k) = ((La r k : ℝ) : EReal)) (hx3 : ∀ c k, x3 (ix2 c k) = ((Lb c k : ℝ) : EReal))
    (hx4 : ∀ r, x4 (ix2 r 0) = ((sa r : ℝ) : EReal)) (hx5 : ∀ c, x5 (ix2 0 c) = ((sb c : ℝ) : EReal))
    (r : Fin 512) (hden : ∀ c, (sa r + sb c - inter (La r) (Lb c)) + epsR ≠ 0) :
    k0_pay3 (k0_pay22 (k0_pay12 i) (k0_pay13 x2 x3) (k0_pay14 x2 x3 x4 x5) (k0_pay15 (F := Ideal))
        (k0_pay9 (F := Ideal))) (ix2 r 0)
      = ((∑ c, tQ i La Lb sa sb r c * tR La Lb sa sb r c : ℝ) : EReal) := by
  rw [pay22_apply (k0_pay12 i) (k0_pay13 x2 x3) (k0_pay14 x2 x3 x4 x5) (k0_pay15 (F := Ideal)) r
      (tW i r) (fun c => inter (La r) (Lb c)) (fun c => sa r + sb c - inter (La r) (Lb c))
      (fun c => pay12_apply i r c)
      (fun c => pay13_apply x2 x3 La Lb hx2 hx3 r c) (fun c => pay14_apply x2 x3 x4 x5 La Lb sa sb hx2 hx3 hx4 hx5 r c)
      (fun c => pay15_apply r c) hden (k0_pay9 (F := Ideal)), pay9_apply, zero_add]
  rfl

/-- The sum of q after a later tile. -/
theorem stepC (hx2 : ∀ r k, x2 (ix2 r k) = ((La r k : ℝ) : EReal)) (hx3 : ∀ c k, x3 (ix2 c k) = ((Lb c k : ℝ) : EReal))
    (hx4 : ∀ r, x4 (ix2 r 0) = ((sa r : ℝ) : EReal)) (hx5 : ∀ c, x5 (ix2 0 c) = ((sb c : ℝ) : EReal))
    (r : Fin 512) (hden : ∀ c, (sa r + sb c - inter (La r) (Lb c)) + epsR ≠ 0)
    (xs4 : Vec Ideal S512x1 .f32) (co : ℝ) (h4 : xs4 (ix2 r 0) = ((co : ℝ) : EReal)) :
    k0_pay4 (k0_pay23 (k0_pay12 i) (k0_pay13 x2 x3) (k0_pay14 x2 x3 x4 x5) (k0_pay15 (F := Ideal)) xs4) (ix2 r 0)
      = ((co + ∑ c, tQ i La Lb sa sb r c : ℝ) : EReal) := by
  rw [pay23_apply (k0_pay12 i) (k0_pay13 x2 x3) (k0_pay14 x2 x3 x4 x5) (k0_pay15 (F := Ideal)) r
      (tW i r) (fun c => inter (La r) (Lb c)) (fun c => sa r + sb c - inter (La r) (Lb c))
      (fun c => pay12_apply i r c)
      (fun c => pay13_apply x2 x3 La Lb hx2 hx3 r c) (fun c => pay14_apply x2 x3 x4 x5 La Lb sa sb hx2 hx3 hx4 hx5 r c)
      (fun c => pay15_apply r c) hden xs4, h4, ← EReal.coe_add]
  rfl

/-- The sum of q after the first tile. -/
theorem stepC0 (hx2 : ∀ r k, x2 (ix2 r k) = ((La r k : ℝ) : EReal)) (hx3 : ∀ c k, x3 (ix2 c k) = ((Lb c k : ℝ) : EReal))
    (hx4 : ∀ r, x4 (ix2 r 0) = ((sa r : ℝ) : EReal)) (hx5 : ∀ c, x5 (ix2 0 c) = ((sb c : ℝ) : EReal))
    (r : Fin 512) (hden : ∀ c, (sa r + sb c - inter (La r) (Lb c)) + epsR ≠ 0) :
    k0_pay4 (k0_pay23 (k0_pay12 i) (k0_pay13 x2 x3) (k0_pay14 x2 x3 x4 x5) (k0_pay15 (F := Ideal))
        (k0_pay10 (F := Ideal))) (ix2 r 0)
      = ((∑ c, tQ i La Lb sa sb r c : ℝ) : EReal) := by
  rw [pay23_apply (k0_pay12 i) (k0_pay13 x2 x3) (k0_pay14 x2 x3 x4 x5) (k0_pay15 (F := Ideal)) r
      (tW i r) (fun c => inter (La r) (Lb c)) (fun c => sa r + sb c - inter (La r) (Lb c))
      (fun c => pay12_apply i r c)
      (fun c => pay13_apply x2 x3 La Lb hx2 hx3 r c) (fun c => pay14_apply x2 x3 x4 x5 La Lb sa sb hx2 hx3 hx4 hx5 r c)
      (fun c => pay15_apply r c) hden (k0_pay10 (F := Ideal)), pay10_apply, zero_add]
  rfl

end Steps

end Cert.KernelIdeal.Arith

end
-- ==== Proof.KI.Blocks.lean ====
import proofs.«141123_j17076789969009_2_alg».proof.Proof.KI.Runs
import Idealize.ShloMosaic.Lib.Pipeline.Value

/-!
# The windows' blocks as rows of their arrays

Point `t` of the `16 × 16` grid is anchor tile `t / 16` against contrast tile `t % 16`.  The anchor windows
(features, labels, label counts) read rows `512 (t / 16) …` of their arrays, the contrast windows rows
(columns, for the row vector of counts) `512 (t % 16) …`; the label arrays have `4096 = 8 · 512` rows, so their tile is
taken modulo `8`.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- The block indices of the seven windows at every point of the grid. -/
theorem idx_facts : ∀ t : Fin cfg0.N,
    (win0_0.index t 0 = t.val / 16 ∧ win0_0.index t 1 = 0) ∧ (win0_1.index t 0 = t.val % 16 ∧ win0_1.index t 1 = 0)
    ∧ (win0_2.index t 0 = t.val / 16 % 8 ∧ win0_2.index t 1 = 0) ∧ (win0_3.index t 0 = t.val % 16 % 8 ∧ win0_3.index t 1 = 0)
    ∧ (win0_4.index t 0 = t.val / 16 % 8 ∧ win0_4.index t 1 = 0) ∧ (win0_5.index t 0 = 0 ∧ win0_5.index t 1 = t.val % 16 % 8)
    ∧ (win0_6.index t 0 = 0 ∧ win0_6.index t 1 = t.val / 16) :=
  (by decide +kernel : ∀ t : Fin grid0.N, _)

/-- The grid coordinates of a point. -/
theorem coords_facts : ∀ t : Fin cfg0.N, ((grid0.coords t) 0).val = t.val / 16 ∧ ((grid0.coords t) 1).val = t.val % 16 :=
  (by decide +kernel : ∀ t : Fin grid0.N, _)

/-- The anchor feature window's block at point `t` is rows `512 (t / 16) …` of the feature matrix. -/
theorem iblk0_0_apply (c : Dev nD) (t : Fin cfg0.N) (x : S512x128.Idx) (k : S8192x128.Idx)
    (hk0 : (k 0).val = t.val / 16 * 512 + (x 0).val) (hk1 : (k 1).val = (x 1).val) :
    (iblk0 V c 0 t : Vec F S512x128 .bf16) x = (V c main_v8 : S8192x128.Idx → Elt F .bf16) k := by
  have hi := (idx_facts t).1
  unfold iblk0
  rw [View.read_apply]
  show V c main_v8 _ = V c main_v8 _
  congr 1
  funext a
  apply Fin.ext
  match a with
  | ⟨0, _⟩ => show win0_0.index t 0 * 512 + 1 * (x 0).val = (k 0).val; rw [hi.1, hk0]; omega
  | ⟨1, _⟩ => show win0_0.index t 1 * 128 + 1 * (x 1).val = (k 1).val; rw [hi.2, hk1]; omega

/-- The contrast feature window's block at point `t` is rows `512 (t % 16) …` of the feature matrix. -/
theorem iblk0_1_apply (c : Dev nD) (t : Fin cfg0.N) (x : S512x128.Idx) (k : S8192x128.Idx)
    (hk0 : (k 0).val = t.val % 16 * 512 + (x 0).val) (hk1 : (k 1).val = (x 1).val) :
    (iblk0 V c 1 t : Vec F S512x128 .bf16) x = (V c main_v8 : S8192x128.Idx → Elt F .bf16) k := by
  have hi := (idx_facts t).2.1
  unfold iblk0
  rw [View.read_apply]
  show V c main_v8 _ = V c main_v8 _
  congr 1
  funext a
  apply Fin.ext
  match a with
  | ⟨0, _⟩ => show win0_1.index t 0 * 512 + 1 * (x 0).val = (k 0).val; rw [hi.1, hk0]; omega
  | ⟨1, _⟩ => show win0_1.index t 1 * 128 + 1 * (x 1).val = (k 1).val; rw [hi.2, hk1]; omega

/-- The anchor label window's block at point `t` is rows `512 (t / 16 % 8) …` of the padded label matrix. -/
theorem iblk0_2_apply (c : Dev nD) (t : Fin cfg0.N) (x : S512x128.Idx) (k : S4096x128.Idx)
    (hk0 : (k 0).val = t.val / 16 % 8 * 512 + (x 0).val) (hk1 : (k 1).val = (x 1).val) :
    (iblk0 V c 2 t : Vec F S512x128 .bf16) x = (V c main_v5 : S4096x128.Idx → Elt F .bf16) k := by
  have hi := (idx_facts t).2.2.1
  unfold iblk0
  rw [View.read_apply]
  show V c main_v5 _ = V c main_v5 _
  congr 1
  funext a
  apply Fin.ext
  match a with
  | ⟨0, _⟩ => show win0_2.index t 0 * 512 + 1 * (x 0).val = (k 0).val; rw [hi.1, hk0]; omega
  | ⟨1, _⟩ => show win0_2.index t 1 * 128 + 1 * (x 1).val = (k 1).val; rw [hi.2, hk1]; omega

/-- The contrast label window's block at point `t` is rows `512 (t % 16 % 8) …` of the padded label matrix. -/
theorem iblk0_3_apply (c : Dev nD) (t : Fin cfg0.N) (x : S512x128.Idx) (k : S4096x128.Idx)
    (hk0 : (k 0).val = t.val % 16 % 8 * 512 + (x 0).val) (hk1 : (k 1).val = (x 1).val) :
    (iblk0 V c 3 t : Vec F S512x128 .bf16) x = (V c main_v5 : S4096x128.Idx → Elt F .bf16) k := by
  have hi := (idx_facts t).2.2.2.1
  unfold iblk0
  rw [View.read_apply]
  show V c main_v5 _ = V c main_v5 _
  congr 1
  funext a
  apply Fin.ext
  match a with
  | ⟨0, _⟩ => show win0_3.index t 0 * 512 + 1 * (x 0).val = (k 0).val; rw [hi.1, hk0]; omega
  | ⟨1, _⟩ => show win0_3.index t 1 * 128 + 1 * (x 1).val = (k 1).val; rw [hi.2, hk1]; omega

/-- The anchor label-count window's block at point `t` is rows `512 (t / 16 % 8) …` of the column of counts. -/
theorem iblk0_4_apply (c : Dev nD) (t : Fin cfg0.N) (x : S512x1.Idx) (k : S4096x1.Idx)
    (hk0 : (k 0).val = t.val / 16 % 8 * 512 + (x 0).val) (hk1 : (k 1).val = (x 1).val) :
    (iblk0 V c 4 t : Vec F S512x1 .f32) x = (V c main_v2 : S4096x1.Idx → Elt F .f32) k := by
  have hi := (idx_facts t).2.2.2.2.1
  unfold iblk0
  rw [View.read_apply]
  show V c main_v2 _ = V c main_v2 _
  congr 1
  funext a
  apply Fin.ext
  match a with
  | ⟨0, _⟩ => show win0_4.index t 0 * 512 + 1 * (x 0).val = (k 0).val; rw [hi.1, hk0]; omega
  | ⟨1, _⟩ => show win0_4.index t 1 * 1 + 1 * (x 1).val = (k 1).val; rw [hi.2, hk1]; omega

/-- The contrast label-count window's block at point `t` is columns `512 (t % 16 % 8) …` of the row of counts. -/
theorem iblk0_5_apply (c : Dev nD) (t : Fin cfg0.N) (x : S1x512.Idx) (k : S1x4096.Idx)
    (hk0 : (k 0).val = (x 0).val) (hk1 : (k 1).val = t.val % 16 % 8 * 512 + (x 1).val) :
    (iblk0 V c 5 t : Vec F S1x512 .f32) x = (V c main_v3 : S1x4096.Idx → Elt F .f32) k := by
  have hi := (idx_facts t).2.2.2.2.2.1
  unfold iblk0
  rw [View.read_apply]
  show V c main_v3 _ = V c main_v3 _
  congr 1
  funext a
  apply Fin.ext
  match a with
  | ⟨0, _⟩ => show win0_5.index t 0 * 1 + 1 * (x 0).val = (k 0).val; rw [hi.1, hk0]; omega
  | ⟨1, _⟩ => show win0_5.index t 1 * 512 + 1 * (x 1).val = (k 1).val; rw [hi.2, hk1]; omega

end Cert.KernelIdeal.Hand

end
-- ==== Proof.KI.Rows.lean ====
import proofs.«141123_j17076789969009_2_alg».proof.Proof.KI.Blocks
import proofs.«141123_j17076789969009_2_alg».proof.Proof.SpecLaws
import proofs.«141123_j17076789969009_2_alg».proof.Proof.SpecRows
import Idealize.ShloMosaic.Lib.ValueIdx

/-!
# The blocks of a grid point as real-valued rows

When the arrays the region is entered with hold real numbers — the feature matrix `X`, the zero-padded `0/1` label
rows and the label counts — the six input blocks of point `t` hold: the feature rows of the anchor tile `t / 16` and of
the contrast tile `t % 16`, and the padded labels and label counts of the samples behind those rows.
-/

noncomputable section

namespace Cert.KernelIdeal.Hand

open Cert.KernelIdeal Cert.KernelIdeal.Gen Cert.Spec
open Idealize.ShloMosaic Idealize.ShloMosaic.TcCoe Idealize.SL.Sem
open Idealize.ShloMosaic.ValueIdx

theorem N256 : cfg0.N = 256 := N_0

/-- The matrix row behind row `r` of the anchor tile of point `t`. -/
def arow (t : Fin cfg0.N) (r : Fin 512) : Fin 8192 :=
  ⟨t.val / 16 * 512 + r.val, by have := t.isLt; have := N256; have := r.isLt; omega⟩

/-- The contrast tile of point `t`. -/
def ctile (t : Fin cfg0.N) : Fin 16 := ⟨t.val % 16, Nat.mod_lt _ (by norm_num)⟩

theorem arow_val (t : Fin cfg0.N) (r : Fin 512) : (arow t r).val = t.val / 16 * 512 + r.val := rfl
theorem ctile_val (t : Fin cfg0.N) : (ctile t).val = t.val % 16 := rfl

theorem brow_arow_val (t : Fin cfg0.N) (r : Fin 512) : (brow (arow t r)).val = t.val / 16 % 8 * 512 + r.val := by
  rw [brow_val, arow_val]; have := r.isLt; omega

theorem brow_col_val (j : Fin 16) (c : Fin 512) : (brow (col j c)).val = j.val % 8 * 512 + c.val := by
  rw [brow_val, col_val]; have := c.isLt; omega

section Real

variable (V : (c : Dev nD) → (b : Ref sig .tc) → Buf (Elt Ideal) ((c : Thread nD τ).loc b))
variable (X : Fin 8192 → Fin 128 → ℝ) (lb : Fin 4096 → Fin 6 → ℝ)

/-- On core `c` the arrays the region is entered with hold the real data `X`, `lb`. -/
structure Holds (c : Dev nD) : Prop where
  feat : ∀ (n : Fin 8192) (k : Fin 128), (V c main_v8 : S8192x128.Idx → EReal) (ix2 n k) = ((X n k : ℝ) : EReal)
  labs : ∀ (b : Fin 4096) (k : Fin 128), (V c main_v5 : S4096x128.Idx → EReal) (ix2 b k) = ((pad (lb b) k : ℝ) : EReal)
  cntc : ∀ (b : Fin 4096), (V c main_v2 : S4096x1.Idx → EReal) (ix2 b 0) = ((card (lb b) : ℝ) : EReal)
  cntr : ∀ (b : Fin 4096), (V c main_v3 : S1x4096.Idx → EReal) (ix2 0 b) = ((card (lb b) : ℝ) : EReal)
  bin : ∀ b l, lb b l = 0 ∨ lb b l = 1

variable {V X lb} {c : Dev nD} (H : Holds V X lb c)
include H

theorem blk0_real (t : Fin cfg0.N) (r : Fin 512) (k : Fin 128) :
    (iblk0 V c 0 t : Vec Ideal S512x128 .bf16) (ix2 r k) = ((X (arow t r) k : ℝ) : EReal) :=
  (iblk0_0_apply V c t (ix2 r k) (ix2 (arow t r) k) rfl rfl).trans (H.feat _ _)

theorem blk1_real (t : Fin cfg0.N) (q : Fin 512) (k : Fin 128) :
    (iblk0 V c 1 t : Vec Ideal S512x128 .bf16) (ix2 q k) = ((X (col (ctile t) q) k : ℝ) : EReal) :=
  (iblk0_1_apply V c t (ix2 q k) (ix2 (col (ctile t) q) k) rfl rfl).trans (H.feat _ _)

theorem blk2_real (t : Fin cfg0.N) (r : Fin 512) (k : Fin 128) :
    (iblk0 V c 2 t : Vec Ideal S512x128 .bf16) (ix2 r k) = ((pad (lb (brow (arow t r))) k : ℝ) : EReal) :=
  (iblk0_2_apply V c t (ix2 r k) (ix2 (brow (arow t r)) k) (brow_arow_val t r) rfl).trans (H.labs _ _)

theorem blk3_real (t : Fin cfg0.N) (q : Fin 512) (k : Fin 128) :
    (iblk0 V c 3 t : Vec Ideal S512x128 .bf16) (ix2 q k) = ((pad (lb (brow (col (ctile t) q))) k : ℝ) : EReal) :=
  (iblk0_3_apply V c t (ix2 q k) (ix2 (brow (col (ctile t) q)) k) (brow_col_val _ q) rfl).trans (H.labs _ _)

theorem blk4_real (t : Fin cfg0.N) (r : Fin 512) :
    (iblk0 V c 4 t : Vec Ideal S512x1 .f32) (ix2 r 0) = ((card (lb (brow (arow t r))) : ℝ) : EReal) :=
  (iblk0_4_apply V c t (ix2 r 0) (ix2 (brow (arow t r)) 0) (brow_arow_val t r) rfl).trans (H.cntc _)

theorem blk5_real (t : Fin cfg0.N) (q : Fin 512) :
    (iblk0 V c 5 t : Vec Ideal S1x512 .f32) (ix2 0 q) = ((card (lb (brow (col (ctile t) q))) : ℝ) : EReal) :=
  (iblk0_5_apply V c t (ix2 0 q) (ix2 0 (brow (col (ctile t) q))) rfl (brow_col_val _ q)).trans (H.cntr _)

end Real

end Cert.KernelIdeal.Hand

end
-- ==== Proof.SpecOnline.lean ====
import proofs.«141123_j17076789969009_2_alg».proof.Proof.SpecLaws

/-!
# The tile-by-tile run reaches the whole-row numbers

Running through the tiles of a row with a running maximum and rescaled partial sums gives, after
the last tile, the row maximum, the shifted sum of exponentials and the three plain sums of the
row.  The invariant: after tiles 0 … J the running maximum is the largest logit seen so far, the
running sum of exponentials is the sum over the columns seen so far of exp (L - running maximum)
times the weight, and the other three numbers are the partial sums.  The rescaling step is
exp (x - m) * exp (m - m') = exp (x - m').
-/

noncomputable section

namespace Cert.Spec

open scoped BigOperators

section Partial

variable (L w q r : ℕ → Fin 512 → ℝ)

/-- Every entry of a tile is at most the largest entry of the tile. -/
theorem le_tmax (f : Fin 512 → ℝ) (c : Fin 512) : f c ≤ tmax f :=
  Finset.le_sup' f (Finset.mem_univ c)

/-- The largest entry of a tile is one of its entries. -/
theorem exists_eq_tmax (f : Fin 512 → ℝ) : ∃ c, f c = tmax f := by
  obtain ⟨c, _, hc⟩ := Finset.exists_mem_eq_sup' (Finset.univ_nonempty (α := Fin 512)) f
  exact ⟨c, hc.symm⟩

/-- The running maximum does not decrease. -/
theorem onM_mono {J J' : ℕ} (h : J ≤ J') : onM L J ≤ onM L J' := by
  induction h with
  | refl => exact le_rfl
  | step _ ih => exact le_trans ih (le_max_left _ _)

/-- The largest entry of tile J is at most the running maximum after tile J. -/
theorem tmax_le_onM (J : ℕ) : tmax (L J) ≤ onM L J := by
  cases J with
  | zero => exact le_rfl
  | succ J => exact le_max_right _ _

/-- Every logit of the tiles 0 … J is at most the running maximum after tile J. -/
theorem le_onM {j J : ℕ} (h : j ≤ J) (c : Fin 512) : L j c ≤ onM L J :=
  le_trans (le_tmax (L j) c) (le_trans (tmax_le_onM L j) (onM_mono L h))

/-- The running maximum after tile J is one of the logits of the tiles 0 … J. -/
theorem exists_eq_onM (J : ℕ) : ∃ j, j ≤ J ∧ ∃ c, L j c = onM L J := by
  induction J with
  | zero =>
    obtain ⟨c, hc⟩ := exists_eq_tmax (L 0)
    exact ⟨0, le_rfl, c, hc⟩
  | succ J ih =>
    rcases le_total (onM L J) (tmax (L (J + 1))) with h | h
    · obtain ⟨c, hc⟩ := exists_eq_tmax (L (J + 1))
      refine ⟨J + 1, le_rfl, c, ?_⟩
      rw [hc]
      exact (max_eq_right h).symm
    · obtain ⟨j, hj, c, hc⟩ := ih
      refine ⟨j, Nat.le_succ_of_le hj, c, ?_⟩
      rw [hc]
      exact (max_eq_left h).symm

/-- After tile J the running rescaled sum is the sum over the columns of tiles 0 … J of
exp (L - running maximum) times the weight. -/
theorem onL_eq (J : ℕ) :
    onL L w J = ∑ j ∈ Finset.range (J + 1), ∑ c, Real.exp (L j c - onM L J) * w j c := by
  induction J with
  | zero => rw [Finset.sum_range_one]; rfl
  | succ J ih =>
    rw [Finset.sum_range_succ _ (J + 1)]
    show onL L w J * Real.exp (onM L J - onM L (J + 1))
        + ∑ c, Real.exp (L (J + 1) c - onM L (J + 1)) * w (J + 1) c = _
    congr 1
    rw [ih, Finset.sum_mul]
    refine Finset.sum_congr rfl fun j _ => ?_
    rw [Finset.sum_mul]
    refine Finset.sum_congr rfl fun c _ => ?_
    rw [mul_right_comm, ← Real.exp_add]
    congr 2
    ring

/-- After tile J the running sum of q r L is the partial sum over the tiles 0 … J. -/
theorem onA_eq (J : ℕ) :
    onA L q r J = ∑ j ∈ Finset.range (J + 1), ∑ c, (q j c * r j c) * L j c := by
  induction J with
  | zero => rw [Finset.sum_range_one]; rfl
  | succ J ih => rw [Finset.sum_range_succ _ (J + 1), ← ih]; rfl

/-- After tile J the running sum of q r is the partial sum over the tiles 0 … J. -/
theorem onB_eq (J : ℕ) :
    onB q r J = ∑ j ∈ Finset.range (J + 1), ∑ c, q j c * r j c := by
  induction J with
  | zero => rw [Finset.sum_range_one]; rfl
  | succ J ih => rw [Finset.sum_range_succ _ (J + 1), ← ih]; rfl

/-- After tile J the running sum of q is the partial sum over the tiles 0 … J. -/
theorem onC_eq (J : ℕ) :
    onC q J = ∑ j ∈ Finset.range (J + 1), ∑ c, q j c := by
  induction J with
  | zero => rw [Finset.sum_range_one]; rfl
  | succ J ih => rw [Finset.sum_range_succ _ (J + 1), ← ih]; rfl

/-- With weights that are not negative the running sum of exponentials is not negative. -/
theorem onL_nonneg (hw : ∀ j c, 0 ≤ w j c) (J : ℕ) : 0 ≤ onL L w J := by
  rw [onL_eq]
  exact Finset.sum_nonneg fun j _ => Finset.sum_nonneg fun c _ =>
    mul_nonneg (Real.exp_pos _).le (hw j c)

/-- A running sum of numbers that are not negative is not negative. -/
theorem onC_nonneg (hq : ∀ j c, 0 ≤ q j c) (J : ℕ) : 0 ≤ onC q J := by
  rw [onC_eq]
  exact Finset.sum_nonneg fun j _ => Finset.sum_nonneg fun c _ => hq j c

end Partial

/-! ## After the last tile -/

/-- A sum over the 16 tiles of a tiled row function is the sum over the row. -/
theorem sum_range_tile {M : Type} [AddCommMonoid M] (F : ℕ → Fin 512 → M) (G : Fin 8192 → M)
    (h : ∀ (j : Fin 16) (c : Fin 512), F j.val c = G (col j c)) :
    ∑ j ∈ Finset.range 16, ∑ c, F j c = ∑ n : Fin 8192, G n := by
  rw [sum_col, Finset.sum_range]
  exact Finset.sum_congr rfl fun j _ => Finset.sum_congr rfl fun c _ => h j c

variable (Lr wr qr rr : Fin 8192 → ℝ)

/-- After the last tile the running maximum is the row maximum. -/
theorem onM_tile : onM (tile Lr) 15 = rowMax Lr := by
  symm
  apply rowMax_eq_of
  · intro n
    obtain ⟨j, c, rfl⟩ := exists_col n
    rw [← tile_fin Lr j c]
    exact le_onM (tile Lr) (Nat.le_of_lt_succ j.isLt) c
  · obtain ⟨j, hj, c, hc⟩ := exists_eq_onM (tile Lr) 15
    refine ⟨col ⟨j, Nat.lt_succ_of_le hj⟩ c, ?_⟩
    rw [← hc, tile_of_lt Lr (Nat.lt_succ_of_le hj)]

/-- After the last tile the running rescaled sum is the shifted sum of exponentials of the
row. -/
theorem onL_tile : onL (tile Lr) (tile wr) 15 = rowS Lr wr := by
  rw [onL_eq, onM_tile]
  exact sum_range_tile _ (fun n => Real.exp (Lr n - rowMax Lr) * wr n) fun j c => by
    simp only [tile_fin]

/-- After the last tile the running sum of q r L is that of the row. -/
theorem onA_tile : onA (tile Lr) (tile qr) (tile rr) 15 = rowA qr rr Lr := by
  rw [onA_eq]
  exact sum_range_tile _ (fun n => (qr n * rr n) * Lr n) fun j c => by
    simp only [tile_fin]

/-- After the last tile the running sum of q r is that of the row. -/
theorem onB_tile : onB (tile qr) (tile rr) 15 = rowB qr rr := by
  rw [onB_eq]
  exact sum_range_tile _ (fun n => qr n * rr n) fun j c => by
    simp only [tile_fin]

/-- After the last tile the running sum of q is that of the row. -/
theorem onC_tile : onC (tile qr) 15 = rowC qr := by
  rw [onC_eq]
  exact sum_range_tile _ qr fun j c => by
    simp only [tile_fin]

/-- The loss of a row in the textbook order is the loss computed from the five numbers the
tile-by-tile run holds after the last tile. -/
theorem lossRef_eq_online (eps : ℝ) :
    lossRef eps qr rr Lr wr
      = lossOf eps (onM (tile Lr) 15) (onL (tile Lr) (tile wr) 15)
          (onA (tile Lr) (tile qr) (tile rr) 15) (onB (tile qr) (tile rr) 15)
          (onC (tile qr) 15) := by
  rw [onM_tile, onL_tile, onA_tile, onB_tile, onC_tile, lossRef_eq]

end Cert.Spec

end
-- ==== Proof.KI.Invariant.lean ====
import proofs.«141123_j17076789969009_2_alg».proof.Proof.KI.Data
import proofs.«141123_j17076789969009_2_alg».proof.Proof.KI.Pieces
import proofs.«141123_j17076789969009_2_alg».proof.Proof.KI.Payloads2
import proofs.«141123_j17076789969009_2_alg».proof.Proof.KI.Rows
import proofs.«141123_j17076789969009_2_alg».proof.Proof.SpecOnline

/-!
# What the five accumulators hold after every grid point

Row `r` of anchor tile `t / 16` is matrix row `n = 512 (t / 16) + r`.  After the point `t` the accumulators hold, at
that row, the running maximum, the rescaled sum of exponentials and the three plain partial sums over the columns of
the contrast tiles `0 … t % 16` — the tile-by-tile recursion of the specification, by induction on the point: the first
tile of a row starts from the initial values, every later tile continues from what the tile before left.  At the last
tile of a row the output block holds the row's loss.
-/

noncomputable section

namespace Cert.KernelIdeal.Hand

open Cert.KernelIdeal Cert.KernelIdeal.Gen Cert.Spec Cert.KernelIdeal.Arith
open Idealize.ShloMosaic Idealize.ShloMosaic.TcCoe Idealize.SL.Sem
open Idealize.ShloMosaic.ValueIdx
open scoped BigOperators

/-! ## The tile data of a point -/

/-- Feature rows of the anchor tile, of the contrast tile; padded labels and label counts of the samples behind them. -/
def tA (X : Fin 8192 → Fin 128 → ℝ) (t : Fin cfg0.N) : Fin 512 → Fin 128 → ℝ := fun r k => X (arow t r) k
def tB (X : Fin 8192 → Fin 128 → ℝ) (t : Fin cfg0.N) : Fin 512 → Fin 128 → ℝ := fun q k => X (col (ctile t) q) k
def tLa (lb : Fin 4096 → Fin 6 → ℝ) (t : Fin cfg0.N) : Fin 512 → Fin 128 → ℝ := fun r k => pad (lb (brow (arow t r))) k
def tLb (lb : Fin 4096 → Fin 6 → ℝ) (t : Fin cfg0.N) : Fin 512 → Fin 128 → ℝ := fun q k => pad (lb (brow (col (ctile t) q))) k
def tsa (lb : Fin 4096 → Fin 6 → ℝ) (t : Fin cfg0.N) : Fin 512 → ℝ := fun r => card (lb (brow (arow t r)))
def tsb (lb : Fin 4096 → Fin 6 → ℝ) (t : Fin cfg0.N) : Fin 512 → ℝ := fun q => card (lb (brow (col (ctile t) q)))

theorem jlt (t : Fin cfg0.N) : t.val % 16 < 16 := Nat.mod_lt _ (by norm_num)

variable (X : Fin 8192 → Fin 128 → ℝ) (lb : Fin 4096 → Fin 6 → ℝ)

/-- The tile's logits, weights, ratios and positive-pair weights are the row's, at the tile's columns. -/
theorem tL_eq (t : Fin cfg0.N) (r : Fin 512) : tL (tA X t) (tB X t) r = tile (gL X (arow t r)) (t.val % 16) := by
  funext q; rw [tile_of_lt _ (jlt t)]; rfl

theorem tW_eq (t : Fin cfg0.N) (r : Fin 512) : tW (grid0.coords t) r = tile (gW (arow t r)) (t.val % 16) := by
  funext q; rw [tile_of_lt _ (jlt t)]
  unfold tW gW
  rw [(coords_facts t).1, (coords_facts t).2]
  rfl

theorem tR_eq (t : Fin cfg0.N) (r : Fin 512) :
    tR (tLa lb t) (tLb lb t) (tsa lb t) (tsb lb t) r = tile (gR lb (arow t r)) (t.val % 16) := by
  funext q; rw [tile_of_lt _ (jlt t)]
  unfold tR gR tLa tLb tsa tsb
  rw [inter_pad]
  rfl

theorem tQ_eq (t : Fin cfg0.N) (r : Fin 512) :
    tQ (grid0.coords t) (tLa lb t) (tLb lb t) (tsa lb t) (tsb lb t) r = tile (gQ lb (arow t r)) (t.val % 16) := by
  funext q
  show ind thrR (tR (tLa lb t) (tLb lb t) (tsa lb t) (tsb lb t) r q) * tW (grid0.coords t) r q = _
  rw [congrFun (tR_eq lb t r) q, congrFun (tW_eq t r) q, tile_of_lt _ (jlt t), tile_of_lt _ (jlt t), tile_of_lt _ (jlt t)]
  rfl

theorem tile_nonneg (f : Fin 8192 → ℝ) (hf : ∀ n, 0 ≤ f n) (j : ℕ) (q : Fin 512) : 0 ≤ tile f j q := by
  by_cases h : j < 16
  · rw [tile_of_lt _ h]; exact hf _
  · rw [tile_of_not_lt _ h]

theorem msk_nonneg (a b : ℕ) : 0 ≤ msk a b := by unfold msk; split <;> norm_num

theorem ind_nonneg (a b : ℝ) : 0 ≤ ind a b := by unfold ind; split <;> norm_num

theorem gW_nonneg (n n' : Fin 8192) : 0 ≤ gW n n' := msk_nonneg _ _

theorem gQ_nonneg (n n' : Fin 8192) : 0 ≤ gQ lb n n' := mul_nonneg (ind_nonneg _ _) (gW_nonneg _ _)

/-- The five accumulators' values at row `r` after point `t`, as the specification's running numbers. -/
def Acc (t : Fin cfg0.N) (r : Fin 512) (y0 y1 y2 y3 y4 : Vec Ideal S512x1 .f32) : Prop :=
  y0 (ix2 r 0) = ((onM (tile (gL X (arow t r))) (t.val % 16) : ℝ) : EReal)
  ∧ y1 (ix2 r 0) = ((onL (tile (gL X (arow t r))) (tile (gW (arow t r))) (t.val % 16) : ℝ) : EReal)
  ∧ y2 (ix2 r 0) = ((onA (tile (gL X (arow t r))) (tile (gQ lb (arow t r))) (tile (gR lb (arow t r))) (t.val % 16) : ℝ) : EReal)
  ∧ y3 (ix2 r 0) = ((onB (tile (gQ lb (arow t r))) (tile (gR lb (arow t r))) (t.val % 16) : ℝ) : EReal)
  ∧ y4 (ix2 r 0) = ((onC (tile (gQ lb (arow t r))) (t.val % 16) : ℝ) : EReal)

section Inv

variable {V : (c : Dev nD) → (b : Ref sig .tc) → Buf (Elt Ideal) ((c : Thread nD τ).loc b)}
variable {X lb} {c : Dev nD} (H : Holds V X lb c)
include H

/-- The Jaccard denominators of a row of the tile are not zero. -/
theorem hden (t : Fin cfg0.N) (r : Fin 512) :
    ∀ q, (tsa lb t r + tsb lb t q - inter (tLa lb t r) (tLb lb t q)) + epsR ≠ 0 := by
  intro q
  unfold tsa tsb tLa tLb
  rw [inter_pad]
  exact union_add_eps_ne_zero epsR_pos _ _ (H.bin _) (H.bin _)

/-- The first tile of a row: from the initial values. -/
theorem first_vals (t : Fin cfg0.N) (h0 : t.val % 16 = 0) (r : Fin 512) :
    Acc X lb t r
      (k0_pay24 (k0_pay11 (iblk0 V c 0 t) (iblk0 V c 1 t)) (k0_pay6 (F := Ideal)))
      (k0_pay1 (k0_pay20 (k0_pay11 (iblk0 V c 0 t) (iblk0 V c 1 t)) (k0_pay12 (grid0.coords t)) (k0_pay6 (F := Ideal)) (k0_pay7 (F := Ideal))))
      (k0_pay2 (k0_pay21 (k0_pay11 (iblk0 V c 0 t) (iblk0 V c 1 t)) (k0_pay12 (grid0.coords t)) (k0_pay13 (iblk0 V c 2 t) (iblk0 V c 3 t)) (k0_pay14 (iblk0 V c 2 t) (iblk0 V c 3 t) (iblk0 V c 4 t) (iblk0 V c 5 t)) (k0_pay15 (F := Ideal)) (k0_pay8 (F := Ideal))))
      (k0_pay3 (k0_pay22 (k0_pay12 (grid0.coords t)) (k0_pay13 (iblk0 V c 2 t) (iblk0 V c 3 t)) (k0_pay14 (iblk0 V c 2 t) (iblk0 V c 3 t) (iblk0 V c 4 t) (iblk0 V c 5 t)) (k0_pay15 (F := Ideal)) (k0_pay9 (F := Ideal))))
      (k0_pay4 (k0_pay23 (k0_pay12 (grid0.coords t)) (k0_pay13 (iblk0 V c 2 t) (iblk0 V c 3 t)) (k0_pay14 (iblk0 V c 2 t) (iblk0 V c 3 t) (iblk0 V c 4 t) (iblk0 V c 5 t)) (k0_pay15 (F := Ideal)) (k0_pay10 (F := Ideal)))) := by
  have eM : onM (tile (gL X (arow t r))) (t.val % 16) = tmax (tile (gL X (arow t r)) (t.val % 16)) := by rw [h0]; rfl
  have eL : onL (tile (gL X (arow t r))) (tile (gW (arow t r))) (t.val % 16)
      = ∑ q, Real.exp (tile (gL X (arow t r)) (t.val % 16) q - tmax (tile (gL X (arow t r)) (t.val % 16))) * tile (gW (arow t r)) (t.val % 16) q := by
    rw [h0]; rfl
  have eA : onA (tile (gL X (arow t r))) (tile (gQ lb (arow t r))) (tile (gR lb (arow t r))) (t.val % 16)
      = ∑ q, (tile (gQ lb (arow t r)) (t.val % 16) q * tile (gR lb (arow t r)) (t.val % 16) q) * tile (gL X (arow t r)) (t.val % 16) q := by
    rw [h0]; rfl
  have eB : onB (tile (gQ lb (arow t r))) (tile (gR lb (arow t r))) (t.val % 16)
      = ∑ q, tile (gQ lb (arow t r)) (t.val % 16) q * tile (gR lb (arow t r)) (t.val % 16) q := by
    rw [h0]; rfl
  have eC : onC (tile (gQ lb (arow t r))) (t.val % 16) = ∑ q, tile (gQ lb (arow t r)) (t.val % 16) q := by
    rw [h0]; rfl
  refine ⟨?_, ?_, ?_, ?_, ?_⟩
  · rw [eM, ← tL_eq X t r]
    exact stepM0 (iblk0 V c 0 t) (iblk0 V c 1 t) (tA X t) (tB X t) (blk0_real H t) (blk1_real H t) r
  · rw [eL, ← tL_eq X t r, ← tW_eq t r]
    exact stepL0 (grid0.coords t) (iblk0 V c 0 t) (iblk0 V c 1 t) (tA X t) (tB X t) (blk0_real H t) (blk1_real H t) r
  · rw [eA, ← tL_eq X t r, ← tQ_eq lb t r, ← tR_eq lb t r]
    exact stepA0 (grid0.coords t) (iblk0 V c 0 t) (iblk0 V c 1 t) (iblk0 V c 2 t) (iblk0 V c 3 t) (iblk0 V c 4 t) (iblk0 V c 5 t)
      (tA X t) (tB X t) (tLa lb t) (tLb lb t) (tsa lb t) (tsb lb t) (blk0_real H t) (blk1_real H t) (blk2_real H t) (blk3_real H t)
      (blk4_real H t) (blk5_real H t) r (hden H t r)
  · rw [eB, ← tQ_eq lb t r, ← tR_eq lb t r]
    exact stepB0 (grid0.coords t) (iblk0 V c 2 t) (iblk0 V c 3 t) (iblk0 V c 4 t) (iblk0 V c 5 t)
      (tLa lb t) (tLb lb t) (tsa lb t) (tsb lb t) (blk2_real H t) (blk3_real H t)
      (blk4_real H t) (blk5_real H t) r (hden H t r)
  · rw [eC, ← tQ_eq lb t r]
    exact stepC0 (grid0.coords t) (iblk0 V c 2 t) (iblk0 V c 3 t) (iblk0 V c 4 t) (iblk0 V c 5 t)
      (tLa lb t) (tLb lb t) (tsa lb t) (tsb lb t) (blk2_real H t) (blk3_real H t)
      (blk4_real H t) (blk5_real H t) r (hden H t r)

/-- A later tile of a row: from what the tile before left. -/
theorem next_vals (t : Fin cfg0.N) (h0 : ¬ t.val % 16 = 0) (r : Fin 512) (hp : t.val - 1 < cfg0.N)
    (xs0 xs1 xs2 xs3 xs4 : Vec Ideal S512x1 .f32) (IH : Acc X lb ⟨t.val - 1, hp⟩ r xs0 xs1 xs2 xs3 xs4) :
    Acc X lb t r
      (k0_pay24 (k0_pay11 (iblk0 V c 0 t) (iblk0 V c 1 t)) xs0)
      (k0_pay1 (k0_pay20 (k0_pay11 (iblk0 V c 0 t) (iblk0 V c 1 t)) (k0_pay12 (grid0.coords t)) xs0 xs1))
      (k0_pay2 (k0_pay21 (k0_pay11 (iblk0 V c 0 t) (iblk0 V c 1 t)) (k0_pay12 (grid0.coords t)) (k0_pay13 (iblk0 V c 2 t) (iblk0 V c 3 t)) (k0_pay14 (iblk0 V c 2 t) (iblk0 V c 3 t) (iblk0 V c 4 t) (iblk0 V c 5 t)) (k0_pay15 (F := Ideal)) xs2))
      (k0_pay3 (k0_pay22 (k0_pay12 (grid0.coords t)) (k0_pay13 (iblk0 V c 2 t) (iblk0 V c 3 t)) (k0_pay14 (iblk0 V c 2 t) (iblk0 V c 3 t) (iblk0 V c 4 t) (iblk0 V c 5 t)) (k0_pay15 (F := Ideal)) xs3))
      (k0_pay4 (k0_pay23 (k0_pay12 (grid0.coords t)) (k0_pay13 (iblk0 V c 2 t) (iblk0 V c 3 t)) (k0_pay14 (iblk0 V c 2 t) (iblk0 V c 3 t) (iblk0 V c 4 t) (iblk0 V c 5 t)) (k0_pay15 (F := Ideal)) xs4)) := by
  have hrow : arow (⟨t.val - 1, hp⟩ : Fin cfg0.N) r = arow t r := by
    apply Fin.ext; rw [arow_val, arow_val]; show (t.val - 1) / 16 * 512 + r.val = _; omega
  obtain ⟨J, hJ⟩ : ∃ J, t.val % 16 = J + 1 := ⟨t.val % 16 - 1, by omega⟩
  have hJ' : (t.val - 1) % 16 = J := by omega
  obtain ⟨i0, i1, i2, i3, i4⟩ := IH
  rw [hrow] at i0 i1 i2 i3 i4
  rw [show ((⟨t.val - 1, hp⟩ : Fin cfg0.N) : ℕ) % 16 = J from hJ'] at i0 i1 i2 i3 i4
  have eM : onM (tile (gL X (arow t r))) (t.val % 16)
      = max (onM (tile (gL X (arow t r))) J) (tmax (tile (gL X (arow t r)) (t.val % 16))) := by rw [hJ]; rfl
  have eL : onL (tile (gL X (arow t r))) (tile (gW (arow t r))) (t.val % 16)
      = onL (tile (gL X (arow t r))) (tile (gW (arow t r))) J
          * Real.exp (onM (tile (gL X (arow t r))) J - max (onM (tile (gL X (arow t r))) J) (tmax (tile (gL X (arow t r)) (t.val % 16))))
        + ∑ q, Real.exp (tile (gL X (arow t r)) (t.val % 16) q - max (onM (tile (gL X (arow t r))) J) (tmax (tile (gL X (arow t r)) (t.val % 16)))) * tile (gW (arow t r)) (t.val % 16) q := by
    rw [hJ]; rfl
  have eA : onA (tile (gL X (arow t r))) (tile (gQ lb (arow t r))) (tile (gR lb (arow t r))) (t.val % 16)
      = onA (tile (gL X (arow t r))) (tile (gQ lb (arow t r))) (tile (gR lb (arow t r))) J
        + ∑ q, (tile (gQ lb (arow t r)) (t.val % 16) q * tile (gR lb (arow t r)) (t.val % 16) q) * tile (gL X (arow t r)) (t.val % 16) q := by
    rw [hJ]; rfl
  have eB : onB (tile (gQ lb (arow t r))) (tile (gR lb (arow t r))) (t.val % 16)
      = onB (tile (gQ lb (arow t r))) (tile (gR lb (arow t r))) J
        + ∑ q, tile (gQ lb (arow t r)) (t.val % 16) q * tile (gR lb (arow t r)) (t.val % 16) q := by
    rw [hJ]; rfl
  have eC : onC (tile (gQ lb (arow t r))) (t.val % 16)
      = onC (tile (gQ lb (arow t r))) J + ∑ q, tile (gQ lb (arow t r)) (t.val % 16) q := by
    rw [hJ]; rfl
  refine ⟨?_, ?_, ?_, ?_, ?_⟩
  · rw [eM, ← tL_eq X t r]
    exact stepM (iblk0 V c 0 t) (iblk0 V c 1 t) (tA X t) (tB X t) (blk0_real H t) (blk1_real H t) r xs0 _ i0
  · rw [eL, ← tL_eq X t r, ← tW_eq t r]
    exact stepL (grid0.coords t) (iblk0 V c 0 t) (iblk0 V c 1 t) (tA X t) (tB X t) (blk0_real H t) (blk1_real H t) r xs0 xs1 _ _ i0 i1
  · rw [eA, ← tL_eq X t r, ← tQ_eq lb t r, ← tR_eq lb t r]
    exact stepA (grid0.coords t) (iblk0 V c 0 t) (iblk0 V c 1 t) (iblk0 V c 2 t) (iblk0 V c 3 t) (iblk0 V c 4 t) (iblk0 V c 5 t)
      (tA X t) (tB X t) (tLa lb t) (tLb lb t) (tsa lb t) (tsb lb t) (blk0_real H t) (blk1_real H t) (blk2_real H t) (blk3_real H t)
      (blk4_real H t) (blk5_real H t) r (hden H t r) xs2 _ i2
  · rw [eB, ← tQ_eq lb t r, ← tR_eq lb t r]
    exact stepB (grid0.coords t) (iblk0 V c 2 t) (iblk0 V c 3 t) (iblk0 V c 4 t) (iblk0 V c 5 t)
      (tLa lb t) (tLb lb t) (tsa lb t) (tsb lb t) (blk2_real H t) (blk3_real H t)
      (blk4_real H t) (blk5_real H t) r (hden H t r) xs3 _ i3
  · rw [eC, ← tQ_eq lb t r]
    exact stepC (grid0.coords t) (iblk0 V c 2 t) (iblk0 V c 3 t) (iblk0 V c 4 t) (iblk0 V c 5 t)
      (tLa lb t) (tLb lb t) (tsa lb t) (tsb lb t) (blk2_real H t) (blk3_real H t)
      (blk4_real H t) (blk5_real H t) r (hden H t r) xs4 _ i4

/-- THE INVARIANT: after every point the five accumulators hold the running numbers of their rows. -/
theorem inv : ∀ (n : ℕ) (hn : n < cfg0.N) (r : Fin 512),
    Acc X lb ⟨n, hn⟩ r (outsAt0 V c n hn).2.1 (outsAt0 V c n hn).2.2.1 (outsAt0 V c n hn).2.2.2.1
      (outsAt0 V c n hn).2.2.2.2.1 (outsAt0 V c n hn).2.2.2.2.2 := by
  intro n
  induction n with
  | zero =>
    intro hn r
    have h := first_vals H ⟨0, hn⟩ (Nat.zero_mod _) r
    rw [outsAt0_A V c ⟨0, hn⟩ (Nat.zero_mod _) (by show ¬ 0 % 16 = 15; omega)]
    dsimp only
    rw [sout_A_0, sout_A_1, sout_A_2, sout_A_3, sout_A_4]
    exact h
  | succ n ih =>
    intro hn r
    have hp : n + 1 - 1 < cfg0.N := by omega
    by_cases h0 : (n + 1) % 16 = 0
    · have h := first_vals H ⟨n + 1, hn⟩ h0 r
      rw [outsAt0_A V c ⟨n + 1, hn⟩ h0 (by show ¬ (n + 1) % 16 = 15; omega)]
      dsimp only
      rw [sout_A_0, sout_A_1, sout_A_2, sout_A_3, sout_A_4]
      exact h
    · have IH := ih (by omega) r
      by_cases h1 : (n + 1) % 16 = 15
      · rw [outsAt0_C V c ⟨n + 1, hn⟩ h0 h1]
        dsimp only
        rw [sout_C_0, sout_C_1, sout_C_2, sout_C_3, sout_C_4]
        exact next_vals H ⟨n + 1, hn⟩ h0 r hp _ _ _ _ _ IH
      · rw [outsAt0_B V c ⟨n + 1, hn⟩ h0 h1]
        dsimp only
        rw [sout_B_0, sout_B_1, sout_B_2, sout_B_3, sout_B_4]
        exact next_vals H ⟨n + 1, hn⟩ h0 r hp _ _ _ _ _ IH

/-- At the last tile of a row the output block holds the row's loss. -/
theorem out_row (t : Fin cfg0.N) (h1 : t.val % 16 = 15) (r : Fin 512) :
    (outsAt0 V c t.val t.isLt).1 (ix2 0 r) = ((lossRow X lb (arow t r) : ℝ) : EReal) := by
  have h0 : ¬ t.val % 16 = 0 := by omega
  have hp : t.val - 1 < cfg0.N := by have := t.isLt; omega
  have IH := inv H (t.val - 1) hp r
  have hN := next_vals H t h0 r hp _ _ _ _ _ IH
  obtain ⟨n0, n1, n2, n3, n4⟩ := hN
  rw [outsAt0_C V c t h0 h1]
  dsimp only
  rw [out_C_6]
  rw [pay5_apply _ _ _ _ _ r _ _ _ _ _ n1 n2 n3 n0 n4
    (onL_nonneg _ _ (fun j q => tile_nonneg _ (gW_nonneg _) j q) _)
    (ne_of_gt (add_pos_of_nonneg_of_pos (onC_nonneg _ (fun j q => tile_nonneg _ (gQ_nonneg lb _) j q) _) epsR_pos))]
  rw [h1]
  unfold lossRow
  rw [lossRef_eq_online]

end Inv

end Cert.KernelIdeal.Hand

end
-- ==== Proof.KI.Final.lean ====
import proofs.«141123_j17076789969009_2_alg».proof.Proof.KI.Invariant
import Idealize.ShloMosaic.Lib.Pipeline.Value

/-!
# The row of losses after the region

The output window's block is written back at the last tile of each row of tiles, so the `16` write-backs tile the
`[1, 8192]` result: after the region it holds, at column `n`, the loss of row `n`.
-/

noncomputable section

namespace Cert.KernelIdeal.Hand

open Cert.KernelIdeal Cert.KernelIdeal.Gen Cert.Spec
open Idealize.ShloMosaic Idealize.ShloMosaic.TcCoe Idealize.SL.Sem
open Idealize.ShloMosaic.ValueIdx
open Idealize.ShloMosaic.Pipeline (Dat)

/-- The row of losses, as contents of the result array. -/
def Grow (X : Fin 8192 → Fin 128 → ℝ) (lb : Fin 4096 → Fin 6 → ℝ) (c : Dev nD) : Buf (Elt Ideal) ((c : Thread nD τ).loc main_v9) :=
  fun (i : S1x8192.Idx) => ((lossRow X lb ⟨(i 1).val, idx2_lt1 i⟩ : ℝ) : EReal)

theorem Grow_apply (X : Fin 8192 → Fin 128 → ℝ) (lb : Fin 4096 → Fin 6 → ℝ) (c : Dev nD) (n : Fin 8192) :
    (Grow X lb c : S1x8192.Idx → EReal) (ix2 0 n) = ((lossRow X lb n : ℝ) : EReal) := rfl

/-- An index of the result is in point `t`'s block iff each coordinate is in the block's range on its axis. -/
theorem mem_blk6 (t : Fin cfg0.N) (i : S1x8192.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v9).slice (win0_6.rect t)).set ↔ _
  rw [View.set_slice_whole, Rect.mem_set_unit]
  exact Iff.rfl

section Fin

variable {V : (c : Dev nD) → (b : Ref sig .tc) → Buf (Elt Ideal) ((c : Thread nD τ).loc b)}
variable {X : Fin 8192 → Fin 128 → ℝ} {lb : Fin 4096 → Fin 6 → ℝ} {c : Dev nD} (H : Holds V X lb c)
include H

/-- What the last tile of a row of tiles writes back is its block of the row of losses. -/
theorem flushed6_eq (t : Fin cfg0.N) (hf : (cfg0.win 6).flush t = true) :
    (dat0 V c).flushed 6 t = ((cfg0.win 6).blk t).view.read (Elt Ideal) (Grow X lb c) := by
  have h1 : t.val % 16 = 15 := (flush0_6 t).mp hf
  show (cfg0.win 6).cut (grid0.coords t) ((dat0 V c).after 6 t) = _
  rw [after0_6]
  funext j
  rw [View.read_apply]
  show (outsAt0 V c t.val t.isLt).1 (win0_6.xinj (grid0.coords t) j) = Grow X lb c ((win0_6.blk t).view.emb j)
  have hy : win0_6.xinj (grid0.coords t) j = ix2 (0 : Fin 1) (⟨(j 1).val, Nat.lt_of_lt_of_le (j 1).isLt (win0_6.xsize_le (grid0.coords t) 1)⟩ : Fin 512) := by
    funext a
    match a with
    | ⟨0, _⟩ => exact Subsingleton.elim (α := Fin 1) _ _
    | ⟨1, _⟩ => rfl
  rw [hy, out_row H t h1 _]
  obtain ⟨i, hi, hi1⟩ : ∃ i : S1x8192.Idx, (win0_6.blk t).view.emb j = i ∧ (i 1).val = win0_6.index t 1 * 512 + 1 * (j 1).val :=
    ⟨_, rfl, rfl⟩
  rw [hi]
  show ((lossRow X lb (arow t _) : ℝ) : EReal) = ((lossRow X lb ⟨(i 1).val, idx2_lt1 i⟩ : ℝ) : EReal)
  have e : arow t (⟨(j 1).val, Nat.lt_of_lt_of_le (j 1).isLt (win0_6.xsize_le (grid0.coords t) 1)⟩ : Fin 512) = ⟨(i 1).val, idx2_lt1 i⟩ := by
    apply Fin.ext
    show t.val / 16 * 512 + (j 1).val = (i 1).val
    rw [hi1, (idx_facts t).2.2.2.2.2.2.2]; omega
  rw [e]

/-- So the result array ends holding the row of losses. -/
theorem final6 : (dat0 V c).arrAt 6 cfg0.N = Grow X lb c :=
  (dat0 V c).arrAt_eq_of_cover 6 (Grow X lb c) (flushed6_eq H) fun i => by
    have hi1 : (i 1).val < 8192 := idx2_lt1 i
    have hi0 : (i 0).val < 1 := idx2_lt0 i
    refine ⟨⟨(i 1).val / 512 * 16 + 15, by rw [N256]; omega⟩, (flush0_6 _).mpr (by show ((i 1).val / 512 * 16 + 15) % 16 = 15; omega), ?_⟩
    rw [mem_blk6]
    intro a
    match a with
    | ⟨0, _⟩ =>
      show win0_6.index _ 0 * 1 ≤ (i 0).val ∧ (i 0).val < win0_6.index _ 0 * 1 + 1
      rw [(idx_facts _).2.2.2.2.2.2.1]; omega
    | ⟨1, _⟩ =>
      show win0_6.index _ 1 * 512 ≤ (i 1).val ∧ (i 1).val < win0_6.index _ 1 * 512 + 512
      rw [(idx_facts _).2.2.2.2.2.2.2]
      show ((i 1).val / 512 * 16 + 15) / 16 * 512 ≤ (i 1).val ∧ (i 1).val < ((i 1).val / 512 * 16 + 15) / 16 * 512 + 512
      omega

end Fin

end Cert.KernelIdeal.Hand

end
-- ==== Proof.KI.Run.lean ====
import proofs.«141123_j17076789969009_2_alg».proof.Proof.Gen.KernelIdeal.Launch
import proofs.«141123_j17076789969009_2_alg».proof.Proof.Gen.KernelIdeal.Skeleton
import proofs.«141123_j17076789969009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main through its one kernel region, over abstract proof data

@main is three stretches of host operations, one kernel region (a 16×16 grid pipeline of seven windows), and a last
stretch. The buffer contents at the five boundaries are a fold from the launch memory: a stretch's operations applied
in order, the region replacing the output array by what its write-backs leave.

Two pairs of the region's windows read ONE array each (windows 0 and 1 the anchor/contrast rows, windows 2 and 3 the
label rows). On entry the full share of such an array is split into its two halves, one per window; on exit the
halves — both still at the entry contents, an input array never being written — are joined back. The other arrays are
held whole.

Everything here is generic in the float type and takes the pipeline's proof data with its properties as hypotheses.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- How the two halves of a shared array are dealt: windows 0 and 2 read through the left half of their array's
    share, windows 1 and 3 through the right half; the other windows hold their arrays whole. -/
abbrev qSplit : Fin 7 → PosShare TreeShare := fun w => match w with
  | ⟨0, _⟩ => fullShare.left | ⟨1, _⟩ => fullShare.right | ⟨2, _⟩ => fullShare.left | ⟨3, _⟩ => fullShare.right
  | ⟨4, _⟩ => fullShare | ⟨5, _⟩ => fullShare | ⟨6, _⟩ => fullShare

variable (dat0 : (V : (c : Dev nD) → (b : Ref sig .tc) → Buf (Elt F) ((c : Thread nD τ).loc b)) → (c : Dev nD) → Dat τ (Elt F) Unit ℕ (UR sig nD τ) ℕ cfg0 c)
  (hA : ∀ V c w, (dat0 V c).A w = V c (Pipeline.arrRef spec0 w))
  (hq : ∀ V c, (dat0 V c).q = fun w => match w with | ⟨0,_⟩ => fullShare.left | ⟨1,_⟩ => fullShare.right | ⟨2,_⟩ => fullShare.left | ⟨3,_⟩ => fullShare.right | ⟨4,_⟩ => fullShare | ⟨5,_⟩ => fullShare | ⟨6,_⟩ => fullShare)
  (howed : ∀ V c t, (dat0 V c).owed t = 0) (hrec : ∀ V c t, (dat0 V c).recorded t = Set.univ)
  (hbody : ∀ V c, BodyObligation (dat0 V c) (defs₀ (F := F)) Variants.none () Set.univ)
  (hin : ∀ V c, Pipeline.ΦA spec0 c ⊢ (dat0 V c).Φ 0) (hout : ∀ V c, (dat0 V c).Φ (Fin.last cfg0.N) ⊢ Pipeline.ΦA spec0 c)

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
/-- After the called function's two operations. -/
abbrev W2 : Dev nD → Valuation τ sig (Elt F) := fun c => StableHlo.after hostOps0_1 (W1 m ρ c)
/-- After the third stretch: the contents the region is entered from. -/
abbrev W3 : Dev nD → Valuation τ sig (Elt F) := fun c => StableHlo.after hostOps0_2 (W2 m ρ c)
/-- The same read at the TensorCore's references (what the proof data take). -/
abbrev V3 : (c : Dev nD) → (b : Ref sig .tc) → Buf (Elt F) ((c : Thread nD τ).loc b) := fun c b => W3 m ρ c b
/-- At the region's exit: the output array at what the write-backs leave, every other buffer as entered
    (an input array is never written). -/
def W4 (c : Dev nD) : Valuation τ sig (Elt F) :=
  Function.update (W3 m ρ c) (Proc.devRef .tc main_v9) ((dat0 (V3 m ρ) c).arrAt 6 cfg0.N)
theorem W4_main_v9 (c : Dev nD) :
    W4 dat0 m ρ c (Proc.devRef .tc main_v9) = (dat0 (V3 m ρ) c).arrAt 6 cfg0.N := by
  unfold W4; exact Function.update_self ..
theorem W4_of_ne (c : Dev nD) (b : Ref sig .tc) (hb : b ≠ main_v9) :
    W4 dat0 m ρ c (Proc.devRef .tc b) = W3 m ρ c (Proc.devRef .tc b) := by
  unfold W4; exact Function.update_of_ne (StableHlo.devRef_ne_of_ne hb) ..
/-- The same read at the TensorCore's references (the region's exit contents). -/
abbrev V4 : (c : Dev nD) → (b : Ref sig .tc) → Buf (Elt F) ((c : Thread nD τ).loc b) := fun c b => W4 dat0 m ρ c b
/-- After the last stretch: the contents at the return. -/
abbrev W5 : Dev nD → Valuation τ sig (Elt F) := fun c => StableHlo.after hostOps1 (W4 dat0 m ρ c)

/-- A buffer that none of a stretch's operations writes keeps its contents through the stretch. -/
local macro "not_written" : tactic => `(tactic| (
  refine StableHlo.after_of_forall_not_mem _ _ (List.forall_iff_forall_mem.mp ?_)
  simp only [hostOps0, hostOps0_1, hostOps0_2, hostOps1, List.Forall, StableHlo.nullary_writes, StableHlo.unary_writes,
    StableHlo.binary_writes, StableHlo.reshape_writes, Finset.mem_singleton]
  repeat' apply And.intro
  all_goals exact StableHlo.devRef_ne_of_ne (by decide)))

/-! ### The arguments end as launched: no host operation writes one, and the region's arrays are others -/

theorem W5_main_arg0 (c : Dev nD) : W5 dat0 m ρ c (Proc.devRef .tc main_arg0) = m ((c : Thread nD τ).loc main_arg0) :=
  calc W5 dat0 m ρ c (Proc.devRef .tc main_arg0)
    _ = W4 dat0 m ρ c (Proc.devRef .tc main_arg0) := by not_written
    _ = W3 m ρ c (Proc.devRef .tc main_arg0) := W4_of_ne dat0 m ρ c main_arg0 (by decide)
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl
theorem W5_main_arg1 (c : Dev nD) : W5 dat0 m ρ c (Proc.devRef .tc main_arg1) = m ((c : Thread nD τ).loc main_arg1) :=
  calc W5 dat0 m ρ c (Proc.devRef .tc main_arg1)
    _ = W4 dat0 m ρ c (Proc.devRef .tc main_arg1) := by not_written
    _ = W3 m ρ c (Proc.devRef .tc main_arg1) := W4_of_ne dat0 m ρ c main_arg1 (by decide)
    _ = W2 m ρ c (Proc.devRef .tc main_arg1) := by not_written
    _ = W1 m ρ c (Proc.devRef .tc main_arg1) := by not_written
    _ = W0 m ρ c (Proc.devRef .tc main_arg1) := by not_written
    _ = m ((c : Thread nD τ).loc main_arg1) := rfl

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tₙ (c : Dev nD) : sProp 𝕄 := iprop(StableHlo.held (c : Thread nD τ) (Pipeline.ucRefs τ sig) (W5 dat0 m ρ c) ∗ ∃ r, prngReg c r)

/-- The core's `owes` as a pipeline point's, for proof data that owe nothing and record every pair; and back. -/
theorem owesAt_intro {c : Dev nD} (dat : Dat τ (Elt F) Unit ℕ (UR sig nD τ) ℕ cfg0 c) (t : Fin (cfg0.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {c : Dev nD} (dat : Dat τ (Elt F) Unit ℕ (UR sig nD τ) ℕ cfg0 c) (t : Fin (cfg0.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-! ## The shared arrays: the five buffers behind the seven windows, and how their shares are dealt -/

/-- A core's unscoped buffers are the buffers behind the windows' arrays and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ cfgs 0 winFacts₀0.arr_unscoped c V

/-- The five distinct buffers behind the seven windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v8) ↦{fullShare} V main_v8) ∗ (((c : Thread nD τ).loc main_v5) ↦{fullShare} V main_v5)
          ∗ (((c : Thread nD τ).loc main_v2) ↦{fullShare} V main_v2) ∗ (((c : Thread nD τ).loc main_v3) ↦{fullShare} V main_v3)
          ∗ (((c : Thread nD τ).loc main_v9) ↦{fullShare} V main_v9)) := by
  unfold Pipeline.arrBufs
  exact bigSep_eq_bigSepL_of_eq [main_v8, main_v5, main_v2, main_v3, main_v9] (by decide) (by decide) _

/-- The seven windows' arrays one by one, each at its share: the two windows on one array hold its two halves. -/
theorem arrays0_eq {c : Dev nD} (dat : Dat τ (Elt F) Unit ℕ (UR sig nD τ) ℕ cfg0 c) (hq : dat.q = qSplit)
    (Fa : (w : Fin cfg0.W) → Buf (Elt F) ((cfg0.win w).arr.view.loc (c : Thread nD τ))) :
    (dat.arrays Fa : sProp 𝕄) = iprop(
      (((c : Thread nD τ).loc main_v8) ↦{fullShare.left} Fa 0) ∗ (((c : Thread nD τ).loc main_v8) ↦{fullShare.right} Fa 1)
      ∗ (((c : Thread nD τ).loc main_v5) ↦{fullShare.left} Fa 2) ∗ (((c : Thread nD τ).loc main_v5) ↦{fullShare.right} Fa 3)
      ∗ (((c : Thread nD τ).loc main_v2) ↦{fullShare} Fa 4) ∗ (((c : Thread nD τ).loc main_v3) ↦{fullShare} Fa 5)
      ∗ (((c : Thread nD τ).loc main_v9) ↦{fullShare} Fa 6)) := by
  have hs : ∀ w : Fin 7, dat.share w = qSplit w := fun w => by
    unfold Dat.share; rw [hq]; fin_cases w <;> rfl
  have h : ∀ w : Fin 7, ((cfg0.win w).arr.view.loc (c : Thread nD τ) ↦[(cfg0.win w).arr.view.set]{dat.share w} Fa w : sProp 𝕄)
      = (((c : Thread nD τ).loc (Pipeline.arrRef spec0 w)) ↦{qSplit w} Fa w) := fun w => by
    rw [(arr_whole0 w).set_eq_univ, hs w]
  unfold Dat.arrays
  rw [bigSep_W0, h 0, h 1, h 2, h 3, h 4, h 5, h 6]

/-- The two halves of a buffer's share, at contents both equal to `g`, join to the full share at `g`. -/
theorem pt_join {ℓ : Loc nD τ sig} (f f' g : Buf (Elt F) ℓ) (h : f = g) (h' : f' = g) :
    iprop((ℓ ↦{fullShare.left} f) ∗ (ℓ ↦{fullShare.right} f')) ⊢ (ℓ ↦{fullShare} g : sProp 𝕄) := by
  subst h; subst h'
  exact (pointsTo_share (PosShare.mem_left_op_right fullShare)).2
/-- A points-to read at equal contents. -/
theorem pt_eq {ℓ : Loc nD τ sig} {q : PosShare TreeShare} (f g : Buf (Elt F) ℓ) (h : f = g) :
    (ℓ ↦{q} f : sProp 𝕄) ⊢ (ℓ ↦{q} g : sProp 𝕄) := by
  subst h; exact .rfl

include hA hq in
/-- ENTRY, the arrays' part: the unscoped buffers at the entry contents are the windows' arrays at the proof data's
    entry contents — the full share of each array read by two windows split into its two halves — and the rest. -/
theorem arrays_of_held (c : Dev nD) :
    (StableHlo.held (c : Thread nD τ) (Pipeline.ucRefs τ sig) (W3 m ρ c) : sProp 𝕄)
      ⊢ iprop((dat0 (V3 m ρ) c).arrays ((dat0 (V3 m ρ) c).arrAt · 0)
          ∗ Pipeline.unscopedRest (Ix := Unit) (Name := ℕ) (U := UR sig nD τ) (Lvl := ℕ) spec0 c (V3 m ρ c)) := by
  have e : ((dat0 (V3 m ρ) c).arrAt · 0) = fun w => V3 m ρ c (Pipeline.arrRef spec0 w) := funext fun w => hA _ c w
  rw [← Pipeline.unscopedBufs_held c (W3 m ρ c), unscopedBufs0_split, arrBufs0_eq, e, arrays0_eq _ (hq _ c)]
  iintro ⟨⟨H8, H5, H2, H3, H9⟩, Hrest⟩
  ihave H8 := (pointsTo_share (PosShare.mem_left_op_right fullShare)).1 $$ H8
  icases H8 with ⟨H8l, H8r⟩
  ihave H5 := (pointsTo_share (PosShare.mem_left_op_right fullShare)).1 $$ H5
  icases H5 with ⟨H5l, H5r⟩
  isplitr [Hrest]
  · isplitl [H8l]; · iexact H8l
    isplitl [H8r]; · iexact H8r
    isplitl [H5l]; · iexact H5l
    isplitl [H5r]; · iexact H5r
    isplitl [H2]; · iexact H2
    isplitl [H3]; · iexact H3
    iexact H9
  iexact Hrest

include hA in
/-- An input window's array ends at its entry contents, which the exit contents keep. -/
theorem arrAt_in_V4 (c : Dev nD) (w : Fin cfg0.W) (hw : (cfg0.win w).isOut = false) (hne : Pipeline.arrRef spec0 w ≠ main_v9) :
    (dat0 (V3 m ρ) c).arrAt w cfg0.N = V4 dat0 m ρ c (Pipeline.arrRef spec0 w) :=
  ((dat0 (V3 m ρ) c).arrAt_in w hw _).trans ((hA _ c w).trans (W4_of_ne dat0 m ρ c _ hne).symm)

include hA hq in
/-- EXIT, the arrays' part: the windows' arrays at their final contents — the two halves of each shared array joined
    back, both at the entry contents — and the rest are the unscoped buffers at the exit contents. -/
theorem held_of_arrays (c : Dev nD) :
    iprop((dat0 (V3 m ρ) c).arrays ((dat0 (V3 m ρ) c).arrAt · cfg0.N)
        ∗ Pipeline.unscopedRest (Ix := Unit) (Name := ℕ) (U := UR sig nD τ) (Lvl := ℕ) spec0 c (V3 m ρ c))
      ⊢ (StableHlo.held (c : Thread nD τ) (Pipeline.ucRefs τ sig) (W4 dat0 m ρ c) : sProp 𝕄) := by
  have hrest : (Pipeline.unscopedRest (Ix := Unit) (Name := ℕ) (U := UR sig nD τ) (Lvl := ℕ) spec0 c (V4 dat0 m ρ c) : sProp 𝕄)
      = Pipeline.unscopedRest spec0 c (V3 m ρ c) := by
    unfold Pipeline.unscopedRest
    refine bigSep_congr fun b hb => ?_
    have hne : b ≠ main_v9 := fun e => (Finset.mem_sdiff.mp hb).2 (Finset.mem_image.mpr ⟨6, Finset.mem_univ _, e ▸ rfl⟩)
    rw [show V4 dat0 m ρ c b = V3 m ρ c b from W4_of_ne dat0 m ρ c b hne]
  rw [← Pipeline.unscopedBufs_held c (W4 dat0 m ρ c), unscopedBufs0_split, arrBufs0_eq, hrest, arrays0_eq _ (hq _ c)]
  iintro ⟨⟨H8l, H8r, H5l, H5r, H2, H3, H9⟩, Hrest⟩
  isplitr [Hrest]
  · isplitl [H8l H8r]
    · iapply (pt_join _ _ _ (arrAt_in_V4 dat0 hA m ρ c 0 rfl (by decide)) (arrAt_in_V4 dat0 hA m ρ c 1 rfl (by decide)))
      isplitl [H8l] <;> iassumption
    isplitl [H5l H5r]
    · iapply (pt_join _ _ _ (arrAt_in_V4 dat0 hA m ρ c 2 rfl (by decide)) (arrAt_in_V4 dat0 hA m ρ c 3 rfl (by decide)))
      isplitl [H5l] <;> iassumption
    isplitl [H2]; · iapply (pt_eq _ _ (arrAt_in_V4 dat0 hA m ρ c 4 rfl (by decide))); iexact H2
    isplitl [H3]; · iapply (pt_eq _ _ (arrAt_in_V4 dat0 hA m ρ c 5 rfl (by decide))); iexact H3
    iapply (pt_eq _ _ (W4_main_v9 dat0 m ρ c).symm); iexact H9
  iexact Hrest

/-! ## The region as a segment -/

set_option backward.isDefEq.respectTransparency.types false in
/-- THE REGION over the thread state: entered from every unscoped buffer at `W3`, left at `W4`. Its arrays split
    out of the unscoped buffers with the shared arrays' shares halved (`arrays_of_held`) and put back at the exit
    contents (`held_of_arrays`); the generator register into the region invariant and out; nothing owed; no
    semaphore of the kernel's own. -/
def reg0 : Pipeline.RegionSeg (pcfgs (F := F)) adm (pdats dat0 m ρ) () defs₀ 𝒱₀ L lv 0 where
  win := winFacts₀0
  block_pos := block_pos0
  stage_whole := stage_whole0
  K := PEmpty
  osem k := k.elim
  ho := Pipeline.OwnSemFacts.none _
  hbody c := (hbody (V3 m ρ) c).loose
  hwaits := Pipeline.hwaits_of_owed_zero _ _ _ _ L lv 0 fun c t => howed (V3 m ρ) c t
  pre c := iprop(StableHlo.held (c : Thread nD τ) (Pipeline.ucRefs τ sig) (W3 m ρ c) ∗ R c)
  post c := iprop(StableHlo.held (c : Thread nD τ) (Pipeline.ucRefs τ sig) (W4 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := arrays_of_held dat0 hA hq m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (dat0 (V3 m ρ) c) 0 (howed _ c 0) (hrec _ c 0)); iexact HO
    isplitl [Hp]; · iexact Hp
    iexact Hrest
  hin c := by
    refine BIBase.Entails.trans ?_ (hin (V3 m ρ) c)
    unfold Pipeline.ΦA
    iintro ⟨Hp, -, Hr⟩
    isplitl [Hr]; · iexact Hr
    iexact Hp
  hout c := by
    rw [Pipeline.ownSems0_none]
    refine BIBase.Entails.trans (hout (V3 m ρ) c) ?_
    unfold Pipeline.ΦA
    iintro ⟨Hr, Hp⟩
    isplitl [Hp]; · iexact Hp
    isplitr; · iempintro
    iexact Hr
  hexit c := by
    have hjoin := held_of_arrays dat0 hA hq m ρ c
    iintro ⟨Ha, HO, HY, Hrest⟩
    imodintro
    isplitl [Ha Hrest]
    · iapply hjoin
      isplitl [Ha]; · iexact Ha
      iexact Hrest
    isplitl [HY]; · iexact HY
    iapply (owesAt_elim (dat0 (V3 m ρ) c) _ (howed _ c _)); iexact HO

/-! ## @main as segments, and the launch -/

/-- @main's five segments in order: three host stretches, the region, the last host stretch. -/
abbrev segs : List (Pipeline.Seg (pcfgs (F := F)) adm (pdats dat0 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 dat0 hA hq howed hrec hbody hin hout m ρ),
    .host (hseg hostOps1 hostOps1_sub hostOps1_fresh (W4 dat0 m ρ)) ]

/-- @main is the run of the segments: the chain of its items is the chain of the segments' fragments. -/
theorem main_run (c : Dev nD) : main (F := F) c = Pipeline.Seg.run (segs dat0 hA hq howed hrec hbody hin hout m ρ) := by
  rw [main_chain c, Pipeline.Seg.run_eq_chain]; rfl

include hA hq howed hrec hbody hin hout in
set_option backward.isDefEq.respectTransparency.types false in
/-- THE RUN of @main: from any memory with zero counters every weakly fair execution terminates, nothing
    faulting, and the final state holds the result buffer at the fold's last contents and the arguments as
    launched. -/
theorem run_main : θ_run defs (onTc (τ := τ) (main (F := F))) ⟨m, fun _ => 0, ρ⟩ (fun r => ∀ c : Dev nD,
      r.2.mem ((c.tc : Thread nD τ).loc main_v11) = W5 dat0 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats dat0 m ρ) () cellOf_inj emb₁ defs₀ 𝒱₀ L lv m ρ main
    (segs dat0 hA hq howed hrec hbody hin hout m ρ)
    (fun c Q => by rw [main_run dat0 hA hq howed hrec hbody hin hout m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 m ρ)
    (hch := ⟨fun _ => .rfl, fun _ => .rfl, fun _ => .rfl, fun _ => .rfl, fun _ => .rfl, fun c => show iprop(StableHlo.held (c : Thread nD τ) (Pipeline.ucRefs τ sig) (W5 dat0 m ρ c) ∗ R c)
        ⊢ iprop(Tₙ dat0 m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 m ρ c) s')
      isplitl [Hh] <;> iassumption)
    (hQ := fun s h c =>
      ⟨h c _ (mem_uc main_v11 (by decide)),
       (h c _ (mem_uc main_arg0 (by decide))).trans (W5_main_arg0 dat0 m ρ c),
       (h c _ (mem_uc main_arg1 (by decide))).trans (W5_main_arg1 dat0 m ρ c)⟩)

end Cert.KernelIdeal.Hand

end
-- ==== Proof.KI.HostArrays.lean ====
import proofs.«141123_j17076789969009_2_alg».proof.Proof.Gen.KernelIdeal.Launch
import proofs.«141123_j17076789969009_2_alg».proof.Proof.Ref.Read
import proofs.«141123_j17076789969009_2_alg».proof.Proof.SpecLaws
import proofs.«141123_j17076789969009_2_alg».proof.Proof.Consts
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

/-!
# The arrays the kernel region is entered with

Before the region the host prepares four arrays from the two inputs: the feature matrix, whose
rows are the 8192 feature vectors (a transposition and a reshape, then a rounding that is the
identity on exact reals); the label matrix, each row the six labels of a sample as numbers followed
by 122 zeros; and, as a column and as a row, the number of labels each sample carries.
Each is read here at an index as a real-valued formula of the inputs.
-/

noncomputable section

namespace Cert.KernelIdeal.Hand

open Cert.KernelIdeal Cert.KernelIdeal.Gen Idealize.ShloMosaic Idealize.ShloMosaic.StableHlo
open scoped BigOperators

/-- The buffers' contents once the three stretches of host operations before the region have
run, from contents W. -/
abbrev pre3 (W : Valuation τ sig (Elt Ideal)) : Valuation τ sig (Elt Ideal) :=
  StableHlo.after hostOps0_2 (StableHlo.after hostOps0_1 (StableHlo.after hostOps0 W))

/-! ## Reading the operations at an index -/

/-- A finite sum of coerced reals is the coerced sum. -/
theorem coe_sum_fin {n : ℕ} (f : Fin n → ℝ) :
    ∑ l, ((f l : ℝ) : EReal) = ((∑ l, f l : ℝ) : EReal) := by
  induction n with
  | zero => simp
  | succ n ih => rw [Fin.sum_univ_succ, Fin.sum_univ_succ, ih, EReal.coe_add]

/-- Padding the six columns on the right up to 128: column k of the result is column k of the
operand for k < 6 and the padding value otherwise. -/
theorem pad_labels_apply {α : Type} (x : S4096x6.Idx → α) (v : S_.Idx → α) (b : Fin 4096)
    (k : Fin 128) :
    pad S4096x128 ![0, 0] ![0, 122] ![0, 0] x v Facts₀.pads_S4096x6_S4096x128_000_01220 Facts₀.h_S_
        (ValueIdx.ix2 b k)
      = if h : k.val < 6 then x (ValueIdx.ix2 b ⟨k.val, h⟩) else v (Shape.Idx.first Facts₀.h_S_) := by
  by_cases h : k.val < 6
  · rw [dif_pos h]
    exact pad_apply_of_inside _ _ _ x v _ _ (ValueIdx.ix2 b k) (ValueIdx.ix2 b ⟨k.val, h⟩)
      (fun a => match a with
        | ⟨0, _⟩ => by show b.val = 0 + b.val * (0 + 1); omega
        | ⟨1, _⟩ => by show k.val = 0 + k.val * (0 + 1); omega)
  · rw [dif_neg h]
    exact pad_apply_of_not_inside _ _ _ x v _ _ (ValueIdx.ix2 b k) ⟨1, by decide⟩ (by
      show ¬ (0 ≤ k.val ∧ (k.val - 0) % (0 + 1) = 0 ∧ (k.val - 0) / (0 + 1) < 6)
      omega)

/-- The sum over the six columns of a row, started from the initial value. -/
theorem rowsum_labels_apply (x : FVec Ideal S4096x6 .f32) (v : FVec Ideal S_ .f32) (b : Fin 4096) :
    Host.reduceAdd x v Facts₀.reducesTo_S4096x6_S4096_d1 Facts₀.h_S_ (ValueIdx.ix1 b)
      = v (Shape.Idx.first Facts₀.h_S_) + ∑ l : Fin 6, x (ValueIdx.ix2 b l) := by
  simp only [Host.reduceAdd, Ideal.hostReduceAdd_def]
  rw [Ideal.hostReduceAdd_single Facts₀.reducesTo_S4096x6_S4096_d1 (by decide)]
  refine congrArg (_ + ·) (Finset.sum_congr rfl fun l _ => ?_)
  exact congrArg x (funext fun a => Fin.ext (by match a with | ⟨0, _⟩ => rfl | ⟨1, _⟩ => rfl))

/-- A vector of 4096 entries written as a column: row b of the column is entry b. -/
theorem bcast_col_apply {α : Type} (y : S4096.Idx → α) (b : Fin 4096) :
    broadcastInDim S4096x1 ![0] Facts₀.bcast_S4096_S4096x1_0 y (ValueIdx.ix2 b (0 : Fin 1))
      = y (ValueIdx.ix1 b) :=
  broadcastInDim_apply _ Facts₀.bcast_S4096_S4096x1_0 y (ValueIdx.ix2 b (0 : Fin 1)) (ValueIdx.ix1 b)
    (fun a => match a with
      | ⟨0, _⟩ => by show b.val = if (4096 : Nat) = 1 then 0 else b.val; rw [if_neg (by decide)])

/-- A column of 4096 entries reshaped into a row: entry b of the row is entry b of the column. -/
theorem reshape_row_apply {α : Type} (y : S4096x1.Idx → α) (b : Fin 4096) :
    shapeCast S1x4096 y Facts₀.shapeCasts_S4096x1_S1x4096 (ValueIdx.ix2 (0 : Fin 1) b)
      = y (ValueIdx.ix2 b (0 : Fin 1)) :=
  shapeCast_apply y Facts₀.shapeCasts_S4096x1_S1x4096 (ValueIdx.ix2 (0 : Fin 1) b)
    (ValueIdx.ix2 b (0 : Fin 1)) (by
      rw [Shape.rowMajor_val_two, Shape.rowMajor_val_two]
      show b.val * 1 + 0 = 0 * 4096 + b.val
      omega)

/-! ## The four arrays as formulas of the inputs -/

/-- The label matrix: the labels as numbers, padded with the number the integer 0 converts to. -/
def labelMatrix (x1 : IVec S4096x6 32) : FVec Ideal S4096x128 .bf16 :=
  pad S4096x128 ![0, 0] ![0, 122] ![0, 0] (sitofp .bf16 x1)
    (sitofp (F := Ideal) .bf16 (constantI S_ 32 0#32)) Facts₀.pads_S4096x6_S4096x128_000_01220 Facts₀.h_S_

/-- The column of label counts: the row sums of the labels as numbers, from zero. -/
def labelCounts (x1 : IVec S4096x6 32) : FVec Ideal S4096x1 .f32 :=
  broadcastInDim S4096x1 ![0] Facts₀.bcast_S4096_S4096x1_0
    (Host.reduceAdd (sitofp .f32 x1) (constant (F := Ideal) S_ .f32 0x00000000#32)
      Facts₀.reducesTo_S4096x6_S4096_d1 Facts₀.h_S_)

/-- Entry (b, k) of the label matrix is label k of sample b for k < 6 and zero otherwise. -/
theorem labelMatrix_apply (x1 : IVec S4096x6 32) (b : Fin 4096) (k : Fin 128) :
    labelMatrix x1 (ValueIdx.ix2 b k)
      = ((Cert.Spec.pad (fun l : Fin 6 => ((x1 (ValueIdx.ix2 b l)).toInt : ℝ)) k : ℝ) : EReal) := by
  unfold labelMatrix
  rw [pad_labels_apply]
  unfold Cert.Spec.pad
  by_cases h : k.val < 6
  · rw [dif_pos h, dif_pos h]; rfl
  · rw [dif_neg h, dif_neg h]
    show (((0#32 : BitVec 32).toInt : ℝ) : EReal) = ((0 : ℝ) : EReal)
    norm_num

/-- Entry b of the column of label counts is the number of labels of sample b. -/
theorem labelCounts_apply (x1 : IVec S4096x6 32) (b : Fin 4096) :
    labelCounts x1 (ValueIdx.ix2 b (0 : Fin 1))
      = ((Cert.Spec.card (fun l : Fin 6 => ((x1 (ValueIdx.ix2 b l)).toInt : ℝ)) : ℝ) : EReal) := by
  unfold labelCounts
  rw [bcast_col_apply, rowsum_labels_apply]
  show Ideal.ofBits .f32 0x00000000#32
      + ∑ l : Fin 6, (((x1 (ValueIdx.ix2 b l)).toInt : ℝ) : EReal) = _
  rw [Cert.Consts.ofBits_zero, zero_add, coe_sum_fin]
  rfl

/-- The feature matrix the region reads is the reference's matrix of feature vectors: the same
transposition and reshape of the same input; the rounding to the narrower format is the identity
on exact reals. -/
theorem pre3_main_v8 (W : Valuation τ sig (Elt Ideal)) :
    (pre3 W (Proc.devRef .tc main_v8) : S8192x128.Idx → EReal)
      = fun i => Cert.ReferenceIdeal.ReadP.val_main_v18 (F := Ideal)
          (W (Proc.devRef .tc main_arg0)) i := by
  dsimp only [pre3, hostOps0, hostOps0_1, hostOps0_2]
  after_results
  rfl

/-- The label matrix the region reads, as a formula of the labels. -/
theorem pre3_main_v5_eq (W : Valuation τ sig (Elt Ideal)) :
    (pre3 W (Proc.devRef .tc main_v5) : S4096x128.Idx → EReal)
      = labelMatrix (W (Proc.devRef .tc main_arg1)) := by
  dsimp only [pre3, hostOps0, hostOps0_1, hostOps0_2]
  after_results
  rfl

/-- The column of label counts the region reads, as a formula of the labels. -/
theorem pre3_main_v2_eq (W : Valuation τ sig (Elt Ideal)) :
    (pre3 W (Proc.devRef .tc main_v2) : S4096x1.Idx → EReal)
      = labelCounts (W (Proc.devRef .tc main_arg1)) := by
  dsimp only [pre3, hostOps0, hostOps0_1, hostOps0_2]
  after_results
  rfl

/-- The row of label counts the region reads is the column reshaped. -/
theorem pre3_main_v3_eq (W : Valuation τ sig (Elt Ideal)) :
    (pre3 W (Proc.devRef .tc main_v3) : S1x4096.Idx → EReal)
      = shapeCast S1x4096 (labelCounts (W (Proc.devRef .tc main_arg1)))
          Facts₀.shapeCasts_S4096x1_S1x4096 := by
  dsimp only [pre3, hostOps0, hostOps0_1, hostOps0_2]
  after_results
  rfl

/-- Entry (b, k) of the label matrix the region reads: label k of sample b for k < 6, else zero. -/
theorem pre3_main_v5 (W : Valuation τ sig (Elt Ideal)) (b : Fin 4096) (k : Fin 128) :
    (pre3 W (Proc.devRef .tc main_v5) : S4096x128.Idx → EReal) (ValueIdx.ix2 b k)
      = ((Cert.Spec.pad (fun l : Fin 6 =>
          (((W (Proc.devRef .tc main_arg1) : S4096x6.Idx → BitVec 32) (ValueIdx.ix2 b l)).toInt : ℝ)) k
            : ℝ) : EReal) := by
  rw [pre3_main_v5_eq, labelMatrix_apply]

/-- Entry b of the column of label counts the region reads: the number of labels of sample b. -/
theorem pre3_main_v2 (W : Valuation τ sig (Elt Ideal)) (b : Fin 4096) :
    (pre3 W (Proc.devRef .tc main_v2) : S4096x1.Idx → EReal) (ValueIdx.ix2 b (0 : Fin 1))
      = ((Cert.Spec.card (fun l : Fin 6 =>
          (((W (Proc.devRef .tc main_arg1) : S4096x6.Idx → BitVec 32) (ValueIdx.ix2 b l)).toInt : ℝ))
            : ℝ) : EReal) := by
  rw [pre3_main_v2_eq, labelCounts_apply]

/-- Entry b of the row of label counts the region reads: the number of labels of sample b. -/
theorem pre3_main_v3 (W : Valuation τ sig (Elt Ideal)) (b : Fin 4096) :
    (pre3 W (Proc.devRef .tc main_v3) : S1x4096.Idx → EReal) (ValueIdx.ix2 (0 : Fin 1) b)
      = ((Cert.Spec.card (fun l : Fin 6 =>
          (((W (Proc.devRef .tc main_arg1) : S4096x6.Idx → BitVec 32) (ValueIdx.ix2 b l)).toInt : ℝ))
            : ℝ) : EReal) := by
  rw [pre3_main_v3_eq, reshape_row_apply, labelCounts_apply]

end Cert.KernelIdeal.Hand

end
-- ==== Proof.KI.Tail.lean ====
import proofs.«141123_j17076789969009_2_alg».proof.Proof.Gen.KernelIdeal.Launch
import proofs.«141123_j17076789969009_2_alg».proof.Proof.Consts
import Idealize.ShloMosaic.Lib.StableHlo.Run
import Idealize.ShloMosaic.Lib.ValueIdx
import Idealize.ShloMosaic.PureOps.Ideal.Laws

/-!
# The mean of the rows' losses

After the region the program adds up the `8192` entries of the row of losses (from zero) and divides by `8192`.
When every entry is a real number the result is the real mean.
-/

noncomputable section

namespace Cert.KernelIdeal.Hand

open Cert.KernelIdeal Cert.KernelIdeal.Gen
open Idealize.ShloMosaic Idealize.ShloMosaic.TcCoe Idealize.SL.Sem Idealize.ShloMosaic.StableHlo
open scoped BigOperators

/-- A finite sum of coerced reals is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The lines after the region, on a row of real losses: their mean. -/
theorem tail_value (W : Valuation τ sig (Elt Ideal)) (g : Fin 8192 → ℝ)
    (h9 : ∀ n : Fin 8192, (W (Proc.devRef .tc main_v9) : S1x8192.Idx → EReal) (ValueIdx.ix2 0 n) = ((g n : ℝ) : EReal)) :
    StableHlo.after (hostOps1 (F := Ideal)) W (Proc.devRef .tc main_v11) = fun _ => (((∑ n : Fin 8192, g n) / 8192 : ℝ) : EReal) := by
  show StableHlo.after (hostOps1 (F := Ideal)) W (Proc.devRef .tc main_v11) = _
  after_results
  funext i
  generalize hy : (W (Proc.devRef .tc main_v9) : S1x8192.Idx → EReal) = y0 at h9
  show Ideal.div _ _ = _
  have hsum : Host.reduceAdd (F := Ideal) (y0 : FVec Ideal S1x8192 .f32) (constant (F := Ideal) S_ .f32 0#32) reducesTo_S1x8192_S_d0_1 h_S_ i = ((∑ n : Fin 8192, g n : ℝ) : EReal) := by
    simp only [Host.reduceAdd, Ideal.hostReduceAdd_def]
    rw [Ideal.hostReduceAdd_total reducesTo_S1x8192_S_d0_1 (fun b => b.elim0) y0 _ i, ValueIdx.sum_idx2,
      Fin.sum_univ_one, ValueIdx.constant_apply, Ideal.ofBits_zero_f32, zero_add]
    simp only [h9]
    exact coe_sum _ _
  rw [hsum, ValueIdx.constant_apply, Cert.Consts.ofBits_8192, Ideal.div_coe (by norm_num : (8192 : ℝ) ≠ 0), ← EReal.coe_mul]
  congr 1
  ring

end Cert.KernelIdeal.Hand

end
-- ==== Proof.PreFacts.lean ====
import proofs.«141123_j17076789969009_2_alg».proof.Proof.Gen.Pre_finite_inputs
import proofs.«141123_j17076789969009_2_alg».proof.Proof.Consts
import Idealize.ShloMosaic.Lib.ReduceAll
import Idealize.ShloMosaic.PureOps.Ideal.Laws

/-!
# The precondition, decoded

The precondition is a conjunction of two statements about all entries of the two inputs: every
feature has absolute value below +∞, and every label is 0 or 1.  Read at the extended reals, the
first says that every feature is a real number.
-/

noncomputable section

namespace Cert.PreFacts

open Idealize.ShloMosaic

/-- The shape of rank zero has exactly one index. -/
instance : Subsingleton Cert.Pre_finite_inputs.S_.Idx := ⟨fun _ _ => funext fun d => d.elim0⟩

/-- A truth value written as a one-bit word is the word 1 exactly when it is true. -/
theorem ofBool_eq_one {b : Bool} : BitVec.ofBool b = 1#1 ↔ b = true := by cases b <;> decide

/-- An extended real whose absolute value, max x (-x), is below +∞ is a real number: the two
infinities both have absolute value +∞. -/
theorem exists_real_of_abs_lt_top (x : EReal) (h : max x (-x) < (⊤ : EReal)) :
    ∃ r : ℝ, x = ((r : ℝ) : EReal) := by
  induction x using EReal.rec with
  | bot => simp at h
  | coe r => exact ⟨r, rfl⟩
  | top => simp at h

/-- Under the precondition every feature is a real number and every label is 0 or 1. -/
theorem decode [Cert.Pre_finite_inputs.Facts]
    (x0 : FVec Ideal Cert.Pre_finite_inputs.S4096x2x128 .f32)
    (x1 : IVec Cert.Pre_finite_inputs.S4096x6 32)
    (h : Cert.Pre_finite_inputs.fn (F := Ideal) x0 x1 = fun _ => 1#1) :
    (∀ i, ∃ r : ℝ, x0 i = ((r : ℝ) : EReal)) ∧ (∀ j, x1 j = 0#32 ∨ x1 j = 1#32) := by
  have h0 := congrFun h (fun d => d.elim0)
  dsimp only [Cert.Pre_finite_inputs.fn] at h0
  obtain ⟨ha, hb⟩ := IntOp.andi_eq_one.1 h0
  refine ⟨fun i => ?_, fun j => ?_⟩
  · have e := Host.reduce_andi_all _ _ _ _ _ ha i
    have e' : Ideal.cmp .olt (max (x0 i) (-(x0 i))) (Ideal.ofBits .f32 0x7F800000#32) = 1#1 := e
    rw [Cert.Consts.ofBits_inf] at e'
    exact exists_real_of_abs_lt_top (x0 i) (of_decide_eq_true (ofBool_eq_one.1 e'))
  · have e := Host.reduce_andi_all _ _ _ _ _ hb j
    rcases IntOp.ori_eq_one.1 e with e0 | e1
    · exact Or.inl (IntOp.cmpi_eq.1 e0)
    · exact Or.inr (IntOp.cmpi_eq.1 e1)

end Cert.PreFacts

end
-- ==== Proof.Inputs.lean ====
import proofs.«141123_j17076789969009_2_alg».proof.Proof.Ref.Read
import Idealize.ShloMosaic.Lib.ValueIdx

/-!
# The two arguments as real data

The feature matrix `[8192, 128]` both programs form (the two views stacked: transpose, then reshape) only moves
entries, so when every feature is a real number every entry of the matrix is one; the labels are integers, read as
reals, and `0/1` when the integers are.
-/

noncomputable section

namespace Cert.Inputs

open Cert.ReferenceIdeal Cert.ReferenceIdeal.ReadP
open Idealize.ShloMosaic Idealize.ShloMosaic.ValueIdx

/-- The feature matrix as reals. -/
def Xof (x0 : (⟨S4096x2x128, .f32⟩ : BufTy).Contents (Elt Ideal)) : Fin 8192 → Fin 128 → ℝ :=
  fun n k => (val_main_v18 (F := Ideal) x0 (ix2 n k)).toReal

/-- The labels as reals. -/
def lbof (x1 : (⟨S4096x6, .i32⟩ : BufTy).Contents (Elt Ideal)) : Fin 4096 → Fin 6 → ℝ :=
  fun b l => ((x1 (ix2 b l)).toInt : ℝ)

/-- With real features the matrix's entries are the reals `Xof`. -/
theorem feat_real (x0 : (⟨S4096x2x128, .f32⟩ : BufTy).Contents (Elt Ideal)) (hfin : ∀ i, ∃ r : ℝ, x0 i = ((r : ℝ) : EReal))
    (n : Fin 8192) (k : Fin 128) : val_main_v18 (F := Ideal) x0 (ix2 n k) = ((Xof x0 n k : ℝ) : EReal) := by
  unfold Xof
  rw [val_main_v18_apply, val_main_v17_apply]
  obtain ⟨r, hr⟩ := hfin (idx_main_v17 (idx_main_v18 (ix2 n k)))
  rw [hr, EReal.toReal_coe]

/-- The labels converted to single precision are the reals `lbof`. -/
theorem lab_real (x1 : (⟨S4096x6, .i32⟩ : BufTy).Contents (Elt Ideal)) (b : Fin 4096) (l : Fin 6) :
    val_main_v0 (F := Ideal) x1 (ix2 b l) = ((lbof x1 b l : ℝ) : EReal) := rfl

/-- `0/1` integer labels are `0/1` reals. -/
theorem lab_bin (x1 : (⟨S4096x6, .i32⟩ : BufTy).Contents (Elt Ideal)) (hb : ∀ j, x1 j = 0#32 ∨ x1 j = 1#32)
    (b : Fin 4096) (l : Fin 6) : lbof x1 b l = 0 ∨ lbof x1 b l = 1 := by
  unfold lbof
  rcases hb (ix2 b l) with h | h
  · left; rw [h]; norm_num
  · right; rw [h]; norm_num

end Cert.Inputs

end
-- ==== Proof.KI.Value.lean ====
import proofs.«141123_j17076789969009_2_alg».proof.Proof.KI.Final
import proofs.«141123_j17076789969009_2_alg».proof.Proof.KI.Run
import proofs.«141123_j17076789969009_2_alg».proof.Proof.KI.HostArrays
import proofs.«141123_j17076789969009_2_alg».proof.Proof.KI.Tail
import proofs.«141123_j17076789969009_2_alg».proof.Proof.PreFacts
import proofs.«141123_j17076789969009_2_alg».proof.Proof.Inputs
import proofs.«141123_j17076789969009_2_alg».proof.Defs

/-!
# The kernel program's result

Under the precondition — real features, `0/1` labels — the arrays the region is entered with hold real data, so the
region leaves the row of losses in the result array and the lines after it return their mean.
-/

noncomputable section

namespace Cert.KernelIdeal.Hand

open Cert.KernelIdeal Cert.KernelIdeal.Gen Cert.Spec
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Under the precondition the region is entered with the real feature matrix, padded labels and label counts. -/
theorem holds_of_pre (hpre : Cert.Pre_KernelIdeal m) (c : Dev nD) :
    Holds (V3 m ρ) (Cert.Inputs.Xof (m ((c : Thread nD τ).loc main_arg0))) (Cert.Inputs.lbof (m ((c : Thread nD τ).loc main_arg1))) c := by
  obtain ⟨hfin, hb⟩ := Cert.PreFacts.decode _ _ (hpre c)
  refine ⟨fun n k => ?_, fun b k => ?_, fun b => ?_, fun b => ?_, Cert.Inputs.lab_bin _ hb⟩
  · show (pre3 (W0 m ρ c) (Proc.devRef .tc main_v8) : S8192x128.Idx → EReal) (ix2 n k) = _
    rw [pre3_main_v8]
    exact Cert.Inputs.feat_real _ hfin n k
  · exact pre3_main_v5 (W0 m ρ c) b k
  · exact pre3_main_v2 (W0 m ρ c) b
  · exact pre3_main_v3 (W0 m ρ c) b

/-- THE KERNEL PROGRAM'S RUN, read: it returns the mean of the rows' losses and leaves its arguments as they were. -/
theorem kernel_value (hpre : Cert.Pre_KernelIdeal m) :
    θ_run defs (onTc (τ := τ) (main (F := Ideal))) ⟨m, fun _ => 0, ρ⟩ (fun r => ∀ c : Dev nD,
      r.2.mem ((c.tc : Thread nD τ).loc main_v11)
        = (fun _ => ((total (Cert.Inputs.Xof (m ((c : Thread nD τ).loc main_arg0))) (Cert.Inputs.lbof (m ((c : Thread nD τ).loc main_arg1))) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      have H := holds_of_pre m ρ hpre c
      show StableHlo.after (hostOps1 (F := Ideal)) (W4 dat0 m ρ c) (Proc.devRef .tc main_v11) = _
      exact tail_value (W4 dat0 m ρ c) (lossRow _ _) (fun n => by rw [W4_main_v9, final6 H]; rfl)), (h c).2⟩)
    (run_main (F := Ideal) dat0 (fun V c w => A_eq0 V c w) (fun V c => rfl) (fun _ _ _ => rfl) (fun _ _ _ => rfl)
      (fun V c => body_obligation0 V c) (fun V c => hin0 V c) (fun V c => hout0 V c) m ρ)

end Cert.KernelIdeal.Hand

end
-- ==== Proof.Ref.Coe.lean ====
import proofs.«141123_j17076789969009_2_alg».proof.Proof.SpecRows
import proofs.«141123_j17076789969009_2_alg».proof.Proof.SpecLaws
import Idealize.ShloMosaic.PureOps.Ideal.Laws

/-!
# Extended-real arithmetic on real operands

The reference program is read at the exact instance, where a float is an extended real.  Every
intermediate of the loss is a real number, so each operation is met at coerced reals only; the
lemmas here say what each operation gives there: a finite sum, a minimum or maximum, a quotient
by a nonzero real, a logarithm of a positive real, a comparison read back as 0 or 1, the equality
test of two 32-bit counters below 8192, and the maximum of a row taken by folding from the bottom
element.
-/

noncomputable section

namespace Cert.ReferenceIdeal.RefValue

open Idealize.ShloMosaic
open scoped BigOperators

/-- A finite sum of coerced reals is the coerced sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The minimum of two coerced reals is the coerced minimum. -/
theorem coe_min (a b : ℝ) : min (a : EReal) (b : EReal) = ((min a b : ℝ) : EReal) :=
  (EReal.coe_strictMono.monotone.map_min).symm

/-- The maximum of two coerced reals is the coerced maximum. -/
theorem coe_max (a b : ℝ) : max (a : EReal) (b : EReal) = ((max a b : ℝ) : EReal) :=
  (EReal.coe_strictMono.monotone.map_max).symm

/-- The quotient of a real by a nonzero real. -/
theorem div_coe_coe (x y : ℝ) (hy : y ≠ 0) :
    Ideal.div (x : EReal) (y : EReal) = ((x / y : ℝ) : EReal) := by
  rw [Ideal.div_coe hy, ← EReal.coe_mul, mul_one_div]

/-- The logarithm of a positive real. -/
theorem log_coe_of_pos {r : ℝ} (h : 0 < r) :
    Ideal.log (r : EReal) = ((Real.log r : ℝ) : EReal) := by
  rw [Ideal.log_coe, if_neg (not_le.mpr h)]

/-- The comparison "x is at least y", read back as a number, is the indicator of y ≤ x. -/
theorem toNat_cmp_oge (x y : ℝ) :
    (((Ideal.cmp .oge (x : EReal) (y : EReal)).toNat : ℝ) : EReal)
      = ((Cert.Spec.ind y x : ℝ) : EReal) := by
  unfold Ideal.cmp Cert.Spec.ind
  by_cases h : y ≤ x
  · have h' : (y : EReal) ≤ (x : EReal) := EReal.coe_le_coe_iff.mpr h
    simp [h, h']
  · have h' : ¬ (y : EReal) ≤ (x : EReal) := fun hh => h (EReal.coe_le_coe_iff.mp hh)
    simp [h, h']

/-- Two row or column counters below 8192, as 32-bit words, are equal exactly when the numbers
are; one minus the equality bit read back as a number is the self-exclusion weight. -/
theorem one_sub_toNat_cmpi_eq (n n' : ℕ) (hn : n < 8192) (hn' : n' < 8192) :
    ((1 : ℝ) : EReal)
        - (((IntOp.cmpi .eq (IntOp.addi (BitVec.ofNat 32 n) 0#32) (BitVec.ofNat 32 n')).toNat : ℝ) : EReal)
      = ((Cert.Spec.msk n n' : ℝ) : EReal) := by
  unfold IntOp.cmpi IntOp.addi Cert.Spec.msk
  rw [BitVec.add_zero, ← EReal.coe_sub]
  by_cases h : n = n'
  · subst h; simp
  · have hne : BitVec.ofNat 32 n ≠ BitVec.ofNat 32 n' := by
      intro e
      have := congrArg BitVec.toNat e
      simp only [BitVec.toNat_ofNat] at this
      omega
    have hb : (BitVec.ofNat 32 n == BitVec.ofNat 32 n') = false := beq_eq_false_iff_ne.mpr hne
    simp [h, hb]

/-- Folding the maximum over a row of reals from the bottom element gives the row's maximum. -/
theorem fold_max_coe {γ : Type} [Fintype γ] [Nonempty γ] (L : γ → ℝ) :
    (Finset.univ : Finset γ).fold max (⊥ : EReal) (fun c => ((L c : ℝ) : EReal))
      = ((Cert.Spec.rowMax L : ℝ) : EReal) := by
  apply le_antisymm
  · rw [Finset.fold_max_le]
    exact ⟨bot_le, fun c _ => EReal.coe_le_coe_iff.mpr (Cert.Spec.le_rowMax L c)⟩
  · rw [Finset.le_fold_max]
    obtain ⟨c, hc⟩ := Cert.Spec.exists_eq_rowMax L
    exact Or.inr ⟨c, Finset.mem_univ c, by rw [hc]⟩

/-- The indicator is 0 or 1, hence not negative. -/
theorem ind_nonneg (thr x : ℝ) : 0 ≤ Cert.Spec.ind thr x := by
  unfold Cert.Spec.ind; split_ifs <;> norm_num

/-- The self-exclusion weight is 0 or 1, hence not negative. -/
theorem msk_nonneg (n n' : ℕ) : 0 ≤ Cert.Spec.msk n n' := by
  unfold Cert.Spec.msk; split_ifs <;> norm_num

end Cert.ReferenceIdeal.RefValue

end
-- ==== Proof.Ref.Jaccard.lean ====
import proofs.«141123_j17076789969009_2_alg».proof.Proof.Ref.Read
import proofs.«141123_j17076789969009_2_alg».proof.Proof.Ref.Coe
import proofs.«141123_j17076789969009_2_alg».proof.Proof.Consts
import Idealize.ShloMosaic.Lib.ValueIdx

/-!
# The reference's Jaccard ratio, its threshold indicator, and their tiling

The labels of the 4096 samples are 0/1 vectors of 6 entries.  For samples b, b' the reference sums
the pointwise minima and maxima of the two vectors (the sizes of the intersection and of the union),
divides the first by the second plus ε, and compares the ratio with the threshold.  The two
[4096, 4096] tables are then repeated twice along each axis: entry (n, n') of a tiled table is entry
(n mod 4096, n' mod 4096) of the table.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

/-- The Jaccard ratio of the label sets of samples b and b'. -/
def jacB (lb : Fin 4096 → Fin 6 → ℝ) (b b' : Fin 4096) : ℝ :=
  Spec.jac Spec.epsR (Spec.inter (lb b) (lb b')) (Spec.card (lb b)) (Spec.card (lb b'))

theorem gR_eq_jacB (lb : Fin 4096 → Fin 6 → ℝ) (n n' : Fin 8192) :
    Spec.gR lb n n' = jacB lb (Spec.brow n) (Spec.brow n') := rfl

section Labels

variable (x1 : (⟨S4096x6, .i32⟩ : BufTy).Contents (Elt Ideal)) (lb : Fin 4096 → Fin 6 → ℝ)
  (hlb : ∀ (b : Fin 4096) (l : Fin 6),
    val_main_v0 (F := Ideal) x1 (ix2 b l) = ((lb b l : ℝ) : EReal))
  (hbin : ∀ b l, lb b l = 0 ∨ lb b l = 1)

include hlb

/-! ## The label vectors broadcast to pairs of samples -/

theorem v1_at (b : Fin 4096) (z : Fin 1) (l : Fin 6) :
    val_main_v1 (F := Ideal) x1 (ix3 b z l) = ((lb b l : ℝ) : EReal) :=
  (val_main_v1_apply x1 (ix3 b z l)).trans
    ((congrArg (val_main_v0 (F := Ideal) x1)
      (show idx_main_v1 (ix3 b z l) = ix2 b l from
        funext fun a => by match a with | ⟨0, _⟩ => rfl | ⟨1, _⟩ => rfl)).trans (hlb b l))

theorem v2_at (z : Fin 1) (b' : Fin 4096) (l : Fin 6) :
    val_main_v2 (F := Ideal) x1 (ix3 z b' l) = ((lb b' l : ℝ) : EReal) :=
  (val_main_v2_apply x1 (ix3 z b' l)).trans
    ((congrArg (val_main_v0 (F := Ideal) x1)
      (show idx_main_v2 (ix3 z b' l) = ix2 b' l from
        funext fun a => by match a with | ⟨0, _⟩ => rfl | ⟨1, _⟩ => rfl)).trans (hlb b' l))

theorem v3_at (b b' : Fin 4096) (l : Fin 6) :
    val_main_v3 (F := Ideal) x1 (ix3 b b' l) = ((lb b l : ℝ) : EReal) :=
  (val_main_v3_apply x1 (ix3 b b' l)).trans
    ((congrArg (val_main_v1 (F := Ideal) x1)
      (show idx_main_v3 (ix3 b b' l) = ix3 b (⟨0, Nat.one_pos⟩ : Fin 1) l from
        funext fun a => by match a with | ⟨0, _⟩ => rfl | ⟨1, _⟩ => rfl | ⟨2, _⟩ => rfl)).trans
      (v1_at x1 lb hlb b _ l))

theorem v4_at (b b' : Fin 4096) (l : Fin 6) :
    val_main_v4 (F := Ideal) x1 (ix3 b b' l) = ((lb b' l : ℝ) : EReal) :=
  (val_main_v4_apply x1 (ix3 b b' l)).trans
    ((congrArg (val_main_v2 (F := Ideal) x1)
      (show idx_main_v4 (ix3 b b' l) = ix3 (⟨0, Nat.one_pos⟩ : Fin 1) b' l from
        funext fun a => by match a with | ⟨0, _⟩ => rfl | ⟨1, _⟩ => rfl | ⟨2, _⟩ => rfl)).trans
      (v2_at x1 lb hlb _ b' l))

theorem v7_at (b b' : Fin 4096) (l : Fin 6) :
    val_main_v7 (F := Ideal) x1 (ix3 b b' l) = ((lb b l : ℝ) : EReal) :=
  (val_main_v7_apply x1 (ix3 b b' l)).trans
    ((congrArg (val_main_v1 (F := Ideal) x1)
      (show idx_main_v7 (ix3 b b' l) = ix3 b (⟨0, Nat.one_pos⟩ : Fin 1) l from
        funext fun a => by match a with | ⟨0, _⟩ => rfl | ⟨1, _⟩ => rfl | ⟨2, _⟩ => rfl)).trans
      (v1_at x1 lb hlb b _ l))

theorem v8_at (b b' : Fin 4096) (l : Fin 6) :
    val_main_v8 (F := Ideal) x1 (ix3 b b' l) = ((lb b' l : ℝ) : EReal) :=
  (val_main_v8_apply x1 (ix3 b b' l)).trans
    ((congrArg (val_main_v2 (F := Ideal) x1)
      (show idx_main_v8 (ix3 b b' l) = ix3 (⟨0, Nat.one_pos⟩ : Fin 1) b' l from
        funext fun a => by match a with | ⟨0, _⟩ => rfl | ⟨1, _⟩ => rfl | ⟨2, _⟩ => rfl)).trans
      (v2_at x1 lb hlb _ b' l))

/-! ## Pointwise minimum and maximum -/

theorem v5_at (b b' : Fin 4096) (l : Fin 6) :
    val_main_v5 (F := Ideal) x1 (ix3 b b' l) = ((min (lb b l) (lb b' l) : ℝ) : EReal) := by
  rw [val_main_v5_apply, v3_at x1 lb hlb, v4_at x1 lb hlb, Ideal.minimumf_def, coe_min]

theorem v9_at (b b' : Fin 4096) (l : Fin 6) :
    val_main_v9 (F := Ideal) x1 (ix3 b b' l) = ((max (lb b l) (lb b' l) : ℝ) : EReal) := by
  rw [val_main_v9_apply, v7_at x1 lb hlb, v8_at x1 lb hlb, Ideal.maximumf_def, coe_max]

/-! ## The sizes of the intersection and of the union -/

include hbin

/-- The sum over the labels of the minima is the size of the intersection. -/
theorem v6_at (b b' : Fin 4096) :
    val_main_v6 (F := Ideal) x1 (ix2 b b') = ((Spec.inter (lb b) (lb b') : ℝ) : EReal) := by
  rw [val_main_v6_apply, val_main_cst_apply, Ideal.ofBits_def, Consts.ofBits_zero, zero_add,
    ← Spec.sum_min_eq_inter _ _ (hbin b) (hbin b'), ← coe_sum]
  refine Finset.sum_congr rfl fun k _ => ?_
  exact (congrArg (val_main_v5 (F := Ideal) x1)
    (show idx_main_v6 (ix2 b b') k = ix3 b b' k from
      funext fun a => by match a with | ⟨0, _⟩ => rfl | ⟨1, _⟩ => rfl | ⟨2, _⟩ => rfl)).trans
    (v5_at x1 lb hlb b b' k)

/-- The sum over the labels of the maxima is the size of the union. -/
theorem v10_at (b b' : Fin 4096) :
    val_main_v10 (F := Ideal) x1 (ix2 b b')
      = ((Spec.card (lb b) + Spec.card (lb b') - Spec.inter (lb b) (lb b') : ℝ) : EReal) := by
  rw [val_main_v10_apply, val_main_cst_0_apply, Ideal.ofBits_def, Consts.ofBits_zero, zero_add,
    ← Spec.sum_max_eq_union _ _ (hbin b) (hbin b'), ← coe_sum]
  refine Finset.sum_congr rfl fun k _ => ?_
  exact (congrArg (val_main_v9 (F := Ideal) x1)
    (show idx_main_v10 (ix2 b b') k = ix3 b b' k from
      funext fun a => by match a with | ⟨0, _⟩ => rfl | ⟨1, _⟩ => rfl | ⟨2, _⟩ => rfl)).trans
    (v9_at x1 lb hlb b b' k)

omit hlb hbin in
/-- The broadcast ε. -/
theorem v11_at (i : S4096x4096.Idx) :
    val_main_v11 (F := Ideal) i = ((Spec.epsR : ℝ) : EReal) :=
  (val_main_v11_apply i).trans ((val_main_cst_1_apply _).trans Consts.ofBits_eps)

theorem v12_at (b b' : Fin 4096) :
    val_main_v12 (F := Ideal) x1 (ix2 b b')
      = (((Spec.card (lb b) + Spec.card (lb b') - Spec.inter (lb b) (lb b')) + Spec.epsR : ℝ) : EReal) := by
  rw [val_main_v12_apply, v10_at x1 lb hlb hbin, v11_at, Ideal.addf_def, ← EReal.coe_add]

/-! ## The ratio and its threshold indicator -/

/-- The quotient is the Jaccard ratio: the divisor is a positive real. -/
theorem v13_at (b b' : Fin 4096) :
    val_main_v13 (F := Ideal) x1 (ix2 b b') = ((jacB lb b b' : ℝ) : EReal) := by
  rw [val_main_v13_apply, v6_at x1 lb hlb hbin, v12_at x1 lb hlb hbin, Ideal.hostDivf_def,
    div_coe_coe _ _ (Spec.union_add_eps_ne_zero Spec.epsR_pos _ _ (hbin b) (hbin b'))]
  rfl

omit hlb hbin in
/-- The broadcast threshold. -/
theorem v14_at (i : S4096x4096.Idx) :
    val_main_v14 (F := Ideal) i = ((Spec.thrR : ℝ) : EReal) :=
  (val_main_v14_apply i).trans ((val_main_cst_2_apply _).trans Consts.ofBits_thr)

/-- The comparison with the threshold, converted to a float, is the indicator. -/
theorem v16_at (b b' : Fin 4096) :
    val_main_v16 (F := Ideal) x1 (ix2 b b') = ((Spec.ind Spec.thrR (jacB lb b b') : ℝ) : EReal) := by
  rw [val_main_v16_apply, val_main_v15_apply, v13_at x1 lb hlb hbin, v14_at]
  exact toNat_cmp_oge _ _

/-! ## Tiling to [8192, 8192] -/

omit hlb hbin in
/-- Entry (n, n') of a tiled table is entry (n mod 4096, n' mod 4096) of the table. -/
theorem tile_idx_mask (n n' : Fin 8192) :
    idx_main_v27 (idx_main_v28 (idx_main_v29 (ix2 n n'))) = ix2 (Spec.brow n) (Spec.brow n') := by
  have hn := n.isLt
  have hn' := n'.isLt
  funext a
  match a with
  | ⟨0, _⟩ =>
    apply Fin.ext
    show (((0 * 4096 + (n.val * 8192 + n'.val) / 8192 % 4096) * 1 + 0) * 4096
      + (n.val * 8192 + n'.val) % 4096) / 4096 = n.val % 4096
    omega
  | ⟨1, _⟩ =>
    apply Fin.ext
    show (((0 * 4096 + (n.val * 8192 + n'.val) / 8192 % 4096) * 1 + 0) * 4096
      + (n.val * 8192 + n'.val) % 4096) % 4096 = n'.val % 4096
    omega

omit hlb hbin in
/-- The same for the second tiled table. -/
theorem tile_idx_ratio (n n' : Fin 8192) :
    idx_main_v30 (idx_main_v31 (idx_main_v32 (ix2 n n'))) = ix2 (Spec.brow n) (Spec.brow n') := by
  have hn := n.isLt
  have hn' := n'.isLt
  funext a
  match a with
  | ⟨0, _⟩ =>
    apply Fin.ext
    show (((0 * 4096 + (n.val * 8192 + n'.val) / 8192 % 4096) * 1 + 0) * 4096
      + (n.val * 8192 + n'.val) % 4096) / 4096 = n.val % 4096
    omega
  | ⟨1, _⟩ =>
    apply Fin.ext
    show (((0 * 4096 + (n.val * 8192 + n'.val) / 8192 % 4096) * 1 + 0) * 4096
      + (n.val * 8192 + n'.val) % 4096) % 4096 = n'.val % 4096
    omega

/-- The tiled indicator at (n, n'). -/
theorem v29_at (n n' : Fin 8192) :
    val_main_v29 (F := Ideal) x1 (ix2 n n')
      = ((Spec.ind Spec.thrR (Spec.gR lb n n') : ℝ) : EReal) :=
  (val_main_v29_apply x1 _).trans <| (val_main_v28_apply x1 _).trans <|
    (val_main_v27_apply x1 _).trans <|
      (congrArg (val_main_v16 (F := Ideal) x1) (tile_idx_mask n n')).trans
        (v16_at x1 lb hlb hbin (Spec.brow n) (Spec.brow n'))

/-- The tiled ratio at (n, n'). -/
theorem v32_at (n n' : Fin 8192) :
    val_main_v32 (F := Ideal) x1 (ix2 n n') = ((Spec.gR lb n n' : ℝ) : EReal) :=
  (val_main_v32_apply x1 _).trans <| (val_main_v31_apply x1 _).trans <|
    (val_main_v30_apply x1 _).trans <|
      (congrArg (val_main_v13 (F := Ideal) x1) (tile_idx_ratio n n')).trans
        (v13_at x1 lb hlb hbin (Spec.brow n) (Spec.brow n'))

end Labels

end Cert.ReferenceIdeal.RefValue

end
-- ==== Proof.Ref.Logits.lean ====
import proofs.«141123_j17076789969009_2_alg».proof.Proof.Ref.Read
import proofs.«141123_j17076789969009_2_alg».proof.Proof.Ref.Coe
import proofs.«141123_j17076789969009_2_alg».proof.Proof.Consts
import Idealize.ShloMosaic.Lib.ValueIdx

/-!
# The reference's logits, their row maximum, the self-exclusion weight and the softmax denominator

The feature matrix has 8192 rows of 128 entries.  The logit of row n against row n' is the inner
product of the two rows divided by the temperature.  Each row of logits is shifted by its maximum,
exponentiated, multiplied by the weight that is 0 on the diagonal and 1 elsewhere, and summed; the
logarithm of the sum plus ε is the row's log-denominator.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

/-! ## The self-exclusion weight -/

/-- One minus the indicator of the diagonal. -/
theorem v40_at (n n' : Fin 8192) :
    val_main_v40 (F := Ideal) (ix2 n n') = ((Spec.gW n n' : ℝ) : EReal) := by
  rw [val_main_v40_apply, val_main_v39_apply, val_main_cst_5_apply, val_main_v38_apply,
    val_main_v37_apply, val_main_v36_apply, val_main_v33_apply, val_main_v35_apply,
    val_main_c_apply, val_main_v34_apply, Ideal.ofBits_def, Consts.ofBits_one]
  exact one_sub_toNat_cmpi_eq n.val n'.val n.isLt n'.isLt

/-- The weight is not negative. -/
theorem gW_nonneg (n n' : Fin 8192) : 0 ≤ Spec.gW n n' := msk_nonneg _ _

/-! ## The maximum of a row of an [8192, 8192] table of reals -/

/-- Row n of the table with column k put back is entry (n, k). -/
theorem lift_row (h : S8192x8192.Reduces [1] S8192) (n : Fin 8192) (k : Fin (S8192x8192.size 1)) :
    h.lift (ix1 n) k = ix2 n (⟨k.val, k.isLt⟩ : Fin 8192) := by
  funext c; apply Fin.ext
  fin_cases c <;> rfl

/-- The reduction with a maximum body from the bottom element along the rows of a table of
reals: at row n, the maximum of the row. -/
theorem hostReduce_max_row (y : FVec Ideal S8192x8192 .f32) (L : Fin 8192 → Fin 8192 → ℝ)
    (hy : ∀ n n', y (ix2 n n') = ((L n n' : ℝ) : EReal)) (n : Fin 8192) :
    Host.reduce FloatOps.maximumf y (constant (F := Ideal) S_ .f32 0xFF800000#32)
        reducesTo_S8192x8192_S8192_d1 h_S_ (ix1 n)
      = ((Spec.rowMax (L n) : ℝ) : EReal) := by
  have h : S8192x8192.Reduces [1] S8192 := by decide
  rw [Host.reduce_eq_fold_single FloatOps.maximumf y _ reducesTo_S8192x8192_S8192_d1 h h_S_]
  have hf : (y ∘ h.lift (ix1 n)) = fun k : Fin 8192 => ((L n k : ℝ) : EReal) :=
    funext fun k => (congrArg y (lift_row h n k)).trans (hy n _)
  refine Eq.trans (congrArg (fun f => Finset.fold max (Ideal.ofBits .f32 0xFF800000#32) f
    (Finset.univ : Finset (Fin 8192))) hf) ?_
  rw [Consts.ofBits_neg_inf]
  exact fold_max_coe (L n)

section Features

variable (x0 : (⟨S4096x2x128, .f32⟩ : BufTy).Contents (Elt Ideal)) (X : Fin 8192 → Fin 128 → ℝ)
  (hX : ∀ (n : Fin 8192) (k : Fin 128),
    val_main_v18 (F := Ideal) x0 (ix2 n k) = ((X n k : ℝ) : EReal))

include hX

/-! ## The logits -/

theorem v19_at (k : Fin 128) (n : Fin 8192) :
    val_main_v19 (F := Ideal) x0 (ix2 k n) = ((X n k : ℝ) : EReal) :=
  (val_main_v19_apply x0 (ix2 k n)).trans
    ((congrArg (val_main_v18 (F := Ideal) x0)
      (show idx_main_v19 (ix2 k n) = ix2 n k from
        funext fun a => by match a with | ⟨0, _⟩ => rfl | ⟨1, _⟩ => rfl)).trans (hX n k))

/-- The contraction is the inner product of the two rows. -/
theorem v20_at (n n' : Fin 8192) :
    val_main_v20 (F := Ideal) x0 (ix2 n n') = ((∑ k : Fin 128, X n k * X n' k : ℝ) : EReal) := by
  rw [val_main_v20_apply, ← coe_sum]
  refine Finset.sum_congr rfl fun k _ => ?_
  have hl : val_main_v18 (F := Ideal) x0 (lidx_main_v20 (ix2 n n') k) = ((X n k : ℝ) : EReal) :=
    (congrArg (val_main_v18 (F := Ideal) x0)
      (show lidx_main_v20 (ix2 n n') k = ix2 n k from
        funext fun a => by match a with | ⟨0, _⟩ => rfl | ⟨1, _⟩ => rfl)).trans (hX n k)
  have hr : val_main_v19 (F := Ideal) x0 (ridx_main_v20 (ix2 n n') k) = ((X n' k : ℝ) : EReal) :=
    (congrArg (val_main_v19 (F := Ideal) x0)
      (show ridx_main_v20 (ix2 n n') k = ix2 k n' from
        funext fun a => by match a with | ⟨0, _⟩ => rfl | ⟨1, _⟩ => rfl)).trans (v19_at x0 X hX k n')
  rw [hl, hr, EReal.coe_mul]

omit hX in
/-- The broadcast temperature. -/
theorem v21_at (i : S8192x8192.Idx) :
    val_main_v21 (F := Ideal) i = (((4697621 / 67108864 : ℝ)) : EReal) :=
  (val_main_v21_apply i).trans ((val_main_cst_3_apply _).trans Consts.ofBits_temp)

/-- Dividing by the temperature gives the logit. -/
theorem v22_at (n n' : Fin 8192) :
    val_main_v22 (F := Ideal) x0 (ix2 n n') = ((Spec.gL X n n' : ℝ) : EReal) := by
  rw [val_main_v22_apply, v20_at x0 X hX, v21_at, Ideal.hostDivf_def,
    div_coe_coe _ _ (by norm_num), Spec.div_temp_eq_mul_cK]
  rfl

/-! ## The row maximum and the shifted logits -/

/-- The reduction with a maximum body over a row of logits is the row's maximum. -/
theorem v23_at (n : Fin 8192) :
    val_main_v23 (F := Ideal) x0 (ix1 n) = ((Spec.rowMax (Spec.gL X n) : ℝ) : EReal) := by
  unfold val_main_v23 val_main_cst_4
  exact hostReduce_max_row _ (Spec.gL X) (v22_at x0 X hX) n

theorem v24_at (n : Fin 8192) (z : Fin 1) :
    val_main_v24 (F := Ideal) x0 (ix2 n z) = ((Spec.rowMax (Spec.gL X n) : ℝ) : EReal) :=
  (val_main_v24_apply x0 (ix2 n z)).trans
    ((congrArg (val_main_v23 (F := Ideal) x0)
      (show idx_main_v24 (ix2 n z) = ix1 n from
        funext fun a => by match a with | ⟨0, _⟩ => rfl)).trans (v23_at x0 X hX n))

theorem v25_at (n n' : Fin 8192) :
    val_main_v25 (F := Ideal) x0 (ix2 n n') = ((Spec.rowMax (Spec.gL X n) : ℝ) : EReal) :=
  (val_main_v25_apply x0 (ix2 n n')).trans
    ((congrArg (val_main_v24 (F := Ideal) x0)
      (show idx_main_v25 (ix2 n n') = ix2 n (⟨0, Nat.one_pos⟩ : Fin 1) from
        funext fun a => by match a with | ⟨0, _⟩ => rfl | ⟨1, _⟩ => rfl)).trans
      (v24_at x0 X hX n _))

theorem v26_at (n n' : Fin 8192) :
    val_main_v26 (F := Ideal) x0 (ix2 n n')
      = ((Spec.gL X n n' - Spec.rowMax (Spec.gL X n) : ℝ) : EReal) := by
  rw [val_main_v26_apply, v22_at x0 X hX, v25_at x0 X hX, Ideal.subf_def, ← EReal.coe_sub]

/-! ## Exponentials, their weighted row sum, and its logarithm -/

theorem v42_at (n n' : Fin 8192) :
    val_main_v42 (F := Ideal) x0 (ix2 n n')
      = ((Real.exp (Spec.gL X n n' - Spec.rowMax (Spec.gL X n)) : ℝ) : EReal) := by
  rw [val_main_v42_apply, v26_at x0 X hX, Ideal.hostUnary_exp_def, Ideal.exp_coe]

theorem v43_at (n n' : Fin 8192) :
    val_main_v43 (F := Ideal) x0 (ix2 n n')
      = ((Real.exp (Spec.gL X n n' - Spec.rowMax (Spec.gL X n)) * Spec.gW n n' : ℝ) : EReal) := by
  rw [val_main_v43_apply, v42_at x0 X hX, v40_at, Ideal.mulf_def, ← EReal.coe_mul]

/-- The weighted sum of the exponentials of a row. -/
theorem v44_at (n : Fin 8192) :
    val_main_v44 (F := Ideal) x0 (ix1 n)
      = ((Spec.rowS (Spec.gL X n) (Spec.gW n) : ℝ) : EReal) := by
  rw [val_main_v44_apply, val_main_cst_6_apply, Ideal.ofBits_def, Consts.ofBits_zero, zero_add]
  unfold Spec.rowS
  rw [← coe_sum]
  refine Finset.sum_congr rfl fun k _ => ?_
  exact (congrArg (val_main_v43 (F := Ideal) x0)
    (show idx_main_v44 (ix1 n) k = ix2 n k from
      funext fun a => by match a with | ⟨0, _⟩ => rfl | ⟨1, _⟩ => rfl)).trans
    (v43_at x0 X hX n k)

theorem v45_at (n : Fin 8192) (z : Fin 1) :
    val_main_v45 (F := Ideal) x0 (ix2 n z)
      = ((Spec.rowS (Spec.gL X n) (Spec.gW n) : ℝ) : EReal) :=
  (val_main_v45_apply x0 (ix2 n z)).trans
    ((congrArg (val_main_v44 (F := Ideal) x0)
      (show idx_main_v45 (ix2 n z) = ix1 n from
        funext fun a => by match a with | ⟨0, _⟩ => rfl)).trans (v44_at x0 X hX n))

omit hX in
/-- The broadcast ε. -/
theorem v46_at (i : S8192x1.Idx) :
    val_main_v46 (F := Ideal) i = ((Spec.epsR : ℝ) : EReal) :=
  (val_main_v46_apply i).trans ((val_main_cst_7_apply _).trans Consts.ofBits_eps)

theorem v47_at (n : Fin 8192) (z : Fin 1) :
    val_main_v47 (F := Ideal) x0 (ix2 n z)
      = ((Spec.rowS (Spec.gL X n) (Spec.gW n) + Spec.epsR : ℝ) : EReal) := by
  rw [val_main_v47_apply, v45_at x0 X hX, v46_at, Ideal.addf_def, ← EReal.coe_add]

/-- The logarithm of the denominator: its argument is a positive real. -/
theorem v48_at (n : Fin 8192) (z : Fin 1) :
    val_main_v48 (F := Ideal) x0 (ix2 n z)
      = ((Real.log (Spec.rowS (Spec.gL X n) (Spec.gW n) + Spec.epsR) : ℝ) : EReal) := by
  rw [val_main_v48_apply, v47_at x0 X hX, Ideal.hostUnary_log_def,
    log_coe_of_pos (Spec.rowS_add_eps_pos Spec.epsR_pos _ _ (gW_nonneg n))]

end Features

end Cert.ReferenceIdeal.RefValue

end
-- ==== Proof.Ref.Value.lean ====
import proofs.«141123_j17076789969009_2_alg».proof.Proof.Ref.Jaccard
import proofs.«141123_j17076789969009_2_alg».proof.Proof.Ref.Logits

/-!
# The reference's result is the specification's loss

With the ratio, the indicator, the weight, the shifted logits and the log-denominator read as
reals, a row of the reference sums q (L - M - log (S + ε)) r over its columns, divides by the
sum of q plus ε and negates; the result averages the 8192 rows, which the reference first lays
out as 2 views of 4096 samples.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

/-- Row v * 4096 + b is sample b seen in view v. -/
def viewEquiv : Fin 2 × Fin 4096 ≃ Fin 8192 where
  toFun p := ⟨p.1.val * 4096 + p.2.val, by have := p.1.isLt; have := p.2.isLt; omega⟩
  invFun n := (⟨n.val / 4096, by have := n.isLt; omega⟩, ⟨n.val % 4096, Nat.mod_lt _ (by norm_num)⟩)
  left_inv := by
    rintro ⟨a, b⟩
    have ha := a.isLt
    have hb := b.isLt
    ext
    · show (a.val * 4096 + b.val) / 4096 = a.val; omega
    · show (a.val * 4096 + b.val) % 4096 = b.val; omega
  right_inv := by
    intro n
    ext
    show n.val / 4096 * 4096 + n.val % 4096 = n.val
    omega

/-- A sum over the rows is the sum over the views of the sums over the samples. -/
theorem sum_views {M : Type} [AddCommMonoid M] (g : Fin 8192 → M) :
    ∑ n : Fin 8192, g n = ∑ a : Fin 2, ∑ b : Fin 4096, g (viewEquiv (a, b)) := by
  rw [← viewEquiv.sum_comp g, Fintype.sum_prod_type]

/-- The positive-pair weight is not negative. -/
theorem gQ_nonneg (lb : Fin 4096 → Fin 6 → ℝ) (n n' : Fin 8192) : 0 ≤ Spec.gQ lb n n' :=
  mul_nonneg (ind_nonneg _ _) (gW_nonneg n n')

section Result

variable (x0 : (⟨S4096x2x128, .f32⟩ : BufTy).Contents (Elt Ideal))
  (x1 : (⟨S4096x6, .i32⟩ : BufTy).Contents (Elt Ideal))
  (X : Fin 8192 → Fin 128 → ℝ)
  (hX : ∀ (n : Fin 8192) (k : Fin 128),
    val_main_v18 (F := Ideal) x0 (ix2 n k) = ((X n k : ℝ) : EReal))
  (lb : Fin 4096 → Fin 6 → ℝ)
  (hlb : ∀ (b : Fin 4096) (l : Fin 6),
    val_main_v0 (F := Ideal) x1 (ix2 b l) = ((lb b l : ℝ) : EReal))
  (hbin : ∀ b l, lb b l = 0 ∨ lb b l = 1)

/-! ## The positive-pair weight and its row sum -/

include hlb hbin

theorem v41_at (n n' : Fin 8192) :
    val_main_v41 (F := Ideal) x1 (ix2 n n') = ((Spec.gQ lb n n' : ℝ) : EReal) := by
  rw [val_main_v41_apply, v29_at x1 lb hlb hbin, v40_at, Ideal.mulf_def, ← EReal.coe_mul]
  rfl

theorem v54_at (n : Fin 8192) :
    val_main_v54 (F := Ideal) x1 (ix1 n) = ((Spec.rowC (Spec.gQ lb n) : ℝ) : EReal) := by
  rw [val_main_v54_apply, val_main_cst_9_apply, Ideal.ofBits_def, Consts.ofBits_zero, zero_add]
  unfold Spec.rowC
  rw [← coe_sum]
  refine Finset.sum_congr rfl fun k _ => ?_
  exact (congrArg (val_main_v41 (F := Ideal) x1)
    (show idx_main_v54 (ix1 n) k = ix2 n k from
      funext fun a => by match a with | ⟨0, _⟩ => rfl | ⟨1, _⟩ => rfl)).trans
    (v41_at x1 lb hlb hbin n k)

omit hlb hbin in
/-- The broadcast ε. -/
theorem v55_at (i : S8192.Idx) :
    val_main_v55 (F := Ideal) i = ((Spec.epsR : ℝ) : EReal) :=
  (val_main_v55_apply i).trans ((val_main_cst_10_apply _).trans Consts.ofBits_eps)

theorem v56_at (n : Fin 8192) :
    val_main_v56 (F := Ideal) x1 (ix1 n)
      = ((Spec.rowC (Spec.gQ lb n) + Spec.epsR : ℝ) : EReal) := by
  rw [val_main_v56_apply, v54_at x1 lb hlb hbin, v55_at, Ideal.addf_def, ← EReal.coe_add]

/-! ## The numerator of a row -/

include hX

omit hlb hbin in
theorem v49_at (n n' : Fin 8192) :
    val_main_v49 (F := Ideal) x0 (ix2 n n')
      = ((Real.log (Spec.rowS (Spec.gL X n) (Spec.gW n) + Spec.epsR) : ℝ) : EReal) :=
  (val_main_v49_apply x0 (ix2 n n')).trans
    ((congrArg (val_main_v48 (F := Ideal) x0)
      (show idx_main_v49 (ix2 n n') = ix2 n (⟨0, Nat.one_pos⟩ : Fin 1) from
        funext fun a => by match a with | ⟨0, _⟩ => rfl | ⟨1, _⟩ => rfl)).trans
      (v48_at x0 X hX n _))

omit hlb hbin in
theorem v50_at (n n' : Fin 8192) :
    val_main_v50 (F := Ideal) x0 (ix2 n n')
      = (((Spec.gL X n n' - Spec.rowMax (Spec.gL X n))
          - Real.log (Spec.rowS (Spec.gL X n) (Spec.gW n) + Spec.epsR) : ℝ) : EReal) := by
  rw [val_main_v50_apply, v26_at x0 X hX, v49_at x0 X hX, Ideal.subf_def, ← EReal.coe_sub]

theorem v52_at (n n' : Fin 8192) :
    val_main_v52 (F := Ideal) x0 x1 (ix2 n n')
      = (((Spec.gQ lb n n' * ((Spec.gL X n n' - Spec.rowMax (Spec.gL X n))
          - Real.log (Spec.rowS (Spec.gL X n) (Spec.gW n) + Spec.epsR))) * Spec.gR lb n n' : ℝ) : EReal) := by
  rw [val_main_v52_apply, val_main_v51_apply, v41_at x1 lb hlb hbin, v50_at x0 X hX,
    v32_at x1 lb hlb hbin, Ideal.mulf_def, Ideal.mulf_def, ← EReal.coe_mul, ← EReal.coe_mul]

theorem v53_at (n : Fin 8192) :
    val_main_v53 (F := Ideal) x0 x1 (ix1 n)
      = ((Spec.rowNum Spec.epsR (Spec.gQ lb n) (Spec.gR lb n) (Spec.gL X n) (Spec.gW n) : ℝ) : EReal) := by
  rw [val_main_v53_apply, val_main_cst_8_apply, Ideal.ofBits_def, Consts.ofBits_zero, zero_add]
  unfold Spec.rowNum
  rw [← coe_sum]
  refine Finset.sum_congr rfl fun k _ => ?_
  exact (congrArg (val_main_v52 (F := Ideal) x0 x1)
    (show idx_main_v53 (ix1 n) k = ix2 n k from
      funext fun a => by match a with | ⟨0, _⟩ => rfl | ⟨1, _⟩ => rfl)).trans
    (v52_at x0 x1 X hX lb hlb hbin n k)

/-! ## The loss of a row -/

theorem v57_at (n : Fin 8192) :
    val_main_v57 (F := Ideal) x0 x1 (ix1 n)
      = ((Spec.rowNum Spec.epsR (Spec.gQ lb n) (Spec.gR lb n) (Spec.gL X n) (Spec.gW n)
          / (Spec.rowC (Spec.gQ lb n) + Spec.epsR) : ℝ) : EReal) := by
  rw [val_main_v57_apply, v53_at x0 x1 X hX lb hlb hbin, v56_at x1 lb hlb hbin, Ideal.hostDivf_def,
    div_coe_coe _ _ (Spec.rowC_add_eps_ne_zero Spec.epsR_pos _ (gQ_nonneg lb n))]

omit hX hlb hbin in
/-- The broadcast -1. -/
theorem v58_at (i : S8192.Idx) :
    val_main_v58 (F := Ideal) i = (((-1 : ℝ)) : EReal) :=
  (val_main_v58_apply i).trans ((val_main_cst_11_apply _).trans Consts.ofBits_neg_one)

theorem v59_at (n : Fin 8192) :
    val_main_v59 (F := Ideal) x0 x1 (ix1 n) = ((Spec.lossRow X lb n : ℝ) : EReal) := by
  rw [val_main_v59_apply, v58_at, v57_at x0 x1 X hX lb hlb hbin, Ideal.mulf_def, ← EReal.coe_mul]
  rfl

/-! ## The mean over the rows -/

theorem v60_at (a : Fin 2) (b : Fin 4096) :
    val_main_v60 (F := Ideal) x0 x1 (ix2 a b)
      = ((Spec.lossRow X lb (viewEquiv (a, b)) : ℝ) : EReal) :=
  (val_main_v60_apply x0 x1 (ix2 a b)).trans
    ((congrArg (val_main_v59 (F := Ideal) x0 x1)
      (show idx_main_v60 (ix2 a b) = ix1 (viewEquiv (a, b)) from
        funext fun c => by match c with | ⟨0, _⟩ => rfl)).trans
      (v59_at x0 x1 X hX lb hlb hbin _))

theorem v61_at (i : S_.Idx) :
    val_main_v61 (F := Ideal) x0 x1 i = ((∑ n : Fin 8192, Spec.lossRow X lb n : ℝ) : EReal) := by
  rw [val_main_v61_apply, val_main_cst_12_apply, Ideal.ofBits_def, Consts.ofBits_zero, zero_add,
    sum_idx2, sum_views, ← coe_sum]
  refine Finset.sum_congr rfl fun a _ => ?_
  rw [← coe_sum]
  exact Finset.sum_congr rfl fun b _ => v60_at x0 x1 X hX lb hlb hbin a b

/-- The reference's result is the specification's mean loss. -/
theorem ref_result :
    val_main_v62 (F := Ideal) x0 x1 = fun _ => ((Spec.total X lb : ℝ) : EReal) := by
  funext i
  rw [val_main_v62_apply, v61_at x0 x1 X hX lb hlb hbin, val_main_cst_13_apply, Ideal.ofBits_def,
    Consts.ofBits_8192, Ideal.hostDivf_def, div_coe_coe _ _ (by norm_num)]
  rfl

end Result

end Cert.ReferenceIdeal.RefValue

end
-- ==== Proof.lean ====
/-
  A fused multi-label contrastive loss against its plain reference.

  The `8192` rows are the two views of `4096` samples stacked. Row `n` meets every row `n'` as a column: the logit is the
  inner product of the two feature rows times the reciprocal of the temperature, the weight is `0` at `n' = n` and `1`
  elsewhere, `r` is the Jaccard ratio of the two samples' label sets and `q` the indicator that `r` reaches the threshold,
  times the weight. With `M` the row's largest logit and `S = ∑ exp (L - M) · w`, the row's loss is
  `-(∑ q · r · (L - M - log (S + ε))) / (∑ q + ε)`, and the result is the mean over the rows.

  The reference computes exactly that. The kernel visits the columns of a row tile by tile, keeping a running maximum `m`,
  the sum `l` of exponentials rescaled to the current maximum, and the plain partial sums `a = ∑ q r L`, `b = ∑ q r`,
  `c = ∑ q`; after the last tile it stores `-(a - b (m + log (l + ε))) / (c + ε)`. Over the reals the rescaling
  `exp (x - m) · exp (m - m') = exp (x - m')` makes `l` the reference's `S`, and distributing the sum makes
  `a - b (M + log (S + ε))` the reference's numerator. The kernel takes the label sets' intersection as an inner product and
  the union as `|A| + |B| - |A ∩ B|`, the reference as sums of minima and maxima: equal for `0/1` labels, which the
  precondition states. The kernel's folded reciprocal of the temperature is read as the exact reciprocal of the reference's
  temperature literal. Every intermediate is a real number when the features are (the one exception, the running maximum's
  initial `-∞`, is absorbed at the first tile), so all of this is arithmetic in `ℝ` under a coercion.
-/
import proofs.«141123_j17076789969009_2_alg».proof.Defs
import proofs.«141123_j17076789969009_2_alg».proof.Proof.Gen.Kernel
import proofs.«141123_j17076789969009_2_alg».proof.Proof.Gen.KernelIdeal
import proofs.«141123_j17076789969009_2_alg».proof.Proof.Gen.ReferenceIdeal
import proofs.«141123_j17076789969009_2_alg».proof.Proof.Gen.Pre_finite_inputs
import proofs.«141123_j17076789969009_2_alg».proof.Proof.K.Run
import proofs.«141123_j17076789969009_2_alg».proof.Proof.K.Data
import proofs.«141123_j17076789969009_2_alg».proof.Proof.KI.Value
import proofs.«141123_j17076789969009_2_alg».proof.Proof.Ref.Value
import Idealize.ShloMosaic.Adequacy
import Idealize.ShloMosaic.Init

noncomputable section

namespace Cert.Proof

open Idealize.ShloMosaic Idealize.SL.Sem

/-- The kernel program as printed runs to the end and leaves its arguments as they were. -/
theorem frame_k : Cert.frame_Kernel := fun m ρ _ =>
  (θ_run Cert.Kernel.defs _ _).mono (fun _ h c => (h c).2)
    (Cert.Kernel.Hand.run_main (F := Bits) Cert.Kernel.Hand.dat0 (fun V c w => Cert.Kernel.Hand.A_eq0 V c w) (fun V c => rfl)
      (fun _ _ _ => rfl) (fun _ _ _ => rfl) (fun V c => Cert.Kernel.Hand.body_obligation0 V c)
      (fun V c => Cert.Kernel.Hand.hin0 V c) (fun V c => Cert.Kernel.Hand.hout0 V c) m ρ)

/-- So does its reading over the extended reals. -/
theorem frame_ki : Cert.frame_KernelIdeal := fun m ρ hpre =>
  (θ_run Cert.KernelIdeal.defs _ _).mono (fun _ h c => (h c).2) (Cert.KernelIdeal.Hand.kernel_value m ρ hpre)

/-- And the reference. -/
theorem frame_ri : Cert.frame_ReferenceIdeal := fun m ρ _ =>
  (θ_run Cert.ReferenceIdeal.defs _ _).mono (fun _ h c => (h c).2) (Cert.ReferenceIdeal.ValueP.run (F := Ideal) m ρ)

/-- The folded reciprocal of the temperature denotes, over the extended reals, the exact reciprocal `2^26 / 4697621`. -/
theorem preserves : Cert.preserves_Kernel_KernelIdeal :=
  IdealRules.named_const.statement Cert.KernelIdeal.κ "inv_temp" .f32 0x41649247#32 ((67108864 / 4697621 : ℝ) : EReal) rfl

/-- Both programs return the mean of the rows' losses of the same real data. -/
theorem algebraic : Cert.algebraic_KernelIdeal_ReferenceIdeal := by
  intro m ρ m' ρ' hpre hagree
  refine ⟨fun c => fun _ => ((Cert.Spec.total
      (Cert.Inputs.Xof (m ((c.tc : Thread Cert.KernelIdeal.nD Cert.KernelIdeal.τ).loc Cert.KernelIdeal.main_arg0)))
      (Cert.Inputs.lbof (m ((c.tc : Thread Cert.KernelIdeal.nD Cert.KernelIdeal.τ).loc Cert.KernelIdeal.main_arg1))) : ℝ) : EReal),
    Cert.KernelIdeal.Hand.kernel_value m ρ hpre, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v62_eq, (hagree c).1, (hagree c).2]
  obtain ⟨hfin, hb⟩ := Cert.PreFacts.decode _ _ (hpre c)
  exact Cert.ReferenceIdeal.RefValue.ref_result _ _ _ (Cert.Inputs.feat_real _ hfin) _ (Cert.Inputs.lab_real _)
    (Cert.Inputs.lab_bin _ hb)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
